-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x11 : Shape := ⟨2, ![16, 11]⟩
abbrev S11 : Shape := ⟨1, ![11]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x11 : S_.BroadcastsInDim S16x11 (![] : Fin 0 → Fin S16x11.rank)
  reducesTo_S16x11_S_d0_1 : S16x11.ReducesTo [0, 1] S_
  bcast_S_S11 : S_.BroadcastsInDim S11 (![] : Fin 0 → Fin S11.rank)
  reducesTo_S11_S_d0 : S11.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part1 {F : FTy → Type} [FloatOps F] (main_arg1 : IVec S2x3200000 32) (main_arg5 : FVec F S11 .f32) (main_v13 : IVec S_ 1) (main_v16 : IVec S16x11 1) : IVec S_ 1 :=
  let main_c_5 : IVec S_ 1 := constantI S_ 1 1#1
  let main_v17 : IVec S_ 1 := (fun x v => Host.reduce IntOp.andi x v reducesTo_S16x11_S_d0_1 h_S_) main_v16 main_c_5
  let main_v18 : IVec S_ 1 := andi main_v13 main_v17
  let main_v19 : FVec F S11 .f32 := Host.absf main_arg5
  let main_cst_6 : FVec F S_ .f32 := constant S_ .f32 0x7F800000#32
  let main_v20 : FVec F S11 .f32 := broadcastInDim S11 ![] bcast_S_S11 main_cst_6
  let main_v21 : IVec S11 1 := cmpf .olt main_v19 main_v20
  let main_c_7 : IVec S_ 1 := constantI S_ 1 1#1
  let main_v22 : IVec S_ 1 := (fun x v => Host.reduce IntOp.andi x v reducesTo_S11_S_d0 h_S_) main_v21 main_c_7
  let main_v23 : IVec S_ 1 := andi main_v18 main_v22
  let main_c_8 : IVec S_ 32 := constantI S_ 32 0#32
  let main_v24 : IVec S2x3200000 32 := broadcastInDim S2x3200000 ![] bcast_S_S2x3200000 main_c_8
  let main_v25 : IVec S2x3200000 1 := cmpi .sge main_arg1 main_v24
  let main_c_9 : IVec S_ 1 := constantI S_ 1 1#1
  let main_v26 : IVec S_ 1 := (fun x v => Host.reduce IntOp.andi x v reducesTo_S2x3200000_S_d0_1 h_S_) main_v25 main_c_9
  let main_v27 : IVec S_ 1 := andi main_v23 main_v26
  let main_c_10 : IVec S_ 32 := constantI S_ 32 100000#32
  let main_v28 : IVec S2x3200000 32 := broadcastInDim S2x3200000 ![] bcast_S_S2x3200000 main_c_10
  let main_v29 : IVec S2x3200000 1 := cmpi .slt main_arg1 main_v28
  let main_c_11 : IVec S_ 1 := constantI S_ 1 1#1
  let main_v30 : IVec S_ 1 := (fun x v => Host.reduce IntOp.andi x v reducesTo_S2x3200000_S_d0_1 h_S_) main_v29 main_c_11
  let main_v31 : IVec S_ 1 := andi main_v27 main_v30
  main_v31

def fn {F : FTy → Type} [FloatOps F] (main_arg0 : FVec F S100000x128 .f32) (main_arg1 : IVec S2x3200000 32) (main_arg2 : FVec F S128x16 .f32) (main_arg3 : FVec F S16 .f32) (main_arg4 : FVec F S16x11 .f32) (main_arg5 : FVec F S11 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x16 .f32 := Host.absf main_arg2
  let main_cst_0 : FVec F S_ .f32 := constant S_ .f32 0x7F800000#32
  let main_v5 : FVec F S128x16 .f32 := broadcastInDim S128x16 ![] bcast_S_S128x16 main_cst_0
  let main_v6 : IVec S128x16 1 := cmpf .olt main_v4 main_v5
  let main_c_1 : IVec S_ 1 := constantI S_ 1 1#1
  let main_v7 : IVec S_ 1 := (fun x v => Host.reduce IntOp.andi x v reducesTo_S128x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x11 .f32 := Host.absf main_arg4
  let main_cst_4 : FVec F S_ .f32 := constant S_ .f32 0x7F800000#32
  let main_v15 : FVec F S16x11 .f32 := broadcastInDim S16x11 ![] bcast_S_S16x11 main_cst_4
  let main_v16 : IVec S16x11 1 := cmpf .olt main_v14 main_v15
  fn_part1 (F := F) main_arg1 main_arg5 main_v13 main_v16
-- ==== Kernel.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x11 : Shape := ⟨2, ![16, 11]⟩
abbrev S11 : Shape := ⟨1, ![11]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x16 : Shape := ⟨2, ![100000, 16]⟩
abbrev S10000x128 : Shape := ⟨2, ![10000, 128]⟩
abbrev S10000x16 : Shape := ⟨2, ![10000, 16]⟩
abbrev S100000x1 : Shape := ⟨2, ![100000, 1]⟩
abbrev S3200000x16 : Shape := ⟨2, ![3200000, 16]⟩
abbrev S1x16 : Shape := ⟨2, ![1, 16]⟩
abbrev S5000x16 : Shape := ⟨2, ![5000, 16]⟩
abbrev S5000x1 : Shape := ⟨2, ![5000, 1]⟩
abbrev S100000x11 : Shape := ⟨2, ![100000, 11]⟩
abbrev S10000x11 : Shape := ⟨2, ![10000, 11]⟩
abbrev S3200000x11 : Shape := ⟨2, ![3200000, 11]⟩
abbrev S1x11 : Shape := ⟨2, ![1, 11]⟩
abbrev S5000x11 : Shape := ⟨2, ![5000, 11]⟩
abbrev S5000 : Shape := ⟨1, ![5000]⟩

abbrev nBuf : Space → Nat
  | .hbm => 58
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x16, .f32⟩
  | .hbm, ⟨3, _⟩ => ⟨S16, .f32⟩
  | .hbm, ⟨4, _⟩ => ⟨S16x11, .f32⟩
  | .hbm, ⟨5, _⟩ => ⟨S11, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S_, .f32⟩
  | .hbm, ⟨11, _⟩ => ⟨S3200000, .f32⟩
  | .hbm, ⟨12, _⟩ => ⟨S_, .f32⟩
  | .hbm, ⟨13, _⟩ => ⟨S100000, .f32⟩
  | .hbm, ⟨14, _⟩ => ⟨S3200000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000x16, .f32⟩
  | .hbm, ⟨21, _⟩ => ⟨S100000x1, .f32⟩
  | .hbm, ⟨22, _⟩ => ⟨S100000x16, .f32⟩
  | .hbm, ⟨23, _⟩ => ⟨S100000x16, .f32⟩
  | .hbm, ⟨24, _⟩ => ⟨S_, .i32⟩
  | .hbm, ⟨25, _⟩ => ⟨S3200000, .i32⟩
  | .hbm, ⟨26, _⟩ => ⟨S3200000, .i1⟩
  | .hbm, ⟨27, _⟩ => ⟨S_, .i32⟩
  | .hbm, ⟨28, _⟩ => ⟨S3200000, .i32⟩
  | .hbm, ⟨29, _⟩ => ⟨S3200000, .i32⟩
  | .hbm, ⟨30, _⟩ => ⟨S3200000, .i32⟩
  | .hbm, ⟨31, _⟩ => ⟨S3200000x1, .i32⟩
  | .hbm, ⟨32, _⟩ => ⟨S3200000x16, .f32⟩
  | .hbm, ⟨33, _⟩ => ⟨S_, .f32⟩
  | .hbm, ⟨34, _⟩ => ⟨S100000x16, .f32⟩
  | .hbm, ⟨35, _⟩ => ⟨S3200000x1, .i32⟩
  | .hbm, ⟨36, _⟩ => ⟨S100000x16, .f32⟩
  | .hbm, ⟨37, _⟩ => ⟨S1x16, .f32⟩
  | .hbm, ⟨38, _⟩ => ⟨S100000x16, .f32⟩
  | .hbm, ⟨39, _⟩ => ⟨S100000x11, .f32⟩
  | .hbm, ⟨40, _⟩ => ⟨S100000x1, .f32⟩
  | .hbm, ⟨41, _⟩ => ⟨S100000x11, .f32⟩
  | .hbm, ⟨42, _⟩ => ⟨S100000x11, .f32⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S3200000x11, .f32⟩
  | .hbm, ⟨52, _⟩ => ⟨S_, .f32⟩
  | .hbm, ⟨53, _⟩ => ⟨S100000x11, .f32⟩
  | .hbm, ⟨54, _⟩ => ⟨S3200000x1, .i32⟩
  | .hbm, ⟨55, _⟩ => ⟨S100000x11, .f32⟩
  | .hbm, ⟨56, _⟩ => ⟨S1x11, .f32⟩
  | .hbm, ⟨57, _⟩ => ⟨S100000x11, .f32⟩
  | .local _ .vmem, ⟨0, _⟩ => ⟨S10000x128, .f32⟩
  | .local _ .vmem, ⟨1, _⟩ => ⟨S10000x128, .f32⟩
  | .local _ .vmem, ⟨2, _⟩ => ⟨S128x16, .f32⟩
  | .local _ .vmem, ⟨3, _⟩ => ⟨S10000x16, .f32⟩
  | .local _ .vmem, ⟨4, _⟩ => ⟨S10000x16, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x1, .f32⟩
  | .local _ .vmem, ⟨10, _⟩ => ⟨S5000x1, .f32⟩
  | .local _ .vmem, ⟨11, _⟩ => ⟨S1x16, .f32⟩
  | .local _ .vmem, ⟨12, _⟩ => ⟨S5000x16, .f32⟩
  | .local _ .vmem, ⟨13, _⟩ => ⟨S5000x16, .f32⟩
  | .local _ .vmem, ⟨14, _⟩ => ⟨S10000x16, .f32⟩
  | .local _ .vmem, ⟨15, _⟩ => ⟨S10000x16, .f32⟩
  | .local _ .vmem, ⟨16, _⟩ => ⟨S16x11, .f32⟩
  | .local _ .vmem, ⟨17, _⟩ => ⟨S10000x11, .f32⟩
  | .local _ .vmem, ⟨18, _⟩ => ⟨S10000x11, .f32⟩
  | .local _ .vmem, ⟨19, _⟩ => ⟨S5000x11, .f32⟩
  | .local _ .vmem, ⟨20, _⟩ => ⟨S5000x11, .f32⟩
  | .local _ .vmem, ⟨21, _⟩ => ⟨S5000x11, .f32⟩
  | .local _ .vmem, ⟨22, _⟩ => ⟨S5000x11, .f32⟩
  | .local _ .vmem, ⟨23, _⟩ => ⟨S5000x1, .f32⟩
  | .local _ .vmem, ⟨24, _⟩ => ⟨S5000x1, .f32⟩
  | .local _ .vmem, ⟨25, _⟩ => ⟨S1x11, .f32⟩
  | .local _ .vmem, ⟨26, _⟩ => ⟨S5000x11, .f32⟩
  | .local _ .vmem, ⟨27, _⟩ => ⟨S5000x11, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_c_4 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x11 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x11 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x11 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x11 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x11 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x11 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S10000x16_S10000x16_0_0 : ∀ a, (![0, 0] : Fin 2 → Nat) a + S10000x16.size a ≤ S10000x16.size a
  h_S10000x16 : 0 < S10000x16.numel
  shapeCasts_S100000_S100000x1 : S100000.ShapeCasts S100000x1
  bcast_S100000x1_S100000x16_0_1 : S100000x1.BroadcastsInDim S100000x16 (![0, 1] : Fin 2 → Fin S100000x16.rank)
  bcast_S_S100000x16 : S_.BroadcastsInDim S100000x16 (![] : Fin 0 → Fin S100000x16.rank)
  shapeCasts_S16_S1x16 : S16.ShapeCasts S1x16
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x16_S5000x16_0_0 : ∀ a, (![0, 0] : Fin 2 → Nat) a + S5000x16.size a ≤ S5000x16.size a
  h_S5000x16 : 0 < S5000x16.numel
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  shapeCasts_S10000x16_S10000x16 : S10000x16.ShapeCasts S10000x16
  inb_S16x11_S16x11_0_0 : ∀ a, (![0, 0] : Fin 2 → Nat) a + S16x11.size a ≤ S16x11.size a
  h_S16x11 : 0 < S16x11.numel
  inb_S10000x11_S10000x11_0_0 : ∀ a, (![0, 0] : Fin 2 → Nat) a + S10000x11.size a ≤ S10000x11.size a
  h_S10000x11 : 0 < S10000x11.numel
  bcast_S100000x1_S100000x11_0_1 : S100000x1.BroadcastsInDim S100000x11 (![0, 1] : Fin 2 → Fin S100000x11.rank)
  bcast_S_S100000x11 : S_.BroadcastsInDim S100000x11 (![] : Fin 0 → Fin S100000x11.rank)
  shapeCasts_S11_S1x11 : S11.ShapeCasts S1x11
  inb_S5000x11_S5000x11_0_0 : ∀ a, (![0, 0] : Fin 2 → Nat) a + S5000x11.size a ≤ S5000x11.size a
  h_S5000x11 : 0 < S5000x11.numel
  shapeCasts_S5000x11_S5000x11 : S5000x11.ShapeCasts S5000x11
  broadcasts_S5000x1_S5000x11 : S5000x1.Broadcasts S5000x11
  inb_S1x11_S1x11_0_0 : ∀ a, (![0, 0] : Fin 2 → Nat) a + S1x11.size a ≤ S1x11.size a
  h_S1x11 : 0 < S1x11.numel
  shapeCasts_S1x11_S1x11 : S1x11.ShapeCasts S1x11
  broadcasts_S1x11_S5000x11 : S1x11.Broadcasts S5000x11
  reduces_S5000x11_S5000 : S5000x11.Reduces [1] S5000
  shapeCasts_S5000_S5000x1 : S5000.ShapeCasts S5000x1
  scatter_S100000_S3200000x1_S3200000_n_0_0_1_wf : ScatterDims.WF S100000 S3200000x1 S3200000 [] [0] [0] 1
  dot_S10000x128_S128x16_S10000x16_1_0_0_1_n_n_wf : DotDims.WF S10000x128 S128x16 S10000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x11_S10000x11_1_0_0_1_n_n_wf : DotDims.WF S10000x16 S16x11 S10000x11 [1] [0] [0] [1] [] []
  gather_S100000x11_S3200000x1_S3200000x11_1_0_n_n_0_1_111_wf : GatherDims.WF S100000x11 S3200000x1 S3200000x11 [1] [0] [] [0] [] 1 ![1, 11]
  scatter_S100000x11_S3200000x1_S3200000x11_1_0_0_1_wf : ScatterDims.WF S100000x11 S3200000x1 S3200000x11 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x16.size a ≤ S1x16.size a
  hwx1_3 : ∀ i : grid1.Coords, EltTy.bits .f32 = 32 ∨ (Rect.block (s := S1x16) S1x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x16.size a ≤ S100000x16.size a
  hwx1_4 : ∀ i : grid1.Coords, EltTy.bits .f32 = 32 ∨ (Rect.block (s := S100000x16) S5000x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x16.size a ≤ S100000x16.size a
  hwx2_0 : ∀ i : grid2.Coords, EltTy.bits .f32 = 32 ∨ (Rect.block (s := S100000x16) S10000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x11.size a ≤ S16x11.size a
  hwx2_1 : ∀ i : grid2.Coords, EltTy.bits .f32 = 32 ∨ (Rect.block (s := S16x11) S16x11.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x11.size a ≤ S100000x11.size a
  hwx2_2 : ∀ i : grid2.Coords, EltTy.bits .f32 = 32 ∨ (Rect.block (s := S100000x11) S10000x11.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x11.size a ≤ S100000x11.size a
  hwx3_0 : ∀ i : grid3.Coords, EltTy.bits .f32 = 32 ∨ (Rect.block (s := S100000x11) S5000x11.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x11.size a ≤ S100000x11.size a
  hwx3_1 : ∀ i : grid3.Coords, EltTy.bits .f32 = 32 ∨ (Rect.block (s := S100000x11) S5000x11.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x11.size a ≤ S1x11.size a
  hwx3_3 : ∀ i : grid3.Coords, EltTy.bits .f32 = 32 ∨ (Rect.block (s := S1x11) S1x11.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x11.size a ≤ S100000x11.size a
  hwx3_4 : ∀ i : grid3.Coords, EltTy.bits .f32 = 32 ∨ (Rect.block (s := S100000x11) S5000x11.size (cc3_transform_4 i) (hinb3_4 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x11_S10000x11_1_0_0_1_n_n : DotDims S10000x16 S16x11 S10000x11 where
  lhsContracting := [1]
  rhsContracting := [0]
  lhsNonContracting := [0]
  rhsNonContracting := [1]
  lhsBatch := []
  rhsBatch := []
  wf := dot_S10000x16_S16x11_S10000x11_1_0_0_1_n_n_wf
def gather_S100000x11_S3200000x1_S3200000x11_1_0_n_n_0_1_111 : GatherDims S100000x11 S3200000x1 S3200000x11 where
  offsetDims := [1]
  collapsedSliceDims := [0]
  operandBatchingDims := []
  startIndicesBatchingDims := []
  startIndexMap := [0]
  indexVectorDim := 1
  sliceSizes := ![1, 11]
  wf := gather_S100000x11_S3200000x1_S3200000x11_1_0_n_n_0_1_111_wf
def scatter_S100000x11_S3200000x1_S3200000x11_1_0_0_1 : ScatterDims S100000x11 S3200000x1 S3200000x11 where
  updateWindowDims := [1]
  insertedWindowDims := [0]
  scatterDimsToOperandDims := [0]
  indexVectorDim := 1
  wf := scatter_S100000x11_S3200000x1_S3200000x11_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v24) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S5000x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v26) S10000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S16x11.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S10000x11.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v40) S5000x11.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S5000x11.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v41) S1x11.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v42) S5000x11.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x16 : Shape := ⟨2, ![128, 16]⟩
abbrev S16 : Shape := ⟨1, ![16]⟩
abbrev S16x11 : Shape := ⟨2, ![16, 11]⟩
abbrev S11 : Shape := ⟨1, ![11]⟩
abbrev S1x3200000 : Shape := ⟨2, ![1, 3200000]⟩
abbrev S3200000 : Shape := ⟨1, ![3200000]⟩
abbrev S100000x16 : Shape := ⟨2, ![100000, 16]⟩
abbrev S_ : Shape := ⟨0, ![]⟩
abbrev S100000 : Shape := ⟨1, ![100000]⟩
abbrev S3200000x1 : Shape := ⟨2, ![3200000, 1]⟩
abbrev S3200000x16 : Shape := ⟨2, ![3200000, 16]⟩
abbrev S100000x1 : Shape := ⟨2, ![100000, 1]⟩
abbrev S1x16 : Shape := ⟨2, ![1, 16]⟩
abbrev S100000x11 : Shape := ⟨2, ![100000, 11]⟩
abbrev S3200000x11 : Shape := ⟨2, ![3200000, 11]⟩
abbrev S1x11 : Shape := ⟨2, ![1, 11]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S2x3200000, .i32⟩
  | 2 => ⟨S128x16, .f32⟩
  | 3 => ⟨S16, .f32⟩
  | 4 => ⟨S16x11, .f32⟩
  | 5 => ⟨S11, .f32⟩
  | 6 => ⟨S1x3200000, .i32⟩
  | 7 => ⟨S3200000, .i32⟩
  | 8 => ⟨S1x3200000, .i32⟩
  | 9 => ⟨S3200000, .i32⟩
  | 10 => ⟨S100000x16, .f32⟩
  | 11 => ⟨S_, .f32⟩
  | 12 => ⟨S100000, .f32⟩
  | 13 => ⟨S_, .i32⟩
  | 14 => ⟨S3200000, .i32⟩
  | 15 => ⟨S3200000, .i1⟩
  | 16 => ⟨S_, .i32⟩
  | 17 => ⟨S3200000, .i32⟩
  | 18 => ⟨S3200000, .i32⟩
  | 19 => ⟨S3200000, .i32⟩
  | 20 => ⟨S3200000x1, .i32⟩
  | 21 => ⟨S_, .f32⟩
  | 22 => ⟨S3200000, .f32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000, .f32⟩
  | 46 => ⟨S3200000, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000x16, .f32⟩
  | 56 => ⟨S3200000x1, .f32⟩
  | 57 => ⟨S3200000x16, .f32⟩
  | 58 => ⟨S3200000x16, .f32⟩
  | 59 => ⟨S_, .f32⟩
  | 60 => ⟨S100000x16, .f32⟩
  | 61 => ⟨S3200000x1, .i32⟩
  | 62 => ⟨S100000x16, .f32⟩
  | 63 => ⟨S100000, .f32⟩
  | 64 => ⟨S100000x1, .f32⟩
  | 65 => ⟨S100000x16, .f32⟩
  | 66 => ⟨S100000x16, .f32⟩
  | 67 => ⟨S100000x16, .f32⟩
  | 68 => ⟨S1x16, .f32⟩
  | 69 => ⟨S100000x16, .f32⟩
  | 70 => ⟨S100000x16, .f32⟩
  | 71 => ⟨S_, .f32⟩
  | 72 => ⟨S100000x16, .f32⟩
  | 73 => ⟨S100000x16, .f32⟩
  | 74 => ⟨S100000x11, .f32⟩
  | 75 => ⟨S_, .f32⟩
  | 76 => ⟨S100000, .f32⟩
  | 77 => ⟨S_, .i32⟩
  | 78 => ⟨S3200000, .i32⟩
  | 79 => ⟨S3200000, .i1⟩
  | 80 => ⟨S_, .i32⟩
  | 81 => ⟨S3200000, .i32⟩
  | 82 => ⟨S3200000, .i32⟩
  | 83 => ⟨S3200000, .i32⟩
  | 84 => ⟨S3200000x1, .i32⟩
  | 85 => ⟨S_, .f32⟩
  | 86 => ⟨S3200000, .f32⟩
  | 87 => ⟨S100000, .f32⟩
  | 88 => ⟨S_, .f32⟩
  | 89 => ⟨S100000, .f32⟩
  | 90 => ⟨S100000, .f32⟩
  | 91 => ⟨S100000, .f32⟩
  | 92 => ⟨S_, .i32⟩
  | 93 => ⟨S3200000, .i32⟩
  | 94 => ⟨S3200000, .i1⟩
  | 95 => ⟨S_, .i32⟩
  | 96 => ⟨S3200000, .i32⟩
  | 97 => ⟨S3200000, .i32⟩
  | 98 => ⟨S3200000, .i32⟩
  | 99 => ⟨S3200000x1, .i32⟩
  | 100 => ⟨S3200000, .f32⟩
  | 101 => ⟨S_, .i32⟩
  | 102 => ⟨S3200000, .i32⟩
  | 103 => ⟨S3200000, .i1⟩
  | 104 => ⟨S_, .i32⟩
  | 105 => ⟨S3200000, .i32⟩
  | 106 => ⟨S3200000, .i32⟩
  | 107 => ⟨S3200000, .i32⟩
  | 108 => ⟨S3200000x1, .i32⟩
  | 109 => ⟨S3200000, .f32⟩
  | 110 => ⟨S3200000, .f32⟩
  | 111 => ⟨S_, .i32⟩
  | 112 => ⟨S3200000, .i32⟩
  | 113 => ⟨S3200000, .i1⟩
  | 114 => ⟨S_, .i32⟩
  | 115 => ⟨S3200000, .i32⟩
  | 116 => ⟨S3200000, .i32⟩
  | 117 => ⟨S3200000, .i32⟩
  | 118 => ⟨S3200000x1, .i32⟩
  | 119 => ⟨S3200000x11, .f32⟩
  | 120 => ⟨S3200000x1, .f32⟩
  | 121 => ⟨S3200000x11, .f32⟩
  | 122 => ⟨S3200000x11, .f32⟩
  | 123 => ⟨S_, .f32⟩
  | 124 => ⟨S100000x11, .f32⟩
  | 125 => ⟨S3200000x1, .i32⟩
  | 126 => ⟨S100000x11, .f32⟩
  | 127 => ⟨S100000, .f32⟩
  | _ => ⟨S100000x128, .f32⟩

abbrev hbmTy0_1 (i : Nat) : BufTy := match i % 128 with
  | 0 => ⟨S100000x1, .f32⟩
  | 1 => ⟨S100000x11, .f32⟩
  | 2 => ⟨S100000x11, .f32⟩
  | 3 => ⟨S100000x11, .f32⟩
  | 4 => ⟨S1x11, .f32⟩
  | 5 => ⟨S100000x11, .f32⟩
  | 6 => ⟨S100000x11, .f32⟩
  | 7 => ⟨S_, .f32⟩
  | 8 => ⟨S100000, .f32⟩
  | 9 => ⟨S_, .f32⟩
  | 10 => ⟨S100000, .f32⟩
  | 11 => ⟨S100000, .f32⟩
  | 12 => ⟨S100000x1, .f32⟩
  | 13 => ⟨S100000x11, .f32⟩
  | 14 => ⟨S100000x11, .f32⟩
  | 15 => ⟨S100000x11, .f32⟩
  | 16 => ⟨S_, .f32⟩
  | 17 => ⟨S100000, .f32⟩
  | 18 => ⟨S100000x1, .f32⟩
  | 19 => ⟨S100000x1, .f32⟩
  | 20 => ⟨S100000x11, .f32⟩
  | 21 => ⟨S100000x11, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_cst_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_15 : Ref sig .tc := ⟨.hbm, 92, rfl⟩
abbrev main_v67 : Ref sig .tc := ⟨.hbm, 93, rfl⟩
abbrev main_v68 : Ref sig .tc := ⟨.hbm, 94, rfl⟩
abbrev main_c_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_c_18 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_c_19 : Ref sig .tc := ⟨.hbm, 111, rfl⟩
abbrev main_v82 : Ref sig .tc := ⟨.hbm, 112, rfl⟩
abbrev main_v83 : Ref sig .tc := ⟨.hbm, 113, rfl⟩
abbrev main_c_20 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_cst_21 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_call1_cst : Ref sig .tc := ⟨.hbm, 135, rfl⟩
abbrev main_call1_v0 : Ref sig .tc := ⟨.hbm, 136, rfl⟩
abbrev main_call1_cst_0 : Ref sig .tc := ⟨.hbm, 137, rfl⟩
abbrev main_call1_v1 : Ref sig .tc := ⟨.hbm, 138, rfl⟩
abbrev main_call1_v2 : Ref sig .tc := ⟨.hbm, 139, rfl⟩
abbrev main_call1_v3 : Ref sig .tc := ⟨.hbm, 140, rfl⟩
abbrev main_call1_v4 : Ref sig .tc := ⟨.hbm, 141, rfl⟩
abbrev main_call1_v5 : Ref sig .tc := ⟨.hbm, 142, rfl⟩
abbrev main_call1_v6 : Ref sig .tc := ⟨.hbm, 143, rfl⟩
abbrev main_call1_cst_1 : Ref sig .tc := ⟨.hbm, 144, rfl⟩
abbrev main_call1_v7 : Ref sig .tc := ⟨.hbm, 145, rfl⟩
abbrev main_call1_v8 : Ref sig .tc := ⟨.hbm, 146, rfl⟩
abbrev main_call1_v9 : Ref sig .tc := ⟨.hbm, 147, rfl⟩
abbrev main_call1_v10 : Ref sig .tc := ⟨.hbm, 148, rfl⟩
abbrev main_v103 : Ref sig .tc := ⟨.hbm, 149, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x11_0_1 : S3200000x1.BroadcastsInDim S3200000x11 (![0, 1] : Fin 2 → Fin S3200000x11.rank)
  bcast_S_S100000x11 : S_.BroadcastsInDim S100000x11 (![] : Fin 0 → Fin S100000x11.rank)
  bcast_S100000x1_S100000x11_0_1 : S100000x1.BroadcastsInDim S100000x11 (![0, 1] : Fin 2 → Fin S100000x11.rank)
  bcast_S11_S1x11_1 : S11.BroadcastsInDim S1x11 (![1] : Fin 1 → Fin S1x11.rank)
  bcast_S1x11_S100000x11_0_1 : S1x11.BroadcastsInDim S100000x11 (![0, 1] : Fin 2 → Fin S100000x11.rank)
  reducesTo_S100000x11_S100000_d1 : S100000x11.ReducesTo [1] S100000
  h_S_ : 0 < S_.numel
  dot_S100000x128_S128x16_S100000x16_1_0_0_1_n_n_wf : DotDims.WF S100000x128 S128x16 S100000x16 [1] [0] [0] [1] [] []
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x11_S100000x11_1_0_0_1_n_n_wf : DotDims.WF S100000x16 S16x11 S100000x11 [1] [0] [0] [1] [] []
  gather_S100000x11_S3200000x1_S3200000x11_1_0_n_n_0_1_111_wf : GatherDims.WF S100000x11 S3200000x1 S3200000x11 [1] [0] [] [0] [] 1 ![1, 11]
  scatter_S100000x11_S3200000x1_S3200000x11_1_0_0_1_wf : ScatterDims.WF S100000x11 S3200000x1 S3200000x11 [1] [0] [0] 1

variable [Facts₀]

def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x11_S100000x11_1_0_0_1_n_n : DotDims S100000x16 S16x11 S100000x11 where
  lhsContracting := [1]
  rhsContracting := [0]
  lhsNonContracting := [0]
  rhsNonContracting := [1]
  lhsBatch := []
  rhsBatch := []
  wf := dot_S100000x16_S16x11_S100000x11_1_0_0_1_n_n_wf
def gather_S100000x11_S3200000x1_S3200000x11_1_0_n_n_0_1_111 : GatherDims S100000x11 S3200000x1 S3200000x11 where
  offsetDims := [1]
  collapsedSliceDims := [0]
  operandBatchingDims := []
  startIndicesBatchingDims := []
  startIndexMap := [0]
  indexVectorDim := 1
  sliceSizes := ![1, 11]
  wf := gather_S100000x11_S3200000x1_S3200000x11_1_0_n_n_0_1_111_wf
def scatter_S100000x11_S3200000x1_S3200000x11_1_0_0_1 : ScatterDims S100000x11 S3200000x1 S3200000x11 where
  updateWindowDims := [1]
  insertedWindowDims := [0]
  scatterDimsToOperandDims := [0]
  indexVectorDim := 1
  wf := scatter_S100000x11_S3200000x1_S3200000x11_1_0_0_1_wf

class Facts : Prop extends Facts₀ where

variable [Facts]
-- ==== Proof.KernelRun.lean ====
/-
  The idealized kernel's run with its result array named.

  The program is four pipelined regions among three stretches of host operations. Its generated frame proof carries, through
  every segment, "each unscoped buffer holds the boundary's contents", and at the return reads only the six argument arrays
  back. Here the same run is read once more at the result array too: after the run it holds the last boundary's contents
  at its reference (`Gen.W7`), which the following modules open.
-/
import proofs.«122546_j2207613190837_2_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_value : θ_run defs (onTc (τ := τ) (main (F := F))) ⟨m, fun _ => 0, ρ⟩ (fun r => ∀ c : Dev nD,
      r.2.mem ((c.tc : Thread nD τ).loc main_v42) = W7 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v42 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.Net

end
-- ==== Proof.LibSegmentRows.lean ====
import Idealize.ShloMosaic.PureOps.Ideal
import Idealize.ShloMosaic.Lib.ValueIdx

/-!
# Row gather and row scatter-add, read at an index

A segment (neighbour) aggregation over a graph with `E` edges and `N` nodes, each carrying `C` columns, is two
StableHLO operations over rows. This file reads both at one element, generically in `N`, `E`, `C` and the index
width `w`.

* GATHER. The operand is `[N, C]`, the start indices `[E, 1]`, the result `[E, C]`; a start index names a row.
  `gather_rows_apply`: result element `(e, c)` is the operand's element `(srcRow e, c)`, where `srcRow e` is edge
  `e`'s start index read as a SIGNED integer and CLAMPED into `[0, N - 1]` (a gather clamps every start index so
  that its slice fits; the slice here is one whole row, so the bound is `N - 1`).

* SCATTER-ADD. The operand is `[N, C]`, the scatter indices `[E, 1]`, the updates `[E, C]`. A scatter index is
  read signed and is NOT clamped: an update whose row falls outside `[0, N)` is dropped.
  `scatterRows_resultIdx?_iff`: update element `(e, c)` lands on operand element `(r, c')` iff edge `e`'s index
  equals `r` and `c = c'`.
  `scatterAdd_rows_apply`: over the extended reals, where the accumulation is the exact sum, result element `(r, c)`
  is the operand's element plus `∑ upd (e, c)` over the edges `e` whose index equals `r`.

The two differ at out-of-range indices (clamped on the way in, dropped on the way out), so the statements keep the
two readings separate: `srcRow` for the gather, the bare signed value for the scatter.
-/

noncomputable section

namespace Cert.SegmentRows

open Idealize.ShloMosaic Idealize.ShloMosaic.ValueIdx
open scoped BigOperators

/-- On two axes, axis 1 is not in the one-element list `[0]`. -/
private theorem fin2_one_not_mem_zero : (1 : Fin 2) ∉ [(0 : Fin 2)] := by decide
/-- On two axes, axis 0 is not in the one-element list `[1]`. -/
private theorem fin2_zero_not_mem_one : (0 : Fin 2) ∉ [(1 : Fin 2)] := by decide

/-- Row gather: operand `[N, C]`, start indices `[E, 1]`, result `[E, C]`; each start index names one
    operand row (axis 0, collapsed), the whole row (slice `[1, C]`) is the result's offset axis 1. -/
abbrev gatherRows (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- the operand row edge e reads: its start index read signed and clamped into [0, N-1] -/
def srcRow {N E w : Nat} (hN : 0 < N) (idx : IVec ⟨2, ![E, 1]⟩ w) (e : Fin E) : Fin N :=
  ⟨min (idx (ix2 e (0 : Fin 1))).toInt.toNat (N - 1), by omega⟩

/-- THE ROW GATHER READ AT `(e, c)`: column `c` of the operand row that edge `e`'s start index names. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (gatherRows N E C wf) x idx (ix2 e c) = x (ix2 (srcRow hN idx e) c) := by
  unfold Host.gather
  congr 1
  funext a
  refine Fin.ext ?_
  match a with
  | ⟨0, _⟩ =>
    show (gatherRows N E C wf).start (ix2 e c) idx 0 + (gatherRows N E C wf).batchCoord (ix2 e c) 0
      + (gatherRows N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N E C wf).startIndexMap from List.mem_singleton.mpr rfl)]
    have hsi : (gatherRows N E C wf).siIdx (ix2 e c) ⟨List.idxOf (0 : Fin 2) (gatherRows N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gatherRows N E C wf).start (ix2 e c) idx 1 + (gatherRows N E C wf).batchCoord (ix2 e c) 1
      + (gatherRows N E C wf).offCoord (ix2 e c) 1 = _
    rw [GatherDims.batchCoord_eq_zero _ _ _ List.not_mem_nil]
    unfold GatherDims.start
    rw [dif_neg (show (1 : Fin 2) ∉ (gatherRows N E C wf).startIndexMap from
      fin2_one_not_mem_zero)]
    simp only [Nat.add_zero, Nat.zero_add]
    rfl

/-- Row scatter: operand `[N, C]`, scatter indices `[E, 1]`, updates `[E, C]`; each scatter index names one
    operand row (axis 0, an inserted window axis), the update's axis 1 is the window over the operand's axis 1. -/
abbrev scatterRows (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section ScatterCoords
variable {N E C w : Nat} (wf : ScatterDims.WF ⟨2, ![N, C]⟩ ⟨2, ![E, 1]⟩ ⟨2, ![E, C]⟩ [1] [0] [0] 1)
  (idx : IVec ⟨2, ![E, 1]⟩ w) (e : Fin E) (c : Fin C)

/-- On the row axis the window starts at the edge's scatter index, read signed (not clamped). -/
theorem scatterRows_start_zero :
    (scatterRows N E C wf).start (ix2 e c) idx 0 = (idx (ix2 e (0 : Fin 1))).toInt := by
  unfold ScatterDims.start
  rw [dif_pos (show (0 : Fin 2) ∈ (scatterRows N E C wf).scatterDimsToOperandDims from List.mem_singleton.mpr rfl)]
  have hsi : (scatterRows N E C wf).siIdx (ix2 e c) ⟨List.idxOf (0 : Fin 2) (scatterRows N E C wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter index does not name, the window starts at `0`. -/
theorem scatterRows_start_one : (scatterRows N E C wf).start (ix2 e c) idx 1 = 0 := by
  unfold ScatterDims.start
  rw [dif_neg (show (1 : Fin 2) ∉ (scatterRows N E C wf).scatterDimsToOperandDims from fin2_one_not_mem_zero)]

/-- The row axis is an inserted window axis: its window coordinate is `0`. -/
theorem scatterRows_window_zero : (scatterRows N E C wf).window (ix2 e c) 0 = 0 := by
  unfold ScatterDims.window
  rw [dif_neg (show (0 : Fin 2) ∉ (scatterRows N E C wf).sKept from fin2_zero_not_mem_one)]

/-- The column axis is the one kept axis: its window coordinate is the update's column. -/
theorem scatterRows_window_one : (scatterRows N E C wf).window (ix2 e c) 1 = c.val := by
  unfold ScatterDims.window
  rw [dif_pos (show (1 : Fin 2) ∈ (scatterRows N E C wf).sKept from List.mem_singleton.mpr rfl)]
  rfl

end ScatterCoords

/-- WHERE AN UPDATE LANDS: update element `(e, c)` lands on operand element `(r, c')` exactly when edge `e`'s
    scatter index, read signed, is the row `r` and the columns agree. (An index outside `[0, N)` lands nowhere:
    no row `r : Fin N` equals it.) -/
theorem scatterRows_resultIdx?_iff {N E C w : Nat}
    (wf : ScatterDims.WF ⟨2, ![N, C]⟩ ⟨2, ![E, 1]⟩ ⟨2, ![E, C]⟩ [1] [0] [0] 1)
    (idx : IVec ⟨2, ![E, 1]⟩ w) (e : Fin E) (c : Fin C) (r : Fin N) (c' : Fin C) :
    (scatterRows N E C wf).resultIdx? (ix2 e c) idx = some (ix2 r c') ↔
      ((idx (ix2 e (0 : Fin 1))).toInt = (r.val : Int) ∧ c = c') := by
  have hs0 := scatterRows_start_zero wf idx e c
  have hs1 := scatterRows_start_one wf idx e c
  have hw0 := scatterRows_window_zero (N := N) wf e c
  have hw1 := scatterRows_window_one (N := N) wf e c
  unfold ScatterDims.resultIdx?
  constructor
  · intro h
    split at h
    · rename_i hb
      have h' := Option.some.inj h
      have h0 : ((scatterRows N E C wf).start (ix2 e c) idx 0
          + ((scatterRows N E C wf).window (ix2 e c) 0 : Nat)).toNat = r.val :=
        congrArg (fun f : (⟨2, ![N, C]⟩ : Shape).Idx => (f 0).val) h'
      have h1 : ((scatterRows N E C wf).start (ix2 e c) idx 1
          + ((scatterRows N E C wf).window (ix2 e c) 1 : Nat)).toNat = c'.val :=
        congrArg (fun f : (⟨2, ![N, C]⟩ : Shape).Idx => (f 1).val) h'
      have hb0 := (hb 0).1
      rw [hs0, hw0] at h0 hb0
      rw [hs1, hw1] at h1
      exact ⟨by omega, Fin.ext (by omega)⟩
    · exact absurd h (by simp)
  · rintro ⟨ht, rfl⟩
    have hall : ∀ a, 0 ≤ (scatterRows N E C wf).start (ix2 e c) idx a + ((scatterRows N E C wf).window (ix2 e c) a : Nat) ∧
        (scatterRows N E C wf).start (ix2 e c) idx a + ((scatterRows N E C wf).window (ix2 e c) a : Nat)
          < ((⟨2, ![N, C]⟩ : Shape).size a : Nat) := by
      intro a
      match a with
      | ⟨0, _⟩ =>
        show 0 ≤ (scatterRows N E C wf).start (ix2 e c) idx 0 + ((scatterRows N E C wf).window (ix2 e c) 0 : Nat) ∧
          (scatterRows N E C wf).start (ix2 e c) idx 0 + ((scatterRows N E C wf).window (ix2 e c) 0 : Nat) < (N : Int)
        rw [hs0, hw0, ht]
        have := r.isLt
        omega
      | ⟨1, _⟩ =>
        show 0 ≤ (scatterRows N E C wf).start (ix2 e c) idx 1 + ((scatterRows N E C wf).window (ix2 e c) 1 : Nat) ∧
          (scatterRows N E C wf).start (ix2 e c) idx 1 + ((scatterRows N E C wf).window (ix2 e c) 1 : Nat) < (C : Int)
        rw [hs1, hw1]
        have := c.isLt
        omega
    rw [dif_pos hall]
    congr 1
    funext a
    refine Fin.ext ?_
    match a with
    | ⟨0, _⟩ =>
      show ((scatterRows N E C wf).start (ix2 e c) idx 0 + ((scatterRows N E C wf).window (ix2 e c) 0 : Nat)).toNat = r.val
      rw [hs0, hw0, ht]
      omega
    | ⟨1, _⟩ =>
      show ((scatterRows N E C wf).start (ix2 e c) idx 1 + ((scatterRows N E C wf).window (ix2 e c) 1 : Nat)).toNat = c.val
      rw [hs1, hw1]
      omega

/-- THE ROW SCATTER-ADD READ AT `(r, c)`, at the ideal instance: the operand's element plus the exact sum of column
    `c` of the updates of the edges whose scatter index, read signed, is the row `r`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (r : Fin N) (c : Fin C) :
    Host.scatterAdd (F := Ideal) (φ := .f32) (scatterRows N E C wf) x idx upd (ix2 r c)
      = x (ix2 r c) + ∑ e ∈ Finset.univ.filter (fun e : Fin E => (idx (ix2 e (0 : Fin 1))).toInt = (r.val : Int)),
          upd (ix2 e c) := by
  show Ideal.hostScatterAdd (scatterRows N E C wf) x idx upd (ix2 r c) = _
  unfold Ideal.hostScatterAdd
  congr 1
  -- the updates that land on `(r, c)` are the `(e, c)` with `e`'s index the row `r`: re-index by `e`
  refine Finset.sum_nbij' (fun j => (j 0 : Fin E)) (fun e => ix2 e c) ?_ ?_ ?_ ?_ ?_
  · intro j hj
    obtain ⟨e, c0, rfl⟩ : ∃ e c0, j = ix2 e c0 := ⟨j 0, j 1, eq_ix2 j⟩
    have hj' := (Finset.mem_filter.mp hj).2
    exact Finset.mem_filter.mpr ⟨Finset.mem_univ _, ((scatterRows_resultIdx?_iff wf idx e c0 r c).mp hj').1⟩
  · intro e he
    have he' := (Finset.mem_filter.mp he).2
    exact Finset.mem_filter.mpr ⟨Finset.mem_univ _, (scatterRows_resultIdx?_iff wf idx e c r c).mpr ⟨he', rfl⟩⟩
  · intro j hj
    obtain ⟨e, c0, rfl⟩ : ∃ e c0, j = ix2 e c0 := ⟨j 0, j 1, eq_ix2 j⟩
    have hj' := (Finset.mem_filter.mp hj).2
    have h2 : c0 = c := ((scatterRows_resultIdx?_iff wf idx e c0 r c).mp hj').2
    subst h2
    rfl
  · intro e _
    rfl
  · intro j hj
    obtain ⟨e, c0, rfl⟩ : ∃ e c0, j = ix2 e c0 := ⟨j 0, j 1, eq_ix2 j⟩
    have hj' := (Finset.mem_filter.mp hj).2
    have h2 : c0 = c := ((scatterRows_resultIdx?_iff wf idx e c0 r c).mp hj').2
    subst h2
    rfl

end Cert.SegmentRows

end
-- ==== Proof.LibEdgeOrder.lean ====
import Idealize.ShloMosaic.Lib.SortFacts
import Idealize.ShloMosaic.Lib.ValueIdx
import Idealize.ShloMosaic.PureOps.Ideal
import proofs.«122546_j2207613190837_2_alg».proof.Proof.LibSegmentRows

/-!
# Re-ordering the edges of a graph does not change a segment sum

A graph with E edges carries, per edge, a source and a destination node (N nodes, C columns of features per node).
A segment sum scatter-adds one value, or one row, per edge at the edge's destination. On the extended reals a
scatter-add is an exact finite sum, so it does not depend on the order of the edges: reading the edge tables through
any bijection σ of the edges, for instance the stable argsort of the destinations, gives the same result.
Everything here is generic in the sizes N, E, C and in the index width w.

Rank-1 indices.
* ofFin_eq_ix1: the two ways of writing the rank-1 index at coordinate k agree.

The two-operand stable sort of rank-1 tables x, y along their one axis (an argsort when y lists the positions).
* sortPerm cmp x y : Fin n → Fin n is the self-map of the positions through which the sort reads both tables:
  sorted position k holds the elements of position sortPerm cmp x y k. sortPerm_bijective: it is a bijection.
* sort2_rank1_snd: the second sorted table at position j is y at position sortPerm cmp x y (j 0).
* argsort_rank1: when y is the table of positions, the second sorted table at j is the number
  sortPerm cmp x y (j 0) written as a word.
From there on the sorting self-map is used only through these facts.

Layouts.
* bcast_col_apply: a vector [E] broadcast along axis 0 of a column [E, 1] reads, at (e, 0), the vector's entry e.

The rank-1 gather: operand [N], start indices [E, 1], result [E].
* gatherVec N E wf is its dimension numbers. gather_vec_apply: result element e is the operand at edge e's start
  index, read as a signed integer and clamped into [0, N - 1].

The rank-1 scatter-add: operand [N], scatter indices [E, 1], updates [E].
* scatterVec N E wf is its dimension numbers. scatterVec_start_zero, scatterVec_window_zero: the window of update e
  starts at e's scatter index read signed (not clamped) and has no extent.
* scatterVec_resultIdx?_iff: update e lands on operand element r exactly when e's scatter index, read signed, equals
  r; an index outside [0, N) lands nowhere.
* scatterAdd_vec_apply: over the extended reals result element r is the operand's element plus the exact sum of the
  updates of the edges whose scatter index is r.

Sums and words.
* sum_filter_comp_bijective: for a bijection σ, the sum of G (σ e) over the e with P (σ e) is the sum of G e over
  the e with P e.
* toInt_ofNat32: a natural below 2^31, as a 32-bit word, reads signed as itself.
* norm_of_nonneg: the index normalization (v + K if v < 0, else v) leaves a word that reads signed as a non-negative
  integer unchanged.

Invariance under a bijection σ of the edges.
* scatterAdd_vec_perm: if the scatter indices and the updates of one rank-1 scatter-add are those of another read
  through σ (entry e of the one is entry σ e of the other), the two results are equal.
* gather_rows_perm: if the start indices of one row gather (operand [N, C], start indices [E, 1], result [E, C]) are
  those of another read through σ, then its row e is the other's row σ e.
* scatterAdd_rows_perm: the statement of scatterAdd_vec_perm for the row scatter-add (operand [N, C], scatter
  indices [E, 1], updates [E, C]).
-/

noncomputable section

namespace Cert.EdgeOrderLib

open Idealize.ShloMosaic Idealize.ShloMosaic.ValueIdx
open scoped BigOperators

/-! ## Rank-1 indices -/

/-- The two ways of writing the rank-1 index at coordinate k agree. -/
theorem ofFin_eq_ix1 {n : Nat} (k : Fin n) : Shape.Idx.ofFin k = ix1 k := by
  funext a
  obtain rfl : a = 0 := Subsingleton.elim _ _
  exact Fin.ext rfl

/-! ## The two-operand stable sort of a rank-1 table -/

/-- The self-map of the positions through which a two-operand stable sort of rank-1 tables x, y reads both:
    sorted position k holds the elements of position sortPerm cmp x y k. -/
def sortPerm {n : Nat} {α β : Type} (cmp : α × β → α × β → BitVec 1)
    (x : (⟨1, ![n]⟩ : Shape).Idx → α) (y : (⟨1, ![n]⟩ : Shape).Idx → β) : Fin n → Fin n :=
  sortedFrom (fun k k' => cmp (x (Shape.Idx.ofFin k), y (Shape.Idx.ofFin k))
    (x (Shape.Idx.ofFin k'), y (Shape.Idx.ofFin k')) == 1#1)

theorem sortPerm_bijective {n : Nat} {α β : Type} (cmp : α × β → α × β → BitVec 1)
    (x : (⟨1, ![n]⟩ : Shape).Idx → α) (y : (⟨1, ![n]⟩ : Shape).Idx → β) :
    Function.Bijective (sortPerm cmp x y) :=
  ⟨sortedFrom_injective _, sortedFrom_surjective _⟩

/-- The second result of a two-operand stable sort of rank-1 tables, read at an index. -/
theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j = y (Shape.Idx.ofFin (sortPerm cmp x y (j 0))) := by
  unfold Host.sort2 sortPerm
  simp

/-- An argsort: the second operand is the table of positions, so the sorted second operand is the sorting
    self-map itself, as words. -/
theorem argsort_rank1 {n w : Nat} {α : Type} (cmp : α × BitVec w → α × BitVec w → BitVec 1)
    (x : (⟨1, ![n]⟩ : Shape).Idx → α) (j : (⟨1, ![n]⟩ : Shape).Idx) :
    (Host.sort2 ⟨1, ![n]⟩ 0 cmp x (iotaInDim ⟨1, ![n]⟩ w 0)).2 j
      = BitVec.ofNat w (sortPerm cmp x (iotaInDim ⟨1, ![n]⟩ w 0) (j 0)).val := by
  rw [sort2_rank1_snd]
  rfl

-- from here on the sorting self-map is used only through the three facts above
attribute [irreducible] sortPerm

/-! ## A vector broadcast to a column -/

/-- Broadcasting a vector [E] along axis 0 of a column [E, 1]: row e of the column is element e of the vector. -/
theorem bcast_col_apply {α : Type} {E : Nat}
    (h : (⟨1, ![E]⟩ : Shape).BroadcastsInDim ⟨2, ![E, 1]⟩ (![0] : Fin 1 → Fin 2))
    (v : (⟨1, ![E]⟩ : Shape).Idx → α) (e : Fin E) :
    broadcastInDim ⟨2, ![E, 1]⟩ (![0] : Fin 1 → Fin 2) h v (ix2 e (0 : Fin 1)) = v (ix1 e) := by
  unfold broadcastInDim
  congr 1
  funext a
  obtain rfl : a = 0 := Subsingleton.elim _ _
  refine Fin.ext ?_
  split
  · rename_i h1
    have h1' : E = 1 := h1
    have := e.isLt
    show 0 = e.val
    omega
  · rfl

/-! ## The rank-1 gather -/

/-- Gather of single elements: operand [N], start indices [E, 1], result [E]; each start index names one
    operand element (axis 0, collapsed). -/
abbrev gatherVec (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE RANK-1 GATHER READ AT e: the operand at edge e's start index, read signed and clamped into [0, N-1]. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVec N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gatherVec N E wf).start (ix1 e) idx 0 + (gatherVec N E wf).batchCoord (ix1 e) 0
    + (gatherVec N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gatherVec N E wf).startIndexMap from List.mem_singleton.mpr rfl)]
  have hsi : (gatherVec N E wf).siIdx (ix1 e) ⟨List.idxOf (0 : Fin 1) (gatherVec N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-! ## The rank-1 scatter-add -/

/-- Scatter of single elements: operand [N], scatter indices [E, 1], updates [E]; each scatter index names one
    operand element (axis 0, an inserted window axis); the updates have no window axis. -/
abbrev scatterVec (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section ScatterVecCoords
variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the edge's scatter index, read signed (not clamped). -/
theorem scatterVec_start_zero :
    (scatterVec N E wf).start (ix1 e) idx 0 = (idx (ix2 e (0 : Fin 1))).toInt := by
  unfold ScatterDims.start
  rw [dif_pos (show (0 : Fin 1) ∈ (scatterVec N E wf).scatterDimsToOperandDims from List.mem_singleton.mpr rfl)]
  have hsi : (scatterVec N E wf).siIdx (ix1 e) ⟨List.idxOf (0 : Fin 1) (scatterVec N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The one operand axis is an inserted window axis: its window coordinate is 0. -/
theorem scatterVec_window_zero : (scatterVec N E wf).window (ix1 e) 0 = 0 := by
  unfold ScatterDims.window
  rw [dif_neg (show (0 : Fin 1) ∉ (scatterVec N E wf).sKept from List.not_mem_nil)]

end ScatterVecCoords

/-- WHERE AN UPDATE LANDS: update e lands on operand element r exactly when edge e's scatter index, read signed,
    is r. (An index outside [0, N) lands nowhere.) -/
theorem scatterVec_resultIdx?_iff {N E w : Nat}
    (wf : ScatterDims.WF ⟨1, ![N]⟩ ⟨2, ![E, 1]⟩ ⟨1, ![E]⟩ [] [0] [0] 1)
    (idx : IVec ⟨2, ![E, 1]⟩ w) (e : Fin E) (r : Fin N) :
    (scatterVec N E wf).resultIdx? (ix1 e) idx = some (ix1 r) ↔
      (idx (ix2 e (0 : Fin 1))).toInt = (r.val : Int) := by
  have hs0 := scatterVec_start_zero wf idx e
  have hw0 := scatterVec_window_zero (N := N) wf e
  unfold ScatterDims.resultIdx?
  constructor
  · intro h
    split at h
    · rename_i hb
      have h' := Option.some.inj h
      have h0 : ((scatterVec N E wf).start (ix1 e) idx 0
          + ((scatterVec N E wf).window (ix1 e) 0 : Nat)).toNat = r.val :=
        congrArg (fun f : (⟨1, ![N]⟩ : Shape).Idx => (f 0).val) h'
      have hb0 := (hb 0).1
      rw [hs0, hw0] at h0 hb0
      omega
    · exact absurd h (by simp)
  · intro ht
    have hall : ∀ a, 0 ≤ (scatterVec N E wf).start (ix1 e) idx a + ((scatterVec N E wf).window (ix1 e) a : Nat) ∧
        (scatterVec N E wf).start (ix1 e) idx a + ((scatterVec N E wf).window (ix1 e) a : Nat)
          < ((⟨1, ![N]⟩ : Shape).size a : Nat) := by
      intro a
      obtain rfl : a = 0 := Subsingleton.elim _ _
      show 0 ≤ (scatterVec N E wf).start (ix1 e) idx 0 + ((scatterVec N E wf).window (ix1 e) 0 : Nat) ∧
        (scatterVec N E wf).start (ix1 e) idx 0 + ((scatterVec N E wf).window (ix1 e) 0 : Nat) < (N : Int)
      rw [hs0, hw0, ht]
      have := r.isLt
      omega
    rw [dif_pos hall]
    congr 1
    funext a
    obtain rfl : a = 0 := Subsingleton.elim _ _
    refine Fin.ext ?_
    show ((scatterVec N E wf).start (ix1 e) idx 0 + ((scatterVec N E wf).window (ix1 e) 0 : Nat)).toNat = r.val
    rw [hs0, hw0, ht]
    omega

/-- THE RANK-1 SCATTER-ADD READ AT r, at the ideal instance: the operand's element plus the exact sum of the
    updates of the edges whose scatter index, read signed, is r. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (r : Fin N) :
    Host.scatterAdd (F := Ideal) (φ := .f32) (scatterVec N E wf) x idx upd (ix1 r)
      = x (ix1 r) + ∑ e ∈ Finset.univ.filter (fun e : Fin E => (idx (ix2 e (0 : Fin 1))).toInt = (r.val : Int)),
          upd (ix1 e) := by
  show Ideal.hostScatterAdd (scatterVec N E wf) x idx upd (ix1 r) = _
  unfold Ideal.hostScatterAdd
  congr 1
  refine Finset.sum_nbij' (fun j => (j 0 : Fin E)) (fun e => ix1 e) ?_ ?_ ?_ ?_ ?_
  · intro j hj
    obtain ⟨e, rfl⟩ : ∃ e, j = ix1 e := ⟨j 0, eq_ix1 j⟩
    have hj' := (Finset.mem_filter.mp hj).2
    exact Finset.mem_filter.mpr ⟨Finset.mem_univ _, (scatterVec_resultIdx?_iff wf idx e r).mp hj'⟩
  · intro e he
    have he' := (Finset.mem_filter.mp he).2
    exact Finset.mem_filter.mpr ⟨Finset.mem_univ _, (scatterVec_resultIdx?_iff wf idx e r).mpr he'⟩
  · intro j _
    exact (eq_ix1 j).symm
  · intro e _
    rfl
  · intro j _
    exact congrArg upd (eq_ix1 j)

/-! ## A filtered sum along a bijection -/

/-- Re-indexing a filtered finite sum along a bijection σ of the index set. -/
theorem sum_filter_comp_bijective {E : Nat} {M : Type} [AddCommMonoid M] (σ : Fin E → Fin E)
    (hσ : Function.Bijective σ) (P : Fin E → Prop) [DecidablePred P] (G : Fin E → M) :
    ∑ e ∈ Finset.univ.filter (fun e => P (σ e)), G (σ e) = ∑ e ∈ Finset.univ.filter P, G e := by
  rw [Finset.sum_filter, Finset.sum_filter]
  exact Equiv.sum_comp (Equiv.ofBijective σ hσ) (fun e => if P e then G e else 0)

/-! ## Words: a small natural as a 32-bit word is itself when read signed -/

/-- A natural below 2^31, as a 32-bit word, reads signed as itself. -/
theorem toInt_ofNat32 {m : Nat} (hm : m < 2147483648) : (BitVec.ofNat 32 m).toInt = (m : Int) := by
  rw [BitVec.toInt_eq_toNat_cond, BitVec.toNat_ofNat]
  have : m % 2 ^ 32 = m := Nat.mod_eq_of_lt (by omega)
  rw [this]
  split <;> omega

/-- The index normalization (a negative index counts from the end: add the length K) leaves a word that reads
    signed as a non-negative integer unchanged. -/
theorem norm_of_nonneg (K v : BitVec 32) (hv : 0 ≤ v.toInt) :
    Scalar.select (IntOp.cmpi .slt v 0#32) (IntOp.addi v K) v = v := by
  have h0 : IntOp.cmpi .slt v 0#32 = 0#1 := by
    unfold IntOp.cmpi
    have : v.slt 0#32 = false := by
      rw [BitVec.slt_eq_decide]
      simp only [BitVec.toInt_zero, decide_eq_false_iff_not, not_lt]
      exact hv
    simp [this]
  rw [h0]
  exact select_zero _ _

/-! ## Invariance of the segment sums under a bijection of the edges -/

open Cert.SegmentRows

/-- THE RANK-1 SEGMENT SUM DOES NOT DEPEND ON THE ORDER OF THE EDGES: if the scatter indices and the updates of one
    scatter-add are those of another read through a bijection σ of the edges, the two results are equal. -/
theorem scatterAdd_vec_perm {N E w : Nat}
    (wf : ScatterDims.WF ⟨1, ![N]⟩ ⟨2, ![E, 1]⟩ ⟨1, ![E]⟩ [] [0] [0] 1)
    (σ : Fin E → Fin E) (hσ : Function.Bijective σ)
    (x : (⟨1, ![N]⟩ : Shape).Idx → EReal) (idx idx' : IVec ⟨2, ![E, 1]⟩ w)
    (upd upd' : (⟨1, ![E]⟩ : Shape).Idx → EReal)
    (hidx : ∀ e, idx' (ix2 e (0 : Fin 1)) = idx (ix2 (σ e) (0 : Fin 1)))
    (hupd : ∀ e, upd' (ix1 e) = upd (ix1 (σ e))) :
    Host.scatterAdd (F := Ideal) (φ := .f32) (scatterVec N E wf) x idx' upd'
      = Host.scatterAdd (F := Ideal) (φ := .f32) (scatterVec N E wf) x idx upd := by
  funext i
  obtain ⟨r, rfl⟩ : ∃ r, i = ix1 r := ⟨i 0, eq_ix1 i⟩
  refine (scatterAdd_vec_apply wf x idx' upd' r).trans ?_
  refine Eq.trans ?_ (scatterAdd_vec_apply wf x idx upd r).symm
  refine congrArg (fun t : EReal => x (ix1 r) + t) ?_
  refine Eq.trans ?_ (sum_filter_comp_bijective σ hσ _ _)
  refine Finset.sum_congr (Finset.filter_congr fun e _ => ?_) (fun e _ => hupd e)
  rw [hidx]

/-- If the start indices of one row gather are those of another read through σ, its row e is the other's row σ e. -/
theorem gather_rows_perm {α : Type} {N E C w : Nat} (hN : 0 < N)
    (wf : GatherDims.WF ⟨2, ![N, C]⟩ ⟨2, ![E, 1]⟩ ⟨2, ![E, C]⟩ [1] [0] [] [0] [] 1 ![1, C])
    (σ : Fin E → Fin E) (x : (⟨2, ![N, C]⟩ : Shape).Idx → α) (idx idx' : IVec ⟨2, ![E, 1]⟩ w)
    (hidx : ∀ e, idx' (ix2 e (0 : Fin 1)) = idx (ix2 (σ e) (0 : Fin 1))) (e : Fin E) (c : Fin C) :
    Host.gather (gatherRows N E C wf) x idx' (ix2 e c) = Host.gather (gatherRows N E C wf) x idx (ix2 (σ e) c) := by
  refine (gather_rows_apply hN wf x idx' e c).trans ?_
  refine Eq.trans ?_ (gather_rows_apply hN wf x idx (σ e) c).symm
  refine congrArg (fun k : Fin N => x (ix2 k c)) (Fin.ext ?_)
  show min (idx' (ix2 e (0 : Fin 1))).toInt.toNat (N - 1) = min (idx (ix2 (σ e) (0 : Fin 1))).toInt.toNat (N - 1)
  rw [hidx]

/-- THE ROW SEGMENT SUM DOES NOT DEPEND ON THE ORDER OF THE EDGES: if the scatter indices and the update rows of one
    row scatter-add are those of another read through a bijection σ of the edges, the two results are equal. -/
theorem scatterAdd_rows_perm {N E C w : Nat}
    (wf : ScatterDims.WF ⟨2, ![N, C]⟩ ⟨2, ![E, 1]⟩ ⟨2, ![E, C]⟩ [1] [0] [0] 1)
    (σ : Fin E → Fin E) (hσ : Function.Bijective σ)
    (x : (⟨2, ![N, C]⟩ : Shape).Idx → EReal) (idx idx' : IVec ⟨2, ![E, 1]⟩ w)
    (upd upd' : (⟨2, ![E, C]⟩ : Shape).Idx → EReal)
    (hidx : ∀ e, idx' (ix2 e (0 : Fin 1)) = idx (ix2 (σ e) (0 : Fin 1)))
    (hupd : ∀ e c, upd' (ix2 e c) = upd (ix2 (σ e) c)) :
    Host.scatterAdd (F := Ideal) (φ := .f32) (scatterRows N E C wf) x idx' upd'
      = Host.scatterAdd (F := Ideal) (φ := .f32) (scatterRows N E C wf) x idx upd := by
  funext i
  obtain ⟨r, c, rfl⟩ : ∃ r c, i = ix2 r c := ⟨i 0, i 1, eq_ix2 i⟩
  refine (scatterAdd_rows_apply wf x idx' upd' r c).trans ?_
  refine Eq.trans ?_ (scatterAdd_rows_apply wf x idx upd r c).symm
  refine congrArg (fun t : EReal => x (ix2 r c) + t) ?_
  refine Eq.trans ?_ (sum_filter_comp_bijective σ hσ _ _)
  refine Finset.sum_congr (Finset.filter_congr fun e _ => ?_) (fun e _ => hupd e c)
  rw [hidx]

end Cert.EdgeOrderLib

end
-- ==== Proof.LibIsReal.lean ====
/-
  A small calculus for "this extended real is a real number".

  At the exact instance a float is an extended real, and laws that cancel or distribute hold only away from the
  infinities.  A program whose inputs are real numbers keeps real numbers through sums, products, finite sums of
  products (a matrix product's entry), maxima (a ReLU, a row maximum) and differences; this file states each closure
  once, so that "every entry is real" can be carried layer by layer instead of being re-derived:

  * `IsReal x`: `x` is the coercion of a real number; `IsReal.ne_top`, `IsReal.ne_bot`;
  * closure: `coe`, `zero`, `add`, `sub`, `neg`, `mul`, `max`, `sum` (any finite sum), `sum_mul` (a finite sum of
    products), `sup` (a nonempty finite supremum);
  * `isReal_of_abs_lt_top`: an extended real whose absolute value `max x (-x)` is below `⊤` is a real number (the
    form in which a "finite input" precondition reads).
-/
import Idealize.ShloMosaic.PureOps.Ideal

namespace Idealize.ShloMosaic

/-- `x` is (the coercion of) a real number. -/
def IsReal (x : EReal) : Prop := ∃ r : ℝ, x = (r : EReal)

namespace IsReal

theorem coe (r : ℝ) : IsReal (r : EReal) := ⟨r, rfl⟩

theorem zero : IsReal (0 : EReal) := ⟨0, rfl⟩

theorem ne_top {x : EReal} (h : IsReal x) : x ≠ ⊤ := by
  obtain ⟨r, rfl⟩ := h; exact EReal.coe_ne_top r

theorem ne_bot {x : EReal} (h : IsReal x) : x ≠ ⊥ := by
  obtain ⟨r, rfl⟩ := h; exact EReal.coe_ne_bot r

theorem of_ne {x : EReal} (ht : x ≠ ⊤) (hb : x ≠ ⊥) : IsReal x := by
  induction x using EReal.rec with
  | bot => exact absurd rfl hb
  | coe r => exact ⟨r, rfl⟩
  | top => exact absurd rfl ht

theorem add {x y : EReal} (hx : IsReal x) (hy : IsReal y) : IsReal (x + y) := by
  obtain ⟨a, rfl⟩ := hx; obtain ⟨b, rfl⟩ := hy; exact ⟨a + b, (EReal.coe_add a b).symm⟩

theorem neg {x : EReal} (hx : IsReal x) : IsReal (-x) := by
  obtain ⟨a, rfl⟩ := hx; exact ⟨-a, (EReal.coe_neg a).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  obtain ⟨a, rfl⟩ := hx; obtain ⟨b, rfl⟩ := hy
  exact ⟨Max.max a b, (EReal.coe_strictMono.monotone.map_max (a := a) (b := b)).symm⟩

/-- A finite sum of real numbers is a real number. -/
theorem sum {ι : Type} (s : Finset ι) {f : ι → EReal} (h : ∀ i ∈ s, IsReal (f i)) : IsReal (∑ i ∈ s, f i) := by
  classical
  induction s using Finset.induction_on with
  | empty => rw [Finset.sum_empty]; exact zero
  | insert a s ha ih =>
    rw [Finset.sum_insert ha]
    exact add (h a (Finset.mem_insert_self a s)) (ih fun i hi => h i (Finset.mem_insert_of_mem hi))

/-- A finite sum of products of real numbers (an entry of a matrix product) is a real number. -/
theorem sum_mul {ι : Type} [Fintype ι] {f g : ι → EReal} (hf : ∀ i, IsReal (f i)) (hg : ∀ i, IsReal (g i)) :
    IsReal (∑ i, f i * g i) :=
  sum Finset.univ fun i _ => mul (hf i) (hg i)

/-- A nonempty finite supremum of real numbers is a real number. -/
theorem sup {ι : Type} {s : Finset ι} (hs : s.Nonempty) {f : ι → EReal} (h : ∀ i ∈ s, IsReal (f i)) : IsReal (s.sup f) := by
  classical
  induction hs using Finset.Nonempty.cons_induction with
  | singleton a => rw [Finset.sup_singleton]; exact h a (Finset.mem_singleton_self a)
  | cons a s ha hs ih =>
    rw [Finset.sup_cons]
    exact max (h a (Finset.mem_cons_self a s)) (ih fun i hi => h i (Finset.mem_cons.mpr (Or.inr hi)))

end IsReal

/-- An extended real whose absolute value is below `⊤` is a real number. -/
theorem isReal_of_abs_lt_top {x : EReal} (h : Max.max x (-x) < ⊤) : IsReal x := by
  induction x using EReal.rec with
  | bot => rw [EReal.neg_bot, max_eq_right bot_le] at h; exact absurd h (lt_irrefl _)
  | coe r => exact ⟨r, rfl⟩
  | top => rw [max_eq_left le_top] at h; exact absurd h (lt_irrefl _)

end Idealize.ShloMosaic
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.LibGcnAggregate.lean ====
/-
  A normalised neighbourhood aggregation over a graph, read at an entry on the extended reals, generic in the number of
  nodes `N`, of edges `E` and of columns `C`.

  Each edge `e` carries a coefficient `n e`, a source row (a start index, clamped as a gather clamps it) and a
  destination row (a scatter index, dropped when it is out of range). The aggregation of an `[N, C]` array `h` is the
  scatter-add, into zeros, of the rows `n e · h (src e)`.

  * `cols_splat_apply`, `zero_splat_apply`: a column `[E, 1]` repeated along `C` columns, and the zero splat, read at an entry;
  * `weightedAgg_apply`: entry `(r, c)` of the aggregation is the sum over the edges `e` that land on `r` of `n e · h (src e, c)`;
  * `coe_sum`, `sum_rows_mul_comm`: for REAL coefficients, rows and weights, aggregating and then multiplying by a matrix
    is multiplying and then aggregating: Σ_k (Σ_e n e · X e k) · W k = Σ_e n e · Σ_k X e k · W k. Both sides distribute a
    product over a sum, which on the extended reals is sound only away from the infinities: hence the three hypotheses;
  * `rsqrt_pos_isReal`, `invSqrtDeg_isReal`, `symNorm_isReal`: the symmetric normalisation d(src)^(-1/2) · w · d(dst)^(-1/2)
    of real edge weights `w`, with d the weighted in-degree and d^(-1/2) replaced by a real where d is not positive, is real;
  * `dense_relu_dense_apply`: one block of relu(A·W1 + b1)·W2 in a vector unit's spelling, read at an entry.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import proofs.«122546_j2207613190837_2_alg».proof.Proof.LibSegmentRows
import proofs.«122546_j2207613190837_2_alg».proof.Proof.LibEdgeOrder
import proofs.«122546_j2207613190837_2_alg».proof.Proof.LibIsReal
import proofs.«122546_j2207613190837_2_alg».proof.Proof.LibMlpRows

noncomputable section

namespace Cert.GcnAggregate

open Idealize.ShloMosaic Idealize.ShloMosaic.ValueIdx Cert.SegmentRows Cert.EdgeOrderLib
open scoped BigOperators

/-- The edges whose scatter index, read signed, is the row `r`. -/
def inEdges {N E w : Nat} (ci : IVec ⟨2, ![E, 1]⟩ w) (r : Fin N) : Finset (Fin E) :=
  Finset.univ.filter (fun e : Fin E => (ci (ix2 e (0 : Fin 1))).toInt = (r.val : Int))

/-- A column `[E, 1]` repeated along `C` columns: entry `(e, c)` is the column's entry `e`. -/
theorem cols_splat_apply {α : Type} {E C : Nat}
    (hb : (⟨2, ![E, 1]⟩ : Shape).BroadcastsInDim ⟨2, ![E, C]⟩ (![0, 1] : Fin 2 → Fin 2))
    (v : (⟨2, ![E, 1]⟩ : Shape).Idx → α) (e : Fin E) (c : Fin C) :
    broadcastInDim ⟨2, ![E, C]⟩ (![0, 1] : Fin 2 → Fin 2) hb v (ix2 e c) = v (ix2 e (0 : Fin 1)) :=
  broadcastInDim_apply ![0, 1] hb v (ix2 e c) (ix2 e (0 : Fin 1)) (fun a => by
    match a with
    | ⟨0, _⟩ => show e.val = if E = 1 then 0 else e.val; split <;> [(have := e.isLt; omega); rfl]
    | ⟨1, _⟩ => rfl)

/-- The zero splat read at any index is the extended real zero. -/
theorem zero_splat_apply {t : Shape} (hz : (⟨0, ![]⟩ : Shape).BroadcastsInDim t (![] : Fin 0 → Fin t.rank)) (j : t.Idx) :
    broadcastInDim t (![] : Fin 0 → Fin t.rank) hz (constant (F := Ideal) ⟨0, ![]⟩ .f32 0x00000000#32) j = (0 : EReal) :=
  (broadcastInDim_apply ![] hz _ j ix0 (fun a => a.elim0)).trans Ideal.ofBits_zero_f32

/-- THE AGGREGATION READ AT `(r, c)`: the sum, over the edges that land on row `r`, of the edge's coefficient times
    column `c` of the row the edge reads. -/
theorem weightedAgg_apply {N E C : Nat} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (hz : (⟨0, ![]⟩ : Shape).BroadcastsInDim ⟨2, ![N, C]⟩ (![] : Fin 0 → Fin 2))
    (hb : (⟨2, ![E, 1]⟩ : Shape).BroadcastsInDim ⟨2, ![E, C]⟩ (![0, 1] : Fin 2 → Fin 2))
    (ncol : (⟨2, ![E, 1]⟩ : Shape).Idx → EReal) (ri ci : IVec ⟨2, ![E, 1]⟩ 32)
    (h : (⟨2, ![N, C]⟩ : Shape).Idx → EReal) (r : Fin N) (c : Fin C) :
    Host.scatterAdd (F := Ideal) (φ := .f32) (scatterRows N E C wfs)
        (broadcastInDim ⟨2, ![N, C]⟩ (![] : Fin 0 → Fin 2) hz (constant (F := Ideal) ⟨0, ![]⟩ .f32 0x00000000#32)) ci
        (mulf (F := Ideal) (φ := .f32) (broadcastInDim ⟨2, ![E, C]⟩ (![0, 1] : Fin 2 → Fin 2) hb ncol)
          (Host.gather (gatherRows N E C wfg) h ri)) (ix2 r c)
      = ∑ e ∈ inEdges ci r, ncol (ix2 e (0 : Fin 1)) * h (ix2 (srcRow hN ri e) c) := by
  rw [scatterAdd_rows_apply wfs _ ci _ r c, zero_splat_apply hz, zero_add]
  refine Finset.sum_congr rfl fun e _ => ?_
  rw [mulf_apply, cols_splat_apply hb ncol e c, gather_rows_apply hN wfg h ri e c]

/-- The coercion of the reals into the extended reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- AGGREGATE-THEN-TRANSFORM IS TRANSFORM-THEN-AGGREGATE, for real coefficients, rows and weights. -/
theorem sum_rows_mul_comm {ι : Type} (S : Finset ι) {K : ℕ} (n : ι → EReal) (X : ι → Fin K → EReal) (W : Fin K → EReal)
    (hn : ∀ e, IsReal (n e)) (hX : ∀ e k, IsReal (X e k)) (hW : ∀ k, IsReal (W k)) :
    ∑ k, (∑ e ∈ S, n e * X e k) * W k = ∑ e ∈ S, n e * ∑ k, X e k * W k := by
  choose n' hn' using hn
  choose X' hX' using hX
  choose W' hW' using hW
  have hl : ∀ k, (∑ e ∈ S, n e * X e k) * W k = ((∑ e ∈ S, n' e * X' e k * W' k : ℝ) : EReal) := fun k => by
    rw [coe_sum, hW' k]
    have : ∑ e ∈ S, n e * X e k = ((∑ e ∈ S, n' e * X' e k : ℝ) : EReal) := by
      rw [coe_sum]; exact Finset.sum_congr rfl fun e _ => by rw [hn' e, hX' e k, EReal.coe_mul]
    rw [this, ← EReal.coe_mul, Finset.sum_mul, coe_sum]
  have hr : ∀ e, n e * ∑ k, X e k * W k = ((∑ k, n' e * X' e k * W' k : ℝ) : EReal) := fun e => by
    have : ∑ k, X e k * W k = ((∑ k, X' e k * W' k : ℝ) : EReal) := by
      rw [coe_sum]; exact Finset.sum_congr rfl fun k _ => by rw [hX' e k, hW' k, EReal.coe_mul]
    rw [this, hn' e, ← EReal.coe_mul, Finset.mul_sum]
    exact congrArg _ (Finset.sum_congr rfl fun k _ => (mul_assoc _ _ _).symm)
  rw [Finset.sum_congr rfl fun k _ => hl k, Finset.sum_congr rfl fun e _ => hr e, ← coe_sum, ← coe_sum, Finset.sum_comm]

/-- The reciprocal square root of a positive real is a real. -/
theorem rsqrt_pos_isReal {d : EReal} (hd : IsReal d) (hpos : 0 < d) : IsReal (Ideal.rsqrt d) := by
  obtain ⟨r, rfl⟩ := hd
  have hr : 0 < r := by exact_mod_cast hpos
  rw [Ideal.rsqrt_coe, if_neg (not_lt.mpr hr.le), if_neg hr.ne']
  exact ⟨_, rfl⟩

/-- "d^(-1/2) where d is positive, else a real": real for every real `d`. -/
theorem select_rsqrt_isReal {d z y : EReal} (hd : IsReal d) (hz : z = 0) (hy : IsReal y) :
    IsReal (Scalar.select (FloatOps.cmpf (F := Ideal) (φ := .f32) .ogt d z) (FloatOps.hostUnary (F := Ideal) (φ := .f32) .rsqrt d) y) := by
  subst hz
  by_cases h : (0 : EReal) < d
  · have : FloatOps.cmpf (F := Ideal) (φ := .f32) .ogt d 0 = 1#1 := by
      show Ideal.cmp .ogt d 0 = 1#1
      simp [Ideal.cmp, h]
    rw [this, select_one]
    exact rsqrt_pos_isReal hd h
  · have : FloatOps.cmpf (F := Ideal) (φ := .f32) .ogt d 0 = 0#1 := by
      show Ideal.cmp .ogt d 0 = 0#1
      simp [Ideal.cmp, h]
    rw [this, select_zero]
    exact hy

/-- The inverse square root of the weighted in-degree (a real where the degree is not positive) is real at every node,
    for real edge weights. -/
theorem invSqrtDeg_isReal {N E : Nat}
    (wfs : ScatterDims.WF ⟨1, ![N]⟩ ⟨2, ![E, 1]⟩ ⟨1, ![E]⟩ [] [0] [0] 1)
    (w : (⟨1, ![E]⟩ : Shape).Idx → EReal) (hw : ∀ e, IsReal (w e))
    (z0 zc zs : (⟨1, ![N]⟩ : Shape).Idx → EReal) (hz0 : ∀ i, z0 i = 0) (hzc : ∀ i, zc i = 0) (hzs : ∀ i, IsReal (zs i))
    (si : IVec ⟨2, ![E, 1]⟩ 32) (i : (⟨1, ![N]⟩ : Shape).Idx) :
    IsReal (select (cmpf (F := Ideal) (φ := .f32) .ogt (Host.scatterAdd (F := Ideal) (φ := .f32) (scatterVec N E wfs) z0 si w) zc)
      (Host.rsqrt (F := Ideal) (φ := .f32) (Host.scatterAdd (F := Ideal) (φ := .f32) (scatterVec N E wfs) z0 si w)) zs i) := by
  obtain ⟨r, rfl⟩ : ∃ r, i = ix1 r := ⟨i 0, eq_ix1 i⟩
  have hdeg : IsReal (Host.scatterAdd (F := Ideal) (φ := .f32) (scatterVec N E wfs) z0 si w (ix1 r)) := by
    rw [scatterAdd_vec_apply wfs z0 si w r, hz0]
    exact IsReal.add IsReal.zero (IsReal.sum _ fun e _ => hw _)
  exact select_rsqrt_isReal hdeg (hzc _) (hzs _)

/-- THE SYMMETRIC NORMALISATION IS REAL: D(src e) · w e · D(dst e) for an array `D` of reals and real weights. -/
theorem symNorm_isReal {N E : Nat} (hN : 0 < N)
    (wfg : GatherDims.WF ⟨1, ![N]⟩ ⟨2, ![E, 1]⟩ ⟨1, ![E]⟩ [] [0] [] [0] [] 1 ![1])
    (D : (⟨1, ![N]⟩ : Shape).Idx → EReal) (hD : ∀ i, IsReal (D i))
    (w : (⟨1, ![E]⟩ : Shape).Idx → EReal) (hw : ∀ e, IsReal (w e))
    (ri ci : IVec ⟨2, ![E, 1]⟩ 32) (j : (⟨1, ![E]⟩ : Shape).Idx) :
    IsReal (mulf (F := Ideal) (φ := .f32) (mulf (F := Ideal) (φ := .f32) (Host.gather (gatherVec N E wfg) D ri) w)
      (Host.gather (gatherVec N E wfg) D ci) j) := by
  obtain ⟨e, rfl⟩ : ∃ e, j = ix1 e := ⟨j 0, eq_ix1 j⟩
  rw [mulf_apply, mulf_apply, gather_vec_apply hN wfg D ri e, gather_vec_apply hN wfg D ci e]
  exact IsReal.mul (IsReal.mul (hD _) (hw _)) (hD _)

/-- A vector `[E]` laid out as a column `[E, 1]` keeps "every entry is real". -/
theorem col_isReal {E : Nat} (h : (⟨1, ![E]⟩ : Shape).BroadcastsInDim ⟨2, ![E, 1]⟩ (![0] : Fin 1 → Fin 2))
    (v : (⟨1, ![E]⟩ : Shape).Idx → EReal) (hv : ∀ j, IsReal (v j)) (e : Fin E) :
    IsReal (broadcastInDim ⟨2, ![E, 1]⟩ (![0] : Fin 1 → Fin 2) h v (ix2 e (0 : Fin 1))) := by
  rw [bcast_col_apply h v e]; exact hv _

/-- ONE BLOCK OF relu(A·W1 + b1)·W2 in a vector unit's spelling — operands rounded to bfloat16 (the identity on the
    extended reals), both products into zero accumulators, the bias one row repeated down the rows, the floor a zero
    splat — read at an entry. -/
theorem dense_relu_dense_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨2, ![1, H]⟩ .f32)
    (w2 : FVec Ideal ⟨2, ![H, O]⟩ .f32)
    (hx : (⟨2, ![R, I]⟩ : Shape).ShapeCasts ⟨2, ![R, I]⟩)
    (hb1 : (⟨2, ![1, H]⟩ : Shape).ShapeCasts ⟨2, ![1, H]⟩) (hB1 : (⟨2, ![1, H]⟩ : Shape).Broadcasts ⟨2, ![R, H]⟩)
    (ht : FTy.bf16.bits < FTy.f32.bits) (p : Fin R) (q : Fin O) :
    matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32) (ix2 p q)
    = ∑ j : Fin H, max ((∑ k : Fin I, x (ix2 p k) * w1 (ix2 k j)) + b1 (ix2 (0 : Fin 1) j)) (Ideal.ofBits .f32 0x00000000#32) * w2 (ix2 j q) := by
  subst hd1 hd2
  simp only [matmul, addf_apply, maximumf_apply, truncf_apply, Cert.LibMlp.matmul_zero_plain,
    broadcastTo_1b_ab_apply, shapeCast_self, broadcast_apply]
  rfl

end Cert.GcnAggregate

end
-- ==== Proof.GcnSpec.lean ====
/-
  A two-layer graph convolution with symmetric normalisation, index by index on the extended reals.

  The graph has N nodes and E edges. Edge e reads a source row (a start index, clamped into [0, N-1] as a gather
  clamps it: `srcRow`) and lands on a destination row (a scatter index read signed; an index outside [0, N) lands
  nowhere: `inEdges`). With d(r) = (1 + number of edges landing on r)^(-1/2), one layer sends a node array a to

      out(r, c) = Σ_{e lands on r} d(src e) · d(r) · a(src e, c)  +  d(r)² · a(r, c)  +  b(c).

  The two programs arrange this differently. One scales the node array first and pulls d(r) out of the sum
  (`layerScaled`); the other forms the per-edge coefficient d(src e) · d(dst e) and multiplies each gathered row by it
  (`layerEdgewise`). They agree because d(r) is a non-negative real, over which a product distributes over any
  finite sum of extended reals (`layer_eq`), and because an edge that lands on r has destination r.

  * `mm`: a matrix product as plain sums;
  * `invSqrtDeg`: d, as both programs accumulate it (zero, plus one per landing edge, plus one);
  * `layerScaled`, `layerEdgewise`, `layer_eq`;
  * `relu`, `rowMax`, `logSoftmax`: the two activations.
-/
import Idealize.ShloMosaic.Lib.ValueIdx
import Idealize.ShloMosaic.PureOps.Ideal
import Idealize.ShloMosaic.PureOps.Ideal.Laws
import proofs.«122546_j2207613190837_2_alg».proof.Proof.LibGcnAggregate

noncomputable section

namespace Cert.GcnSpec

open Idealize.ShloMosaic Idealize.ShloMosaic.ValueIdx Cert.SegmentRows Cert.GcnAggregate
open scoped BigOperators

/-- A matrix product, entry by entry. -/
def mm {R K C : ℕ} (a : (⟨2, ![R, K]⟩ : Shape).Idx → EReal) (w : (⟨2, ![K, C]⟩ : Shape).Idx → EReal) :
    (⟨2, ![R, C]⟩ : Shape).Idx → EReal :=
  fun i => ∑ k : Fin K, a (ix2 (i 0) k) * w (ix2 k (i 1))

theorem mm_ix2 {R K C : ℕ} (a : (⟨2, ![R, K]⟩ : Shape).Idx → EReal) (w : (⟨2, ![K, C]⟩ : Shape).Idx → EReal) (p : Fin R) (q : Fin C) :
    mm a w (ix2 p q) = ∑ k : Fin K, a (ix2 p k) * w (ix2 k q) := rfl

/-- The binary32 word of the number one. -/
abbrev oneWord : BitVec 32 := 0x3F800000#32

/-- d(r): the reciprocal square root of (zero, plus a one for every edge landing on r, plus one). -/
def invSqrtDeg {N E : ℕ} (ci : IVec ⟨2, ![E, 1]⟩ 32) : (⟨1, ![N]⟩ : Shape).Idx → EReal :=
  fun i => Ideal.rsqrt (((0 : EReal) + ∑ _e ∈ inEdges ci (i 0), Ideal.ofBits .f32 oneWord) + Ideal.ofBits .f32 oneWord)

theorem invSqrtDeg_ix1 {N E : ℕ} (ci : IVec ⟨2, ![E, 1]⟩ 32) (r : Fin N) :
    invSqrtDeg (N := N) ci (ix1 r) = Ideal.rsqrt (((0 : EReal) + ∑ _e ∈ inEdges ci r, Ideal.ofBits .f32 oneWord) + Ideal.ofBits .f32 oneWord) := rfl

/-- One layer before its activation, the node array scaled by d before the rows are gathered and d(r) pulled out of
    the sum over the edges landing on r. -/
def layerScaled {N E C : ℕ} (hN : 0 < N) (d : (⟨1, ![N]⟩ : Shape).Idx → EReal) (ri ci : IVec ⟨2, ![E, 1]⟩ 32)
    (a : (⟨2, ![N, C]⟩ : Shape).Idx → EReal) (b : (⟨1, ![C]⟩ : Shape).Idx → EReal) : (⟨2, ![N, C]⟩ : Shape).Idx → EReal :=
  fun i => (d (ix1 (i 0)) * (∑ e ∈ inEdges ci (i 0), a (ix2 (srcRow hN ri e) (i 1)) * d (ix1 (srcRow hN ri e)))
      + (d (ix1 (i 0)) * d (ix1 (i 0))) * a (ix2 (i 0) (i 1))) + b (ix1 (i 1))

theorem layerScaled_ix2 {N E C : ℕ} (hN : 0 < N) (d : (⟨1, ![N]⟩ : Shape).Idx → EReal) (ri ci : IVec ⟨2, ![E, 1]⟩ 32)
    (a : (⟨2, ![N, C]⟩ : Shape).Idx → EReal) (b : (⟨1, ![C]⟩ : Shape).Idx → EReal) (r : Fin N) (c : Fin C) :
    layerScaled hN d ri ci a b (ix2 r c)
      = (d (ix1 r) * (∑ e ∈ inEdges ci r, a (ix2 (srcRow hN ri e) c) * d (ix1 (srcRow hN ri e)))
          + (d (ix1 r) * d (ix1 r)) * a (ix2 r c)) + b (ix1 c) := rfl

/-- One layer before its activation, every gathered row multiplied by its edge's coefficient d(src e) · d(dst e),
    the destination's row read through its own (clamped) index column `di`. -/
def layerEdgewise {N E C : ℕ} (hN : 0 < N) (d : (⟨1, ![N]⟩ : Shape).Idx → EReal) (ri di ci : IVec ⟨2, ![E, 1]⟩ 32)
    (a : (⟨2, ![N, C]⟩ : Shape).Idx → EReal) (b : (⟨1, ![C]⟩ : Shape).Idx → EReal) : (⟨2, ![N, C]⟩ : Shape).Idx → EReal :=
  fun i => ((∑ e ∈ inEdges ci (i 0), a (ix2 (srcRow hN ri e) (i 1)) * (d (ix1 (srcRow hN ri e)) * d (ix1 (srcRow hN di e))))
      + a (ix2 (i 0) (i 1)) * (d (ix1 (i 0)) * d (ix1 (i 0)))) + b (ix1 (i 1))

theorem layerEdgewise_ix2 {N E C : ℕ} (hN : 0 < N) (d : (⟨1, ![N]⟩ : Shape).Idx → EReal) (ri di ci : IVec ⟨2, ![E, 1]⟩ 32)
    (a : (⟨2, ![N, C]⟩ : Shape).Idx → EReal) (b : (⟨1, ![C]⟩ : Shape).Idx → EReal) (r : Fin N) (c : Fin C) :
    layerEdgewise hN d ri di ci a b (ix2 r c)
      = ((∑ e ∈ inEdges ci r, a (ix2 (srcRow hN ri e) c) * (d (ix1 (srcRow hN ri e)) * d (ix1 (srcRow hN di e))))
          + a (ix2 r c) * (d (ix1 r) * d (ix1 r))) + b (ix1 c) := rfl

/-- The rectifier: the maximum with the binary32 zero word's value. -/
def relu {s : Shape} (v : s.Idx → EReal) : s.Idx → EReal := fun i => max (v i) (Ideal.ofBits .f32 0x00000000#32)

/-- A row's maximum, folded from the binary32 word of minus infinity. -/
def rowMax {R C : ℕ} (v : (⟨2, ![R, C]⟩ : Shape).Idx → EReal) (r : Fin R) : EReal :=
  (Finset.univ : Finset (Fin C)).fold max (Ideal.ofBits .f32 0xFF800000#32) (fun q => v (ix2 r q))

/-- The row-wise log-softmax, shifted by the row's maximum. -/
def logSoftmax {R C : ℕ} (v : (⟨2, ![R, C]⟩ : Shape).Idx → EReal) : (⟨2, ![R, C]⟩ : Shape).Idx → EReal :=
  fun i => (v (ix2 (i 0) (i 1)) - rowMax v (i 0)) - Ideal.log (∑ q : Fin C, Ideal.exp (v (ix2 (i 0) q) - rowMax v (i 0)))

theorem logSoftmax_ix2 {R C : ℕ} (v : (⟨2, ![R, C]⟩ : Shape).Idx → EReal) (r : Fin R) (c : Fin C) :
    logSoftmax v (ix2 r c) = (v (ix2 r c) - rowMax v r) - Ideal.log (∑ q : Fin C, Ideal.exp (v (ix2 r q) - rowMax v r)) := rfl

/-! ## The edge table's columns -/

/-- The index normalisation of array indexing: a word that reads negative has the length added. -/
def normWord (K v : BitVec 32) : BitVec 32 := Scalar.select (IntOp.cmpi .slt v 0#32) (IntOp.addi v K) v

/-- A table of one word per edge laid out as a column [E, 1]. -/
def colOf {E : ℕ} (f : Fin E → BitVec 32) : IVec ⟨2, ![E, 1]⟩ 32 := fun j => f (j 0)

theorem colOf_ix2 {E : ℕ} (f : Fin E → BitVec 32) (e : Fin E) : colOf f (ix2 e (0 : Fin 1)) = f e := rfl

/-- Row 0 of the edge table [2, E]: the sources. -/
def srcWord {E : ℕ} (ei : IVec ⟨2, ![2, E]⟩ 32) (e : Fin E) : BitVec 32 := ei (ix2 (0 : Fin 2) e)
/-- Row 1 of the edge table [2, E]: the destinations. -/
def dstWord {E : ℕ} (ei : IVec ⟨2, ![2, E]⟩ 32) (e : Fin E) : BitVec 32 := ei (ix2 (1 : Fin 2) e)

/-- The normalised sources as a column: what every row gather reads its start indices from. -/
def srcCol {E : ℕ} (K : BitVec 32) (ei : IVec ⟨2, ![2, E]⟩ 32) : IVec ⟨2, ![E, 1]⟩ 32 := colOf fun e => normWord K (srcWord ei e)
/-- The destinations as a column, as given: what every segment sum reads its scatter indices from. -/
def dstCol {E : ℕ} (ei : IVec ⟨2, ![2, E]⟩ 32) : IVec ⟨2, ![E, 1]⟩ 32 := colOf (dstWord ei)
/-- The normalised destinations as a column. -/
def dstNormCol {E : ℕ} (K : BitVec 32) (ei : IVec ⟨2, ![2, E]⟩ 32) : IVec ⟨2, ![E, 1]⟩ 32 := colOf fun e => normWord K (dstWord ei e)

/-! ## The closing pass of a layer as a vector unit sees it -/

/-- d(r) · agg(r, c) + d(r)² · xw(r, c) + b(c), with d given as a column [N, 1] and b as a row [1, C]. -/
def epiPre {N C : ℕ} (agg xw : (⟨2, ![N, C]⟩ : Shape).Idx → EReal) (dcol : (⟨2, ![N, 1]⟩ : Shape).Idx → EReal)
    (brow : (⟨2, ![1, C]⟩ : Shape).Idx → EReal) : (⟨2, ![N, C]⟩ : Shape).Idx → EReal :=
  fun i => (dcol (ix2 (i 0) (0 : Fin 1)) * agg (ix2 (i 0) (i 1))
      + (dcol (ix2 (i 0) (0 : Fin 1)) * dcol (ix2 (i 0) (0 : Fin 1))) * xw (ix2 (i 0) (i 1))) + brow (ix2 (0 : Fin 1) (i 1))

theorem epiPre_ix2 {N C : ℕ} (agg xw : (⟨2, ![N, C]⟩ : Shape).Idx → EReal) (dcol : (⟨2, ![N, 1]⟩ : Shape).Idx → EReal)
    (brow : (⟨2, ![1, C]⟩ : Shape).Idx → EReal) (r : Fin N) (c : Fin C) :
    epiPre agg xw dcol brow (ix2 r c)
      = (dcol (ix2 r (0 : Fin 1)) * agg (ix2 r c) + (dcol (ix2 r (0 : Fin 1)) * dcol (ix2 r (0 : Fin 1))) * xw (ix2 r c))
          + brow (ix2 (0 : Fin 1) c) := rfl

theorem relu_apply {s : Shape} (v : s.Idx → EReal) (i : s.Idx) : relu v i = max (v i) (Ideal.ofBits .f32 0x00000000#32) := rfl

/-! ## The whole network, in each program's arrangement -/

/-- The network as the program with the scaled node arrays computes it: degrees from the destinations as given. -/
def netScaled {N E I H O : ℕ} (hN : 0 < N) (K : BitVec 32) (x : (⟨2, ![N, I]⟩ : Shape).Idx → EReal) (ei : IVec ⟨2, ![2, E]⟩ 32)
    (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![N, O]⟩ : Shape).Idx → EReal :=
  logSoftmax (layerScaled hN (invSqrtDeg (dstCol ei)) (srcCol K ei) (dstCol ei)
    (mm (relu (layerScaled hN (invSqrtDeg (dstCol ei)) (srcCol K ei) (dstCol ei) (mm x w1) b1)) w2) b2)

/-- The network as the program with per-edge coefficients computes it: degrees from the NORMALISED destinations. -/
def netEdgewise {N E I H O : ℕ} (hN : 0 < N) (K : BitVec 32) (x : (⟨2, ![N, I]⟩ : Shape).Idx → EReal) (ei : IVec ⟨2, ![2, E]⟩ 32)
    (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![N, O]⟩ : Shape).Idx → EReal :=
  logSoftmax (layerEdgewise hN (invSqrtDeg (dstNormCol K ei)) (srcCol K ei) (dstNormCol K ei) (dstCol ei)
    (mm (relu (layerEdgewise hN (invSqrtDeg (dstNormCol K ei)) (srcCol K ei) (dstNormCol K ei) (dstCol ei) (mm x w1) b1)) w2) b2)

/-! ## The two arrangements of a layer agree -/

/-- A non-negative real factor distributes over a finite sum of extended reals. -/
theorem mul_sum_of_nonneg_real {ι : Type} (S : Finset ι) {x : EReal} (h0 : 0 ≤ x) (ht : x ≠ ⊤) (f : ι → EReal) :
    x * ∑ e ∈ S, f e = ∑ e ∈ S, x * f e := by
  classical
  induction S using Finset.induction_on with
  | empty => simp
  | insert a S ha ih => rw [Finset.sum_insert ha, Finset.sum_insert ha, EReal.left_distrib_of_nonneg_of_ne_top h0 ht, ih]

/-- THE TWO ARRANGEMENTS AGREE when d is everywhere a non-negative real and every edge landing on a row has that row
    as its (clamped) destination. -/
theorem layer_eq {N E C : ℕ} (hN : 0 < N) (d : (⟨1, ![N]⟩ : Shape).Idx → EReal) (hd0 : ∀ i, 0 ≤ d i) (hdt : ∀ i, d i ≠ ⊤)
    (ri di ci : IVec ⟨2, ![E, 1]⟩ 32) (hdi : ∀ (r : Fin N) (e : Fin E), e ∈ inEdges ci r → srcRow hN di e = r)
    (a : (⟨2, ![N, C]⟩ : Shape).Idx → EReal) (b : (⟨1, ![C]⟩ : Shape).Idx → EReal) :
    layerEdgewise hN d ri di ci a b = layerScaled hN d ri ci a b := by
  funext i
  obtain ⟨r, c, rfl⟩ : ∃ r c, i = ix2 r c := ⟨i 0, i 1, eq_ix2 i⟩
  rw [layerEdgewise_ix2, layerScaled_ix2, mul_sum_of_nonneg_real _ (hd0 _) (hdt _)]
  congr 2
  · refine Finset.sum_congr rfl fun e he => ?_
    rw [hdi r e he]
    ac_rfl
  · exact mul_comm _ _

end Cert.GcnSpec

end
-- ==== Proof.GcnHost.lean ====
import Idealize.ShloMosaic.Lib.ValueIdx
import Idealize.ShloMosaic.Lib.ValueLayout
import Idealize.ShloMosaic.Lib.Pipeline.Value
import Idealize.ShloMosaic.PureOps.Ideal.Laws
import proofs.«122546_j2207613190837_2_alg».proof.Proof.GcnSpec

noncomputable section

namespace Cert.GcnHost

open Idealize.ShloMosaic Idealize.ShloMosaic.ValueIdx Cert.SegmentRows Cert.GcnAggregate Cert.EdgeOrderLib Cert.GcnSpec
open scoped BigOperators

/-- Row 0 of the edge table, cut out and laid flat, at an edge. -/
theorem srcRow_flat_apply (ei : IVec ⟨2, ![2, 3200000]⟩ 32)
    (hs : (⟨2, ![2, 3200000]⟩ : Shape).Slices ![0, 0] ⟨2, ![1, 3200000]⟩)
    (hc : (⟨2, ![1, 3200000]⟩ : Shape).ShapeCasts ⟨1, ![3200000]⟩) (e : Fin 3200000) :
    shapeCast ⟨1, ![3200000]⟩ (extractStridedSlice ⟨2, ![1, 3200000]⟩ ![0, 0] ei hs) hc (ix1 e) = srcWord ei e := by
  rw [shapeCast_apply _ hc (ix1 e) (ix2 (0 : Fin 1) e)
    (by rewrite [Shape.rowMajor_val_two, Shape.rowMajor_val_one]; show 0 * 3200000 + e.val = e.val; omega)]
  exact extractStridedSlice_apply ![0, 0] ei hs (ix2 (0 : Fin 1) e) (ix2 (0 : Fin 2) e) (fun a => by
    match a with
    | ⟨0, _⟩ => rfl
    | ⟨1, _⟩ => show e.val = 0 + e.val; omega)

/-- Row 1 of the edge table, cut out and laid flat, at an edge. -/
theorem dstRow_flat_apply (ei : IVec ⟨2, ![2, 3200000]⟩ 32)
    (hs : (⟨2, ![2, 3200000]⟩ : Shape).Slices ![1, 0] ⟨2, ![1, 3200000]⟩)
    (hc : (⟨2, ![1, 3200000]⟩ : Shape).ShapeCasts ⟨1, ![3200000]⟩) (e : Fin 3200000) :
    shapeCast ⟨1, ![3200000]⟩ (extractStridedSlice ⟨2, ![1, 3200000]⟩ ![1, 0] ei hs) hc (ix1 e) = dstWord ei e := by
  rw [shapeCast_apply _ hc (ix1 e) (ix2 (0 : Fin 1) e)
    (by rewrite [Shape.rowMajor_val_two, Shape.rowMajor_val_one]; show 0 * 3200000 + e.val = e.val; omega)]
  exact extractStridedSlice_apply ![1, 0] ei hs (ix2 (0 : Fin 1) e) (ix2 (1 : Fin 2) e) (fun a => by
    match a with
    | ⟨0, _⟩ => rfl
    | ⟨1, _⟩ => show e.val = 0 + e.val; omega)

/-- A flat table of words as a column is `colOf` of its entries. -/
theorem col_eq {E : ℕ} (h : (⟨1, ![E]⟩ : Shape).BroadcastsInDim ⟨2, ![E, 1]⟩ (![0] : Fin 1 → Fin 2)) (v : IVec ⟨1, ![E]⟩ 32) :
    broadcastInDim ⟨2, ![E, 1]⟩ (![0] : Fin 1 → Fin 2) h v = colOf fun e => v (ix1 e) := by
  funext j
  obtain ⟨e, z, rfl⟩ : ∃ (e : Fin E) (z : Fin 1), j = ix2 e z := ⟨j 0, j 1, eq_ix2 j⟩
  obtain rfl : z = 0 := Subsingleton.elim _ _
  exact bcast_col_apply h v e

/-- The index normalisation of a flat table, at an edge. -/
theorem norm_flat_apply {E : ℕ} (K : BitVec 32) (hz : (⟨0, ![]⟩ : Shape).BroadcastsInDim ⟨1, ![E]⟩ (![] : Fin 0 → Fin 1))
    (v : IVec ⟨1, ![E]⟩ 32) (e : Fin E) :
    select (cmpi .slt v (broadcastInDim ⟨1, ![E]⟩ (![] : Fin 0 → Fin 1) hz (constantI ⟨0, ![]⟩ 32 0#32)))
      (addi v (broadcastInDim ⟨1, ![E]⟩ (![] : Fin 0 → Fin 1) hz (constantI ⟨0, ![]⟩ 32 K))) v (ix1 e)
      = normWord K (v (ix1 e)) := rfl

/-- A scalar constant repeated over any shape, read at an index, is the constant's value. -/
theorem splat_apply {t : Shape} (hz : (⟨0, ![]⟩ : Shape).BroadcastsInDim t (![] : Fin 0 → Fin t.rank)) (w : BitVec 32) (j : t.Idx) :
    broadcastInDim t (![] : Fin 0 → Fin t.rank) hz (constant (F := Ideal) ⟨0, ![]⟩ .f32 w) j = Ideal.ofBits .f32 w :=
  broadcastInDim_apply ![] hz _ j ix0 (fun a => a.elim0)

/-- THE DEGREES: the reciprocal square root of the scatter-add of ones into zeros, plus one, is `invSqrtDeg`. -/
theorem invSqrtDeg_host {N E : ℕ} (wfs : ScatterDims.WF ⟨1, ![N]⟩ ⟨2, ![E, 1]⟩ ⟨1, ![E]⟩ [] [0] [0] 1)
    (hzN : (⟨0, ![]⟩ : Shape).BroadcastsInDim ⟨1, ![N]⟩ (![] : Fin 0 → Fin 1))
    (hzE : (⟨0, ![]⟩ : Shape).BroadcastsInDim ⟨1, ![E]⟩ (![] : Fin 0 → Fin 1)) (ci : IVec ⟨2, ![E, 1]⟩ 32) :
    Host.rsqrt (F := Ideal) (φ := .f32) (addf (F := Ideal) (φ := .f32)
        (Host.scatterAdd (F := Ideal) (φ := .f32) (scatterVec N E wfs)
          (broadcastInDim ⟨1, ![N]⟩ (![] : Fin 0 → Fin 1) hzN (constant (F := Ideal) ⟨0, ![]⟩ .f32 0x00000000#32)) ci
          (broadcastInDim ⟨1, ![E]⟩ (![] : Fin 0 → Fin 1) hzE (constant (F := Ideal) ⟨0, ![]⟩ .f32 0x3F800000#32)))
        (broadcastInDim ⟨1, ![N]⟩ (![] : Fin 0 → Fin 1) hzN (constant (F := Ideal) ⟨0, ![]⟩ .f32 0x3F800000#32)))
      = invSqrtDeg ci := by
  funext i
  obtain ⟨r, rfl⟩ : ∃ r, i = ix1 r := ⟨i 0, eq_ix1 i⟩
  rw [invSqrtDeg_ix1]
  show Ideal.rsqrt (Host.scatterAdd (F := Ideal) (φ := .f32) (scatterVec N E wfs) _ ci _ (ix1 r) + _) = _
  rw [scatterAdd_vec_apply wfs _ ci _ r, splat_apply hzN, splat_apply hzN, Ideal.ofBits_zero_f32]
  refine congrArg (fun s : EReal => Ideal.rsqrt (((0 : EReal) + s) + Ideal.ofBits .f32 0x3F800000#32)) ?_
  exact Finset.sum_congr rfl fun e _ => splat_apply hzE _ _

/-- A vector [N] laid out as a column [N, 1], at a row. -/
theorem col_reshape_apply {α : Type} {N : ℕ} (hc : (⟨1, ![N]⟩ : Shape).ShapeCasts ⟨2, ![N, 1]⟩) (d : (⟨1, ![N]⟩ : Shape).Idx → α) (p : Fin N) :
    shapeCast ⟨2, ![N, 1]⟩ d hc (ix2 p (0 : Fin 1)) = d (ix1 p) :=
  shapeCast_apply d hc (ix2 p (0 : Fin 1)) (ix1 p)
    (by rewrite [Shape.rowMajor_val_two, Shape.rowMajor_val_one]; show p.val = p.val * 1 + 0; omega)

/-- A vector [C] laid out as a row [1, C], at a column. -/
theorem row_reshape_apply {α : Type} {C : ℕ} (hc : (⟨1, ![C]⟩ : Shape).ShapeCasts ⟨2, ![1, C]⟩) (b : (⟨1, ![C]⟩ : Shape).Idx → α) (q : Fin C) :
    shapeCast ⟨2, ![1, C]⟩ b hc (ix2 (0 : Fin 1) q) = b (ix1 q) :=
  shapeCast_apply b hc (ix2 (0 : Fin 1) q) (ix1 q)
    (by rewrite [Shape.rowMajor_val_two, Shape.rowMajor_val_one]; show q.val = 0 * C + q.val; omega)

/-- THE AGGREGATION: rows of (a · d, d a column repeated along the rows) gathered at the sources and scatter-added into
    zeros at the destinations, at an entry. -/
theorem agg_apply {N E C : ℕ} (hN : 0 < N)
    (wfg : GatherDims.WF ⟨2, ![N, C]⟩ ⟨2, ![E, 1]⟩ ⟨2, ![E, C]⟩ [1] [0] [] [0] [] 1 ![1, C])
    (wfs : ScatterDims.WF ⟨2, ![N, C]⟩ ⟨2, ![E, 1]⟩ ⟨2, ![E, C]⟩ [1] [0] [0] 1)
    (hz : (⟨0, ![]⟩ : Shape).BroadcastsInDim ⟨2, ![N, C]⟩ (![] : Fin 0 → Fin 2))
    (hb : (⟨2, ![N, 1]⟩ : Shape).BroadcastsInDim ⟨2, ![N, C]⟩ (![0, 1] : Fin 2 → Fin 2))
    (hc : (⟨1, ![N]⟩ : Shape).ShapeCasts ⟨2, ![N, 1]⟩)
    (a : (⟨2, ![N, C]⟩ : Shape).Idx → EReal) (d : (⟨1, ![N]⟩ : Shape).Idx → EReal) (ri ci : IVec ⟨2, ![E, 1]⟩ 32)
    (r : Fin N) (c : Fin C) :
    Host.scatterAdd (F := Ideal) (φ := .f32) (scatterRows N E C wfs)
        (broadcastInDim ⟨2, ![N, C]⟩ (![] : Fin 0 → Fin 2) hz (constant (F := Ideal) ⟨0, ![]⟩ .f32 0x00000000#32)) ci
        (Host.gather (gatherRows N E C wfg)
          (mulf (F := Ideal) (φ := .f32) a (broadcastInDim ⟨2, ![N, C]⟩ (![0, 1] : Fin 2 → Fin 2) hb (shapeCast ⟨2, ![N, 1]⟩ d hc))) ri) (ix2 r c)
      = ∑ e ∈ inEdges ci r, a (ix2 (srcRow hN ri e) c) * d (ix1 (srcRow hN ri e)) := by
  rw [scatterAdd_rows_apply wfs _ ci _ r c, zero_splat_apply hz, zero_add]
  refine Finset.sum_congr rfl fun e _ => ?_
  rw [gather_rows_apply hN wfg _ ri e c, mulf_apply, cols_splat_apply hb _ _ c, col_reshape_apply hc d _]

/-- THE CLOSING PASS IS THE LAYER: with the aggregated array, the inverse square root degrees as a column and the bias
    as a row, `epiPre` is `layerScaled`. -/
theorem epiPre_eq_layerScaled {N E C : ℕ} (hN : 0 < N) (d : (⟨1, ![N]⟩ : Shape).Idx → EReal) (ri ci : IVec ⟨2, ![E, 1]⟩ 32)
    (a : (⟨2, ![N, C]⟩ : Shape).Idx → EReal) (b : (⟨1, ![C]⟩ : Shape).Idx → EReal)
    (agg : (⟨2, ![N, C]⟩ : Shape).Idx → EReal) (dcol : (⟨2, ![N, 1]⟩ : Shape).Idx → EReal) (brow : (⟨2, ![1, C]⟩ : Shape).Idx → EReal)
    (hagg : ∀ r c, agg (ix2 r c) = ∑ e ∈ inEdges ci r, a (ix2 (srcRow hN ri e) c) * d (ix1 (srcRow hN ri e)))
    (hd : ∀ r, dcol (ix2 r (0 : Fin 1)) = d (ix1 r)) (hb : ∀ c, brow (ix2 (0 : Fin 1) c) = b (ix1 c)) :
    epiPre agg a dcol brow = layerScaled hN d ri ci a b := by
  funext i
  obtain ⟨r, c, rfl⟩ : ∃ r c, i = ix2 r c := ⟨i 0, i 1, eq_ix2 i⟩
  rw [epiPre_ix2, layerScaled_ix2, hagg, hd, hb]

end Cert.GcnHost

end
-- ==== Proof.KernelProj.lean ====
/-
  The two dense projections of the network, read off the kernel's proof data: each row block of x · W that a grid
  point writes back is the row block of the matrix product of the whole arrays, and the ten row blocks tile the
  result, so after the last point the output array holds the product, entry by entry a plain sum of products.
-/
import proofs.«122546_j2207613190837_2_alg».proof.Proof.Gen.KernelIdeal.Frame
import proofs.«122546_j2207613190837_2_alg».proof.Proof.GcnSpec
import proofs.«122546_j2207613190837_2_alg».proof.Proof.LibMlpRows
import Idealize.ShloMosaic.Lib.Pipeline.Value
import Idealize.ShloMosaic.Lib.ValueIdx
import Idealize.ShloMosaic.PureOps.Ideal.Laws

noncomputable section

namespace Cert.KernelIdeal.Proj

open Idealize.ShloMosaic Idealize.ShloMosaic.ValueIdx Idealize.ShloMosaic.TcCoe
open Cert.KernelIdeal Cert.KernelIdeal.Gen Cert.GcnSpec
open scoped BigOperators

variable (V : (c : Dev nD) → (b : Ref sig .tc) → Buf (Elt Ideal) ((c : Thread nD τ).loc b)) (c : Dev nD)

/-- The zero offsets of a whole-buffer access. -/
theorem hz : (![0, 0] : Fin 2 → Nat) = fun _ => 0 := funext fun a => by fin_cases a <;> rfl

/-! ## The first projection: [100000, 128] by [128, 16] -/

/-- The printed dimension numbers are the plain ones: rows × contraction by contraction × columns. -/
theorem dot0_plain : dot_S10000x128_S128x16_S10000x16_1_0_0_1_n_n = DotDims.plain 10000 128 16 := rfl

/-- The body's value at an entry: the row's product with the column (the change of format is the identity on the
    extended reals, and the accumulator starts at zero). -/
theorem pay0_apply (x0 : Vec Ideal S10000x128 .f32) (x1 : Vec Ideal S128x16 .f32) (p : Fin 10000) (q : Fin 16) :
    k0_pay1 (F := Ideal) x0 x1 (ix2 p q) = ∑ k : Fin 128, x0 (ix2 p k) * x1 (ix2 k q) := by
  unfold k0_pay1
  simp only [matmul]
  rw [dot0_plain, Cert.LibMlp.matmul_zero_plain]
  simp only [truncf_apply]

/-- The body's value on a block that holds rows n·10000 … of A, with the whole of W beside it, is the product's
    entry in those rows. -/
theorem point0 (n : ℕ) (x0 : Vec Ideal S10000x128 .f32) (x1 : Vec Ideal S128x16 .f32)
    (A : S100000x128.Idx → EReal) (W : S128x16.Idx → EReal)
    (hx0 : ∀ (y : S10000x128.Idx) (i : S100000x128.Idx), (i 0).val = n * 10000 + (y 0).val → (i 1).val = (y 1).val → x0 y = A i)
    (hx1 : ∀ y : S128x16.Idx, x1 y = W y)
    (j : S10000x16.Idx) (i : S100000x16.Idx) (h0 : (i 0).val = n * 10000 + (j 0).val) (h1 : (i 1).val = (j 1).val) :
    k0_pay1 (F := Ideal) x0 x1 j = mm A W i := by
  obtain ⟨p, q, rfl⟩ : ∃ (p : Fin 10000) (q : Fin 16), j = ix2 p q := ⟨j 0, j 1, eq_ix2 j⟩
  obtain ⟨r, s, rfl⟩ : ∃ (r : Fin 100000) (s : Fin 16), i = ix2 r s := ⟨i 0, i 1, eq_ix2 i⟩
  obtain rfl : s = q := Fin.ext h1
  rw [pay0_apply, mm_ix2]
  refine Finset.sum_congr rfl fun k _ => ?_
  rw [hx0 (ix2 p k) (ix2 r k) h0 rfl, hx1]

/-- The printed index maps, decided over the grid: the left operand's and the result's row block is the point's
    number, the right operand is whole at every point. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row block t of the left operand, read at an index of the whole array. -/
theorem blk0_0_apply (t : Fin cfg0.N) (y : S10000x128.Idx) (i : S100000x128.Idx)
    (h0 : (i 0).val = t.val * 10000 + (y 0).val) (h1 : (i 1).val = (y 1).val) :
    (V c main_arg0 : S100000x128.Idx → EReal) (((cfg0.win 0).blk t).view.emb y) = (V c main_arg0 : S100000x128.Idx → EReal) i := by
  obtain ⟨e0, e1, -, -, -, -⟩ := idx_facts0 t
  congr 1
  funext a
  apply Fin.ext
  match a with
  | ⟨0, _⟩ => show win0_0.index t (0 : Fin 2) * 10000 + 1 * (y 0).val = (i 0).val; rw [e0, h0]; omega
  | ⟨1, _⟩ => show win0_0.index t (1 : Fin 2) * 128 + 1 * (y 1).val = (i 1).val; rw [e1, h1]; omega

/-- The right operand's one block is the whole array. -/
theorem blk0_1_apply (t : Fin cfg0.N) (y : S128x16.Idx) :
    (V c main_arg2 : S128x16.Idx → EReal) (((cfg0.win 1).blk t).view.emb y) = (V c main_arg2 : S128x16.Idx → EReal) y := by
  obtain ⟨-, -, e0, e1, -, -⟩ := idx_facts0 t
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 16 + 1 * (y 1).val = (y 1).val; rw [e1]; omega

/-- What point t writes back is row block t of the product of the whole arrays. -/
theorem flushed0_eq (t : Fin cfg0.N) :
    (dat0 (F := Ideal) V c).flushed 2 t = ((cfg0.win 2).blk t).view.read (Elt Ideal) (mm (V c main_arg0 : S100000x128.Idx → EReal) (V c main_arg2 : S128x16.Idx → EReal)) := by
  show (cfg0.win 2).cut (grid0.coords t) ((dat0 (F := Ideal) V c).after 2 t) = _
  rw [after0_2]
  unfold out0_2
  rw [View.canon_unit_zero hz]
  simp only [View.ld_unit_zero (S := S10000x128) hz, View.ld_unit_zero (S := S128x16) hz]
  obtain ⟨-, -, -, -, e0, e1⟩ := idx_facts0 t
  funext j
  show k0_pay1 (F := Ideal) (iblk0 V c 0 t) (iblk0 V c 1 t) j
    = mm (V c main_arg0 : S100000x128.Idx → EReal) (V c main_arg2 : S128x16.Idx → EReal) (((cfg0.win 2).blk t).view.emb j)
  refine point0 t.val _ _ _ _ (fun y i h0 h1 => blk0_0_apply V c t y i h0 h1) (fun y => blk0_1_apply V c t y) j _ ?_ ?_
  · show win0_2.index t (0 : Fin 2) * 10000 + 1 * (j 0).val = t.val * 10000 + (j 0).val
    rw [e0]; omega
  · show win0_2.index t (1 : Fin 2) * 16 + 1 * (j 1).val = (j 1).val
    rw [e1]; omega

/-- An index of the result is in point t's block iff each coordinate is in the block's range on its axis. -/
theorem mem_blk0 (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v11).slice (win0_2.rect t)).set ↔ _
  rw [View.set_slice_whole, Rect.mem_set_unit]
  exact Iff.rfl

/-- Row r of the result is in the block of point r / 10000. -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 10 := N_0
  let t : Fin cfg0.N := ⟨(i 0).val / 10000, by rw [hN]; omega⟩
  have ht : t.val = (i 0).val / 10000 := rfl
  obtain ⟨-, -, -, -, e0, e1⟩ := idx_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e0, ht]; omega
  | ⟨1, _⟩ => show win0_2.index t (1 : Fin 2) * 16 ≤ (i 1).val ∧ (i 1).val < win0_2.index t (1 : Fin 2) * 16 + 16; rw [e1]; omega

/-- THE FIRST PROJECTION: after the last point the output array holds the matrix product of the two input arrays. -/
theorem final0 : (dat0 (F := Ideal) V c).arrAt 2 cfg0.N = Cert.GcnSpec.mm (V c main_arg0 : S100000x128.Idx → EReal) (V c main_arg2 : S128x16.Idx → EReal) :=
  (dat0 (F := Ideal) V c).arrAt_eq_of_cover 2 _ (fun t _ => flushed0_eq V c t) (cover0)

/-! ## The second projection: [100000, 16] by [16, 11] -/

/-- The printed dimension numbers are the plain ones. -/
theorem dot2_plain : dot_S10000x16_S16x11_S10000x11_1_0_0_1_n_n = DotDims.plain 10000 16 11 := rfl

/-- The body's value at an entry: the row's product with the column. -/
theorem pay2_apply (x0 : Vec Ideal S10000x16 .f32) (x1 : Vec Ideal S16x11 .f32) (p : Fin 10000) (q : Fin 11) :
    k2_pay1 (F := Ideal) x0 x1 (ix2 p q) = ∑ k : Fin 16, x0 (ix2 p k) * x1 (ix2 k q) := by
  unfold k2_pay1
  simp only [matmul]
  rw [dot2_plain, Cert.LibMlp.matmul_zero_plain]
  simp only [truncf_apply, shapeCast_self]

/-- The body's value on a block that holds rows n·10000 … of A, with the whole of W beside it, is the product's
    entry in those rows. -/
theorem point2 (n : ℕ) (x0 : Vec Ideal S10000x16 .f32) (x1 : Vec Ideal S16x11 .f32)
    (A : S100000x16.Idx → EReal) (W : S16x11.Idx → EReal)
    (hx0 : ∀ (y : S10000x16.Idx) (i : S100000x16.Idx), (i 0).val = n * 10000 + (y 0).val → (i 1).val = (y 1).val → x0 y = A i)
    (hx1 : ∀ y : S16x11.Idx, x1 y = W y)
    (j : S10000x11.Idx) (i : S100000x11.Idx) (h0 : (i 0).val = n * 10000 + (j 0).val) (h1 : (i 1).val = (j 1).val) :
    k2_pay1 (F := Ideal) x0 x1 j = mm A W i := by
  obtain ⟨p, q, rfl⟩ : ∃ (p : Fin 10000) (q : Fin 11), j = ix2 p q := ⟨j 0, j 1, eq_ix2 j⟩
  obtain ⟨r, s, rfl⟩ : ∃ (r : Fin 100000) (s : Fin 11), i = ix2 r s := ⟨i 0, i 1, eq_ix2 i⟩
  obtain rfl : s = q := Fin.ext h1
  rw [pay2_apply, mm_ix2]
  refine Finset.sum_congr rfl fun k _ => ?_
  rw [hx0 (ix2 p k) (ix2 r k) h0 rfl, hx1]

/-- The printed index maps, decided over the grid. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row block t of the left operand, read at an index of the whole array. -/
theorem blk2_0_apply (t : Fin cfg2.N) (y : S10000x16.Idx) (i : S100000x16.Idx)
    (h0 : (i 0).val = t.val * 10000 + (y 0).val) (h1 : (i 1).val = (y 1).val) :
    (V c main_v26 : S100000x16.Idx → EReal) (((cfg2.win 0).blk t).view.emb y) = (V c main_v26 : S100000x16.Idx → EReal) i := by
  obtain ⟨e0, e1, -, -, -, -⟩ := idx_facts2 t
  congr 1
  funext a
  apply Fin.ext
  match a with
  | ⟨0, _⟩ => show win2_0.index t (0 : Fin 2) * 10000 + 1 * (y 0).val = (i 0).val; rw [e0, h0]; omega
  | ⟨1, _⟩ => show win2_0.index t (1 : Fin 2) * 16 + 1 * (y 1).val = (i 1).val; rw [e1, h1]; omega

/-- The right operand's one block is the whole array. -/
theorem blk2_1_apply (t : Fin cfg2.N) (y : S16x11.Idx) :
    (V c main_arg4 : S16x11.Idx → EReal) (((cfg2.win 1).blk t).view.emb y) = (V c main_arg4 : S16x11.Idx → EReal) y := by
  obtain ⟨-, -, e0, e1, -, -⟩ := idx_facts2 t
  congr 1
  funext a
  apply Fin.ext
  match a with
  | ⟨0, _⟩ => show win2_1.index t (0 : Fin 2) * 16 + 1 * (y 0).val = (y 0).val; rw [e0]; omega
  | ⟨1, _⟩ => show win2_1.index t (1 : Fin 2) * 11 + 1 * (y 1).val = (y 1).val; rw [e1]; omega

/-- What point t writes back is row block t of the product of the whole arrays. -/
theorem flushed2_eq (t : Fin cfg2.N) :
    (dat2 (F := Ideal) V c).flushed 2 t = ((cfg2.win 2).blk t).view.read (Elt Ideal) (mm (V c main_v26 : S100000x16.Idx → EReal) (V c main_arg4 : S16x11.Idx → EReal)) := by
  show (cfg2.win 2).cut (grid2.coords t) ((dat2 (F := Ideal) V c).after 2 t) = _
  rw [after2_2]
  unfold out2_2
  rw [View.canon_unit_zero hz]
  simp only [View.ld_unit_zero (S := S10000x16) hz, View.ld_unit_zero (S := S16x11) hz]
  obtain ⟨-, -, -, -, e0, e1⟩ := idx_facts2 t
  funext j
  show k2_pay1 (F := Ideal) (iblk2 V c 0 t) (iblk2 V c 1 t) j
    = mm (V c main_v26 : S100000x16.Idx → EReal) (V c main_arg4 : S16x11.Idx → EReal) (((cfg2.win 2).blk t).view.emb j)
  refine point2 t.val _ _ _ _ (fun y i h0 h1 => blk2_0_apply V c t y i h0 h1) (fun y => blk2_1_apply V c t y) j _ ?_ ?_
  · show win2_2.index t (0 : Fin 2) * 10000 + 1 * (j 0).val = t.val * 10000 + (j 0).val
    rw [e0]; omega
  · show win2_2.index t (1 : Fin 2) * 11 + 1 * (j 1).val = (j 1).val
    rw [e1]; omega

/-- An index of the result is in point t's block iff each coordinate is in the block's range on its axis. -/
theorem mem_blk2 (t : Fin cfg2.N) (i : S100000x11.Idx) :
    i ∈ ((cfg2.win 2).blk t).view.set ↔ ∀ a : Fin 2, win2_2.index t a * S10000x11.size a ≤ (i a).val ∧ (i a).val < win2_2.index t a * S10000x11.size a + S10000x11.size a := by
  show i ∈ ((View.whole main_v27).slice (win2_2.rect t)).set ↔ _
  rw [View.set_slice_whole, Rect.mem_set_unit]
  exact Iff.rfl

/-- Row r of the result is in the block of point r / 10000. -/
theorem cover2 (i : S100000x11.Idx) : ∃ t : Fin cfg2.N, (cfg2.win 2).flush t = true ∧ i ∈ ((cfg2.win 2).blk t).view.set := by
  have hi0 : (i 0).val < 100000 := (i 0).isLt
  have hi1 : (i 1).val < 11 := (i 1).isLt
  have hN : cfg2.N = 10 := N_2
  let t : Fin cfg2.N := ⟨(i 0).val / 10000, by rw [hN]; omega⟩
  have ht : t.val = (i 0).val / 10000 := rfl
  obtain ⟨-, -, -, -, e0, e1⟩ := idx_facts2 t
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; rw [e0, ht]; omega
  | ⟨1, _⟩ => show win2_2.index t (1 : Fin 2) * 11 ≤ (i 1).val ∧ (i 1).val < win2_2.index t (1 : Fin 2) * 11 + 11; rw [e1]; omega

/-- THE SECOND PROJECTION: after the last point the output array holds the matrix product of the two input arrays. -/
theorem final2 : (dat2 (F := Ideal) V c).arrAt 2 cfg2.N = Cert.GcnSpec.mm (V c main_v26 : S100000x16.Idx → EReal) (V c main_arg4 : S16x11.Idx → EReal) :=
  (dat2 (F := Ideal) V c).arrAt_eq_of_cover 2 _ (fun t _ => flushed2_eq V c t) (cover2)

end Cert.KernelIdeal.Proj

end
-- ==== Proof.KernelHost.lean ====
/-
  The idealized kernel's result array is the network in its scaled arrangement.

  The run leaves the result array at the last boundary's contents (`Gen.W7`). Walking back through the boundaries:
  the last region's closing pass reads the second aggregation, the second projection, the inverse square root degrees and
  the second bias; the stretch before it computes the aggregation from the projection; the projection is the third
  region's product of the first layer's output with the second weights; and so on down to the launch contents. Each
  host stretch is read at the buffers the next region takes, each region by its whole-array function, and the pieces are
  the specification's `layerScaled`, `relu`, `mm`, `logSoftmax`.
-/
import proofs.«122546_j2207613190837_2_alg».proof.Proof.Gen.KernelIdeal.Frame
import proofs.«122546_j2207613190837_2_alg».proof.Proof.GcnHost
import proofs.«122546_j2207613190837_2_alg».proof.Proof.KernelProj
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem Idealize.ShloMosaic.StableHlo
open Cert.GcnSpec Cert.GcnHost Cert.SegmentRows Cert.GcnAggregate Cert.EdgeOrderLib
open scoped BigOperators

/-- A buffer that no operation of a host stretch writes keeps its contents. -/
macro "host_keeps " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

theorem hN : 0 < 100000 := by decide

/-! ## The printed spellings of the edge columns -/

/-- The destinations, flat, as a column, in the program's spelling. -/
abbrev dstColK (ei : IVec ⟨2, ![2, 3200000]⟩ 32) : IVec ⟨2, ![3200000, 1]⟩ 32 :=
  broadcastInDim S3200000x1 ![0] bcast_S3200000_S3200000x1_0 (fun i : S3200000.Idx => dstWord ei (i 0))

/-- The sources, flat, normalised, as a column, in the program's spelling. -/
abbrev srcColK (ei : IVec ⟨2, ![2, 3200000]⟩ 32) : IVec ⟨2, ![3200000, 1]⟩ 32 :=
  broadcastInDim S3200000x1 ![0] bcast_S3200000_S3200000x1_0
    (select (cmpi .slt (fun i : S3200000.Idx => srcWord ei (i 0)) (broadcastInDim S3200000 ![] bcast_S_S3200000 (constantI S_ 32 0#32)))
      (addi (fun i : S3200000.Idx => srcWord ei (i 0)) (broadcastInDim S3200000 ![] bcast_S_S3200000 (constantI S_ 32 100000#32)))
      (fun i : S3200000.Idx => srcWord ei (i 0)))

theorem dstColP (ei : IVec ⟨2, ![2, 3200000]⟩ 32) : dstColK ei = dstCol ei := by
  unfold dstColK; rw [col_eq]; rfl

theorem srcColP (ei : IVec ⟨2, ![2, 3200000]⟩ 32) : srcColK ei = srcCol 100000#32 ei := by
  unfold srcColK; rw [col_eq]; rfl

variable (m : (ℓ : Loc nD τ sig) → Buf (Elt Ideal) ℓ) (ρ : Dev nD → PrngReg) (c : Dev nD)

/-- The edge table as launched. -/
abbrev edges : IVec ⟨2, ![2, 3200000]⟩ 32 := m ((c : Thread nD τ).loc main_arg1)
/-- d: the inverse square root degrees of the launched edge table. -/
abbrev dinv : S100000.Idx → EReal := invSqrtDeg (dstCol (edges m c))

/-! ## After the first stretch of host operations -/

theorem W1_v1 : (W1 m ρ c (Proc.devRef .tc main_v1) : S3200000.Idx → BitVec 32) = fun i => srcWord (edges m c) (i 0) := by
  show StableHlo.after hostOps0 (W0 m ρ c) (Proc.devRef .tc main_v1) = _
  after_results
  funext i
  obtain ⟨e, rfl⟩ : ∃ e, i = ix1 e := ⟨i 0, eq_ix1 i⟩
  exact srcRow_flat_apply _ _ _ e

theorem W1_v3 : (W1 m ρ c (Proc.devRef .tc main_v3) : S3200000.Idx → BitVec 32) = fun i => dstWord (edges m c) (i 0) := by
  show StableHlo.after hostOps0 (W0 m ρ c) (Proc.devRef .tc main_v3) = _
  after_results
  funext i
  obtain ⟨e, rfl⟩ : ∃ e, i = ix1 e := ⟨i 0, eq_ix1 i⟩
  exact dstRow_flat_apply _ _ _ e

theorem W1_v10 : (W1 m ρ c (Proc.devRef .tc main_v10) : S100000.Idx → EReal) = dinv m c := by
  show StableHlo.after hostOps0 (W0 m ρ c) (Proc.devRef .tc main_v10) = _
  after_results
  have hflat : (shapeCast S3200000 (extractStridedSlice S1x3200000 ![1, 0] (edges m c) slices_S2x3200000_S1x3200000_1_0) shapeCasts_S1x3200000_S3200000 : S3200000.Idx → BitVec 32)
      = fun i => dstWord (edges m c) (i 0) := funext fun i => by
    obtain ⟨e, rfl⟩ : ∃ e, i = ix1 e := ⟨i 0, eq_ix1 i⟩
    exact dstRow_flat_apply _ _ _ e
  refine Eq.trans ?_ (invSqrtDeg_host scatter_S100000_S3200000x1_S3200000_n_0_0_1_wf bcast_S_S100000 bcast_S_S3200000 (dstCol (edges m c)))
  have hcol : dstCol (edges m c) = broadcastInDim S3200000x1 ![0] bcast_S3200000_S3200000x1_0
      (shapeCast S3200000 (extractStridedSlice S1x3200000 ![1, 0] (edges m c) slices_S2x3200000_S1x3200000_1_0) shapeCasts_S1x3200000_S3200000) := by
    rw [hflat]; exact (dstColP _).symm
  rw [hcol]
  rfl

theorem W1_arg0 : W1 m ρ c (Proc.devRef .tc main_arg0) = m ((c : Thread nD τ).loc main_arg0) := by
  show StableHlo.after hostOps0 (W0 m ρ c) (Proc.devRef .tc main_arg0) = _
  refine Eq.trans ?_ (rfl : W0 m ρ c (Proc.devRef .tc main_arg0) = _)
  host_keeps hostOps0
theorem W1_arg2 : W1 m ρ c (Proc.devRef .tc main_arg2) = m ((c : Thread nD τ).loc main_arg2) := by
  show StableHlo.after hostOps0 (W0 m ρ c) (Proc.devRef .tc main_arg2) = _
  refine Eq.trans ?_ (rfl : W0 m ρ c (Proc.devRef .tc main_arg2) = _)
  host_keeps hostOps0
theorem W1_arg3 : W1 m ρ c (Proc.devRef .tc main_arg3) = m ((c : Thread nD τ).loc main_arg3) := by
  show StableHlo.after hostOps0 (W0 m ρ c) (Proc.devRef .tc main_arg3) = _
  refine Eq.trans ?_ (rfl : W0 m ρ c (Proc.devRef .tc main_arg3) = _)
  host_keeps hostOps0
theorem W1_arg4 : W1 m ρ c (Proc.devRef .tc main_arg4) = m ((c : Thread nD τ).loc main_arg4) := by
  show StableHlo.after hostOps0 (W0 m ρ c) (Proc.devRef .tc main_arg4) = _
  refine Eq.trans ?_ (rfl : W0 m ρ c (Proc.devRef .tc main_arg4) = _)
  host_keeps hostOps0
theorem W1_arg5 : W1 m ρ c (Proc.devRef .tc main_arg5) = m ((c : Thread nD τ).loc main_arg5) := by
  show StableHlo.after hostOps0 (W0 m ρ c) (Proc.devRef .tc main_arg5) = _
  refine Eq.trans ?_ (rfl : W0 m ρ c (Proc.devRef .tc main_arg5) = _)
  host_keeps hostOps0

/-! ## After the first region: the first projection -/

/-- x · W1. -/
abbrev xw1 : S100000x16.Idx → EReal := mm (m ((c : Thread nD τ).loc main_arg0) : S100000x128.Idx → EReal) (m ((c : Thread nD τ).loc main_arg2) : S128x16.Idx → EReal)

theorem W2_v11 : (W2 m ρ c (Proc.devRef .tc main_v11) : S100000x16.Idx → EReal) = xw1 m c := by
  refine (W2_arr m ρ c 2).trans ((Cert.KernelIdeal.Proj.final0 (V1 m ρ) c).trans ?_)
  show mm (W1 m ρ c (Proc.devRef .tc main_arg0)) (W1 m ρ c (Proc.devRef .tc main_arg2)) = _
  rw [W1_arg0, W1_arg2]

theorem W2_v1 : (W2 m ρ c (Proc.devRef .tc main_v1) : S3200000.Idx → BitVec 32) = fun i => srcWord (edges m c) (i 0) :=
  (W2_of_ne m ρ c main_v1 (by decide)).trans (W1_v1 m ρ c)
theorem W2_v3 : (W2 m ρ c (Proc.devRef .tc main_v3) : S3200000.Idx → BitVec 32) = fun i => dstWord (edges m c) (i 0) :=
  (W2_of_ne m ρ c main_v3 (by decide)).trans (W1_v3 m ρ c)
theorem W2_v10 : (W2 m ρ c (Proc.devRef .tc main_v10) : S100000.Idx → EReal) = dinv m c :=
  (W2_of_ne m ρ c main_v10 (by decide)).trans (W1_v10 m ρ c)
theorem W2_arg3 : W2 m ρ c (Proc.devRef .tc main_arg3) = m ((c : Thread nD τ).loc main_arg3) :=
  (W2_of_ne m ρ c main_arg3 (by decide)).trans (W1_arg3 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)

/-! ## After the second stretch: what the first closing pass reads -/

theorem W3_v11 : (W3 m ρ c (Proc.devRef .tc main_v11) : S100000x16.Idx → EReal) = xw1 m c := by
  refine Eq.trans ?_ (W2_v11 m ρ c)
  show StableHlo.after hostOps1 (W2 m ρ c) (Proc.devRef .tc main_v11) = _
  host_keeps hostOps1

theorem W3_v12_apply (r : Fin 100000) :
    (W3 m ρ c (Proc.devRef .tc main_v12) : S100000x1.Idx → EReal) (ix2 r (0 : Fin 1)) = dinv m c (ix1 r) := by
  show StableHlo.after hostOps1 (W2 m ρ c) (Proc.devRef .tc main_v12) (ix2 r (0 : Fin 1)) = _
  after_results
  exact (col_reshape_apply shapeCasts_S100000_S100000x1 (W2 m ρ c (Proc.devRef .tc main_v10)) r).trans (congrFun (W2_v10 m ρ c) _)

theorem W3_v25_apply (q : Fin 16) :
    (W3 m ρ c (Proc.devRef .tc main_v25) : S1x16.Idx → EReal) (ix2 (0 : Fin 1) q) = (m ((c : Thread nD τ).loc main_arg3) : S16.Idx → EReal) (ix1 q) := by
  show StableHlo.after hostOps1 (W2 m ρ c) (Proc.devRef .tc main_v25) (ix2 (0 : Fin 1) q) = _
  after_results
  exact (row_reshape_apply shapeCasts_S16_S1x16 (W2 m ρ c (Proc.devRef .tc main_arg3)) q).trans (congrFun (W2_arg3 m ρ c) _)

/-! ## What the second stretch leaves untouched -/

theorem W3_v1 : (W3 m ρ c (Proc.devRef .tc main_v1) : S3200000.Idx → BitVec 32) = fun i => srcWord (edges m c) (i 0) := by
  refine Eq.trans ?_ (W2_v1 m ρ c)
  show StableHlo.after hostOps1 (W2 m ρ c) (Proc.devRef .tc main_v1) = _
  host_keeps hostOps1
theorem W3_v3 : (W3 m ρ c (Proc.devRef .tc main_v3) : S3200000.Idx → BitVec 32) = fun i => dstWord (edges m c) (i 0) := by
  refine Eq.trans ?_ (W2_v3 m ρ c)
  show StableHlo.after hostOps1 (W2 m ρ c) (Proc.devRef .tc main_v3) = _
  host_keeps hostOps1
theorem W3_v10 : (W3 m ρ c (Proc.devRef .tc main_v10) : S100000.Idx → EReal) = dinv m c := by
  refine Eq.trans ?_ (W2_v10 m ρ c)
  show StableHlo.after hostOps1 (W2 m ρ c) (Proc.devRef .tc main_v10) = _
  host_keeps hostOps1
theorem W3_arg4 : W3 m ρ c (Proc.devRef .tc main_arg4) = m ((c : Thread nD τ).loc main_arg4) := by
  refine Eq.trans ?_ (W2_arg4 m ρ c)
  show StableHlo.after hostOps1 (W2 m ρ c) (Proc.devRef .tc main_arg4) = _
  host_keeps hostOps1
theorem W3_arg5 : W3 m ρ c (Proc.devRef .tc main_arg5) = m ((c : Thread nD τ).loc main_arg5) := by
  refine Eq.trans ?_ (W2_arg5 m ρ c)
  show StableHlo.after hostOps1 (W2 m ρ c) (Proc.devRef .tc main_arg5) = _
  host_keeps hostOps1

end Cert.KernelIdeal.Net

end
-- ==== Proof.KernelEpilogue.lean ====
/-
  The closing passes of the two graph-convolution layers, read index by index on the extended reals.

  Each pass runs over 20 blocks of 5000 rows. At a row r and column c it forms d(r) · agg(r, c) + d(r)² · xw(r, c) + b(c),
  with d a column [N, 1] repeated along the row and b a row [1, C] repeated down the rows; the first pass then takes the
  maximum with zero, the second subtracts the row's maximum and then the logarithm of the row's sum of exponentials.

  * `pay1_apply`, `pay3_apply`: the body's arithmetic at an entry of a block (for the second pass, the row maximum and
    the row sum are reductions along the block's rows, which are whole rows of the array);
  * `iblk?_?_apply`: block t of an input is rows 5000·t … 5000·t + 4999 of its array (the bias row is read whole);
  * `flushed?_eq`: what point t writes back is block t of the closed form;
  * `cover?`: row r lies in the block of point r / 5000, so the blocks cover the array;
  * `final1`, `final3`: the output array after the run is the closed form, `relu (epiPre …)` and `logSoftmax (epiPre …)`.
-/
import proofs.«122546_j2207613190837_2_alg».proof.Proof.Gen.KernelIdeal.Frame
import proofs.«122546_j2207613190837_2_alg».proof.Proof.GcnSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Epi

open Idealize.ShloMosaic Idealize.ShloMosaic.ValueIdx Idealize.ShloMosaic.TcCoe
open Cert.KernelIdeal Cert.KernelIdeal.Gen Cert.GcnSpec
open scoped BigOperators

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The first closing pass at an entry of its block. -/
theorem pay1_apply (v0 : Vec Ideal S5000x1 .f32) (v2 v7 : Vec Ideal S5000x16 .f32) (v12 : Vec Ideal S1x16 .f32)
    (p : Fin 5000) (q : Fin 16) :
    k1_pay1 v0 v2 v7 v12 (ix2 p q)
      = max ((v0 (ix2 p (0 : Fin 1)) * v2 (ix2 p q) + (v0 (ix2 p (0 : Fin 1)) * v0 (ix2 p (0 : Fin 1))) * v7 (ix2 p q))
          + v12 (ix2 (0 : Fin 1) q)) (Ideal.ofBits .f32 0x00000000#32) := by
  unfold k1_pay1
  simp only [maximumf_apply, addf_apply, mulf_apply, broadcast_apply, shapeCast_self,
    broadcastTo_a1_ab_apply, broadcastTo_1b_ab_apply]
  rfl

/-! ## The first closing pass: blocks, write-backs, the whole array -/

section Region1

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: every row-blocked window is at block (t, 0), the bias row at (0, 0). -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Block t of the aggregate is rows 5000·t … of it. -/
theorem iblk1_0_apply (c : Dev nD) (t : Fin cfg1.N) (p : Fin 5000) (q : Fin 16) (r : Fin 100000) (hr : r.val = t.val * 5000 + p.val) :
    iblk1 (F := Ideal) V c 0 t (ix2 p q) = (V c main_v24 : S100000x16.Idx → EReal) (ix2 r q) := by
  obtain ⟨e0, e1, -⟩ := idx_facts1 t
  show V c main_v24 (((cfg1.win 0).blk t).view.emb (ix2 p q)) = V c main_v24 (ix2 r q)
  refine congrArg _ (funext fun a => Fin.ext ?_)
  match a with
  | ⟨0, _⟩ => show win1_0.index t (0 : Fin 2) * 5000 + 1 * p.val = r.val; omega
  | ⟨1, _⟩ => show win1_0.index t (1 : Fin 2) * 16 + 1 * q.val = q.val; omega

theorem iblk1_1_apply (c : Dev nD) (t : Fin cfg1.N) (p : Fin 5000) (q : Fin 16) (r : Fin 100000) (hr : r.val = t.val * 5000 + p.val) :
    iblk1 (F := Ideal) V c 1 t (ix2 p q) = (V c main_v11 : S100000x16.Idx → EReal) (ix2 r q) := by
  obtain ⟨-, -, e0, e1, -⟩ := idx_facts1 t
  show V c main_v11 (((cfg1.win 1).blk t).view.emb (ix2 p q)) = V c main_v11 (ix2 r q)
  refine congrArg _ (funext fun a => Fin.ext ?_)
  match a with
  | ⟨0, _⟩ => show win1_1.index t (0 : Fin 2) * 5000 + 1 * p.val = r.val; omega
  | ⟨1, _⟩ => show win1_1.index t (1 : Fin 2) * 16 + 1 * q.val = q.val; omega

theorem iblk1_2_apply (c : Dev nD) (t : Fin cfg1.N) (p : Fin 5000) (r : Fin 100000) (hr : r.val = t.val * 5000 + p.val) :
    iblk1 (F := Ideal) V c 2 t (ix2 p (0 : Fin 1)) = (V c main_v12 : S100000x1.Idx → EReal) (ix2 r (0 : Fin 1)) := by
  obtain ⟨-, -, -, -, e0, e1, -⟩ := idx_facts1 t
  show V c main_v12 (((cfg1.win 2).blk t).view.emb (ix2 p (0 : Fin 1))) = V c main_v12 (ix2 r (0 : Fin 1))
  refine congrArg _ (funext fun a => Fin.ext ?_)
  match a with
  | ⟨0, _⟩ => show win1_2.index t (0 : Fin 2) * 5000 + 1 * p.val = r.val; omega
  | ⟨1, _⟩ => show win1_2.index t (1 : Fin 2) * 1 + 1 * 0 = 0; omega

theorem iblk1_3_apply (c : Dev nD) (t : Fin cfg1.N) (q : Fin 16) :
    iblk1 (F := Ideal) V c 3 t (ix2 (0 : Fin 1) q) = (V c main_v25 : S1x16.Idx → EReal) (ix2 (0 : Fin 1) q) := by
  obtain ⟨-, -, -, -, -, -, e0, e1, -⟩ := idx_facts1 t
  show V c main_v25 (((cfg1.win 3).blk t).view.emb (ix2 (0 : Fin 1) q)) = V c main_v25 (ix2 (0 : Fin 1) q)
  refine congrArg _ (funext fun a => Fin.ext ?_)
  match a with
  | ⟨0, _⟩ => show win1_3.index t (0 : Fin 2) * 1 + 1 * 0 = 0; omega
  | ⟨1, _⟩ => show win1_3.index t (1 : Fin 2) * 16 + 1 * q.val = q.val; omega

/-- An index of the array is in point t's block iff each coordinate is in the block's range on its axis. -/
theorem mem_blk1 (t : Fin cfg1.N) (i : S100000x16.Idx) :
    i ∈ ((cfg1.win 4).blk t).view.set ↔ ∀ a : Fin 2, win1_4.index t a * S5000x16.size a ≤ (i a).val ∧ (i a).val < win1_4.index t a * S5000x16.size a + S5000x16.size a := by
  show i ∈ ((View.whole main_v26).slice (win1_4.rect t)).set ↔ _
  rw [View.set_slice_whole, Rect.mem_set_unit]
  exact Iff.rfl

/-- Row r lies in the block of point r / 5000. -/
theorem cover1 (i : S100000x16.Idx) : ∃ t : Fin cfg1.N, (cfg1.win 4).flush t = true ∧ i ∈ ((cfg1.win 4).blk t).view.set := by
  have hN : cfg1.N = 20 := N_1
  have hi0 : (i 0).val < 100000 := (i 0).isLt
  have hi1 : (i 1).val < 16 := (i 1).isLt
  refine ⟨⟨(i 0).val / 5000, by rw [hN]; omega⟩, flush1_4 _, ?_⟩
  rw [mem_blk1]
  obtain ⟨-, -, -, -, -, -, -, -, e0, e1⟩ := idx_facts1 ⟨(i 0).val / 5000, by rw [hN]; omega⟩
  intro a
  match a with
  | ⟨0, _⟩ => show win1_4.index _ (0 : Fin 2) * 5000 ≤ (i 0).val ∧ (i 0).val < win1_4.index _ (0 : Fin 2) * 5000 + 5000; rw [e0]; show (i 0).val / 5000 * 5000 ≤ (i 0).val ∧ (i 0).val < (i 0).val / 5000 * 5000 + 5000; omega
  | ⟨1, _⟩ => show win1_4.index _ (1 : Fin 2) * 16 ≤ (i 1).val ∧ (i 1).val < win1_4.index _ (1 : Fin 2) * 16 + 16; rw [e1]; omega

/-- What point t writes back is block t of the rectified closing pass of the four arrays as the region finds them. -/
theorem flushed1_eq (c : Dev nD) (t : Fin cfg1.N) :
    (dat1 (F := Ideal) V c).flushed 4 t = ((cfg1.win 4).blk t).view.read (Elt Ideal)
      (relu (epiPre (V c main_v24 : S100000x16.Idx → EReal) (V c main_v11 : S100000x16.Idx → EReal)
        (V c main_v12 : S100000x1.Idx → EReal) (V c main_v25 : S1x16.Idx → EReal))) := by
  show (cfg1.win 4).cut (grid1.coords t) ((dat1 (F := Ideal) V c).after 4 t) = _
  rw [after1_4]
  unfold out1_4
  rw [View.canon_unit_zero hz]
  simp only [View.ld_unit_zero (S := S5000x16) hz, View.ld_unit_zero (S := S5000x1) hz, View.ld_unit_zero (S := S1x16) hz]
  have hN : cfg1.N = 20 := N_1
  have ht : t.val < 20 := hN ▸ t.isLt
  obtain ⟨-, -, -, -, -, -, -, -, e0, e1⟩ := idx_facts1 t
  funext j
  obtain ⟨p, q, rfl⟩ : ∃ (p : Fin 5000) (q : Fin 16), j = ix2 p q := ⟨j 0, j 1, eq_ix2 j⟩
  have hp : p.val < 5000 := p.isLt
  have hemb : ((cfg1.win 4).blk t).view.emb (ix2 p q) = ix2 (⟨t.val * 5000 + p.val, by omega⟩ : Fin 100000) q := by
    funext a; apply Fin.ext
    match a with
    | ⟨0, _⟩ => show win1_4.index t (0 : Fin 2) * 5000 + 1 * p.val = t.val * 5000 + p.val; omega
    | ⟨1, _⟩ => show win1_4.index t (1 : Fin 2) * 16 + 1 * q.val = q.val; omega
  show k1_pay1 (iblk1 (F := Ideal) V c 2 t) (iblk1 (F := Ideal) V c 0 t) (iblk1 (F := Ideal) V c 1 t) (iblk1 (F := Ideal) V c 3 t) (ix2 p q)
    = relu (epiPre (V c main_v24 : S100000x16.Idx → EReal) (V c main_v11 : S100000x16.Idx → EReal)
        (V c main_v12 : S100000x1.Idx → EReal) (V c main_v25 : S1x16.Idx → EReal)) (((cfg1.win 4).blk t).view.emb (ix2 p q))
  rw [hemb, pay1_apply, relu_apply, epiPre_ix2,
    iblk1_0_apply V c t p q ⟨t.val * 5000 + p.val, by omega⟩ rfl,
    iblk1_1_apply V c t p q ⟨t.val * 5000 + p.val, by omega⟩ rfl,
    iblk1_2_apply V c t p ⟨t.val * 5000 + p.val, by omega⟩ rfl,
    iblk1_3_apply V c t q]

/-- THE FIRST CLOSING PASS: the output array ends holding the rectified d·agg + d²·xw + b. -/
theorem final1 (c : Dev nD) : (dat1 (F := Ideal) V c).arrAt 4 cfg1.N
    = relu (epiPre (V c main_v24 : S100000x16.Idx → EReal) (V c main_v11 : S100000x16.Idx → EReal)
        (V c main_v12 : S100000x1.Idx → EReal) (V c main_v25 : S1x16.Idx → EReal)) :=
  (dat1 (F := Ideal) V c).arrAt_eq_of_cover 4 _ (fun t _ => flushed1_eq V c t) cover1

end Region1

/-! ## The second closing pass at an entry of its block -/

/-- A vector `[a]` cast to a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The reduced row index `p` with column `k` put back is `(p, k)`. -/
theorem lift_row {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A maximum reduction along the rows, from the word of minus infinity, is the row maximum. -/
theorem rowMax_of_reduce {m n : ℕ} (h : (⟨2, ![m, n]⟩ : Shape).Reduces [1] (⟨1, ![m]⟩ : Shape)) (src : FVec Ideal ⟨2, ![m, n]⟩ .f32)
    (hφ : FKind.Formats .f32) (hacc : (0xFF800000#32 : BitVec 32) = FKind.maximumf.neutral .f32 hφ) (p : Fin m) :
    multiReduction (F := Ideal) .maximumf [1] ⟨1, ![m]⟩ src 0xFF800000#32 h hφ hacc (ix1 p) = rowMax src p := by
  rw [Ideal.multiReduction_maximumf_single]
  unfold rowMax
  have hf : (src ∘ h.lift (ix1 p)) = fun k : Fin n => src (ix2 p k) := funext fun k => congrArg src (lift_row h p k)
  exact congrArg (fun f => Finset.fold max (Ideal.ofBits .f32 0xFF800000#32) f (Finset.univ : Finset (Fin n))) hf

/-- A sum reduction along the rows, from the zero word, is the row sum. -/
theorem rowSum_of_reduce {m n : ℕ} (h : (⟨2, ![m, n]⟩ : Shape).Reduces [1] (⟨1, ![m]⟩ : Shape)) (src : FVec Ideal ⟨2, ![m, n]⟩ .f32)
    (hφ : FKind.Formats .f32) (hacc : (0x00000000#32 : BitVec 32) = FKind.add.neutral .f32 hφ) (p : Fin m) :
    multiReduction (F := Ideal) .add [1] ⟨1, ![m]⟩ src 0x00000000#32 h hφ hacc (ix1 p) = ∑ k : Fin n, src (ix2 p k) := by
  rw [Ideal.multiReduction_add_single]
  exact Finset.sum_congr rfl fun k _ => congrArg src (lift_row h p k)

/-- The two reductions of the second closing pass, at its own shapes. -/
theorem max3 (X : FVec Ideal S5000x11 .f32) (hφ : FKind.Formats .f32) (hacc : (0xFF800000#32 : BitVec 32) = FKind.maximumf.neutral .f32 hφ) (p : Fin 5000) :
    multiReduction (F := Ideal) .maximumf [1] S5000 X 0xFF800000#32 reduces_S5000x11_S5000 hφ hacc (ix1 p) = rowMax (R := 5000) (C := 11) X p :=
  rowMax_of_reduce reduces_S5000x11_S5000 X hφ hacc p

theorem sum3 (X : FVec Ideal S5000x11 .f32) (hφ : FKind.Formats .f32) (hacc : (0x00000000#32 : BitVec 32) = FKind.add.neutral .f32 hφ) (p : Fin 5000) :
    multiReduction (F := Ideal) .add [1] S5000 X 0x00000000#32 reduces_S5000x11_S5000 hφ hacc (ix1 p) = ∑ k : Fin 11, X (ix2 p k) :=
  rowSum_of_reduce reduces_S5000x11_S5000 X hφ hacc p

theorem exp_apply {s : Shape} (x : FVec Ideal s .f32) (i : s.Idx) : exp x i = Ideal.exp (x i) := rfl
theorem log_apply {s : Shape} (x : FVec Ideal s .f32) (i : s.Idx) : log x i = Ideal.log (x i) := rfl

/-- The second closing pass before its activation, as the body spells it. -/
def val3 (v0 : Vec Ideal S5000x1 .f32) (v2 v7 : Vec Ideal S5000x11 .f32) (v12 : Vec Ideal S1x11 .f32) : FVec Ideal S5000x11 .f32 :=
  addf (addf (mulf (broadcastTo S5000x11 (shapeCast S5000x1 v0 shapeCasts_S5000x1_S5000x1) broadcasts_S5000x1_S5000x11) (shapeCast S5000x11 v2 shapeCasts_S5000x11_S5000x11))
      (mulf (broadcastTo S5000x11 (mulf (shapeCast S5000x1 v0 shapeCasts_S5000x1_S5000x1) (shapeCast S5000x1 v0 shapeCasts_S5000x1_S5000x1)) broadcasts_S5000x1_S5000x11) (shapeCast S5000x11 v7 shapeCasts_S5000x11_S5000x11)))
    (broadcastTo S5000x11 (shapeCast S1x11 v12 shapeCasts_S1x11_S1x11) broadcasts_S1x11_S5000x11)

theorem val3_eq (v0 : Vec Ideal S5000x1 .f32) (v2 v7 : Vec Ideal S5000x11 .f32) (v12 : Vec Ideal S1x11 .f32) :
    val3 v0 v2 v7 v12 = epiPre (N := 5000) (C := 11) v2 v7 v0 v12 := by
  funext j
  obtain ⟨p, q, rfl⟩ : ∃ (p : Fin 5000) (q : Fin 11), j = ix2 p q := ⟨j 0, j 1, eq_ix2 j⟩
  unfold val3
  rw [epiPre_ix2]
  simp only [addf_apply, mulf_apply, shapeCast_self, broadcastTo_a1_ab_apply, broadcastTo_1b_ab_apply]

set_option backward.isDefEq.respectTransparency.types false in
/-- The second closing pass at an entry of its block: the row-wise log-softmax of d·agg + d²·xw + b. -/
theorem pay3_apply (v0 : Vec Ideal S5000x1 .f32) (v2 v7 : Vec Ideal S5000x11 .f32) (v12 : Vec Ideal S1x11 .f32)
    (p : Fin 5000) (q : Fin 11) :
    k3_pay1 v0 v2 v7 v12 (ix2 p q) = logSoftmax (epiPre (N := 5000) (C := 11) v2 v7 v0 v12) (ix2 p q) := by
  rw [logSoftmax_ix2, ← val3_eq]
  unfold k3_pay1 val3
  simp only [subf_apply, exp_apply, log_apply, broadcastTo_a1_ab_apply, shapeCast_a_a1_apply]
  rw [max3 _ _ _ p, sum3 _ _ _ p]
  simp only [subf_apply, exp_apply, broadcastTo_a1_ab_apply, shapeCast_a_a1_apply]
  rw [max3 _ _ _ p]

/-- The row-wise log-softmax at a row depends on that row only. -/
theorem logSoftmax_row_congr {R R' C : ℕ} (v : (⟨2, ![R, C]⟩ : Shape).Idx → EReal) (w : (⟨2, ![R', C]⟩ : Shape).Idx → EReal)
    (p : Fin R) (r : Fin R') (h : ∀ k : Fin C, v (ix2 p k) = w (ix2 r k)) (q : Fin C) :
    logSoftmax v (ix2 p q) = logSoftmax w (ix2 r q) := by
  have hm : rowMax v p = rowMax w r := by
    unfold rowMax
    exact congrArg (fun f => Finset.fold max (Ideal.ofBits .f32 0xFF800000#32) f (Finset.univ : Finset (Fin C))) (funext h)
  rw [logSoftmax_ix2, logSoftmax_ix2, hm]
  simp only [h]

/-! ## The second closing pass: blocks, write-backs, the whole array -/

section Region3

variable (V : (c : Dev nD) → (b : Ref sig .tc) → Buf (Elt Ideal) ((c : Thread nD τ).loc b))

/-- The printed index maps, decided over the grid: every row-blocked window is at block (t, 0), the bias row at (0, 0). -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- Block t of the aggregate is rows 5000·t … of it. -/
theorem iblk3_0_apply (c : Dev nD) (t : Fin cfg3.N) (p : Fin 5000) (q : Fin 11) (r : Fin 100000) (hr : r.val = t.val * 5000 + p.val) :
    iblk3 (F := Ideal) V c 0 t (ix2 p q) = (V c main_v40 : S100000x11.Idx → EReal) (ix2 r q) := by
  obtain ⟨e0, e1, -⟩ := idx_facts3 t
  show V c main_v40 (((cfg3.win 0).blk t).view.emb (ix2 p q)) = V c main_v40 (ix2 r q)
  refine congrArg _ (funext fun a => Fin.ext ?_)
  match a with
  | ⟨0, _⟩ => show win3_0.index t (0 : Fin 2) * 5000 + 1 * p.val = r.val; omega
  | ⟨1, _⟩ => show win3_0.index t (1 : Fin 2) * 11 + 1 * q.val = q.val; omega

theorem iblk3_1_apply (c : Dev nD) (t : Fin cfg3.N) (p : Fin 5000) (q : Fin 11) (r : Fin 100000) (hr : r.val = t.val * 5000 + p.val) :
    iblk3 (F := Ideal) V c 1 t (ix2 p q) = (V c main_v27 : S100000x11.Idx → EReal) (ix2 r q) := by
  obtain ⟨-, -, e0, e1, -⟩ := idx_facts3 t
  show V c main_v27 (((cfg3.win 1).blk t).view.emb (ix2 p q)) = V c main_v27 (ix2 r q)
  refine congrArg _ (funext fun a => Fin.ext ?_)
  match a with
  | ⟨0, _⟩ => show win3_1.index t (0 : Fin 2) * 5000 + 1 * p.val = r.val; omega
  | ⟨1, _⟩ => show win3_1.index t (1 : Fin 2) * 11 + 1 * q.val = q.val; omega

theorem iblk3_2_apply (c : Dev nD) (t : Fin cfg3.N) (p : Fin 5000) (r : Fin 100000) (hr : r.val = t.val * 5000 + p.val) :
    iblk3 (F := Ideal) V c 2 t (ix2 p (0 : Fin 1)) = (V c main_v28 : S100000x1.Idx → EReal) (ix2 r (0 : Fin 1)) := by
  obtain ⟨-, -, -, -, e0, e1, -⟩ := idx_facts3 t
  show V c main_v28 (((cfg3.win 2).blk t).view.emb (ix2 p (0 : Fin 1))) = V c main_v28 (ix2 r (0 : Fin 1))
  refine congrArg _ (funext fun a => Fin.ext ?_)
  match a with
  | ⟨0, _⟩ => show win3_2.index t (0 : Fin 2) * 5000 + 1 * p.val = r.val; omega
  | ⟨1, _⟩ => show win3_2.index t (1 : Fin 2) * 1 + 1 * 0 = 0; omega

theorem iblk3_3_apply (c : Dev nD) (t : Fin cfg3.N) (q : Fin 11) :
    iblk3 (F := Ideal) V c 3 t (ix2 (0 : Fin 1) q) = (V c main_v41 : S1x11.Idx → EReal) (ix2 (0 : Fin 1) q) := by
  obtain ⟨-, -, -, -, -, -, e0, e1, -⟩ := idx_facts3 t
  show V c main_v41 (((cfg3.win 3).blk t).view.emb (ix2 (0 : Fin 1) q)) = V c main_v41 (ix2 (0 : Fin 1) q)
  refine congrArg _ (funext fun a => Fin.ext ?_)
  match a with
  | ⟨0, _⟩ => show win3_3.index t (0 : Fin 2) * 1 + 1 * 0 = 0; omega
  | ⟨1, _⟩ => show win3_3.index t (1 : Fin 2) * 11 + 1 * q.val = q.val; omega

/-- An index of the array is in point t's block iff each coordinate is in the block's range on its axis. -/
theorem mem_blk3 (t : Fin cfg3.N) (i : S100000x11.Idx) :
    i ∈ ((cfg3.win 4).blk t).view.set ↔ ∀ a : Fin 2, win3_4.index t a * S5000x11.size a ≤ (i a).val ∧ (i a).val < win3_4.index t a * S5000x11.size a + S5000x11.size a := by
  show i ∈ ((View.whole main_v42).slice (win3_4.rect t)).set ↔ _
  rw [View.set_slice_whole, Rect.mem_set_unit]
  exact Iff.rfl

/-- Row r lies in the block of point r / 5000. -/
theorem cover3 (i : S100000x11.Idx) : ∃ t : Fin cfg3.N, (cfg3.win 4).flush t = true ∧ i ∈ ((cfg3.win 4).blk t).view.set := by
  have hN : cfg3.N = 20 := N_3
  have hi0 : (i 0).val < 100000 := (i 0).isLt
  have hi1 : (i 1).val < 11 := (i 1).isLt
  refine ⟨⟨(i 0).val / 5000, by rw [hN]; omega⟩, flush3_4 _, ?_⟩
  rw [mem_blk3]
  obtain ⟨-, -, -, -, -, -, -, -, e0, e1⟩ := idx_facts3 ⟨(i 0).val / 5000, by rw [hN]; omega⟩
  intro a
  match a with
  | ⟨0, _⟩ => show win3_4.index _ (0 : Fin 2) * 5000 ≤ (i 0).val ∧ (i 0).val < win3_4.index _ (0 : Fin 2) * 5000 + 5000; rw [e0]; show (i 0).val / 5000 * 5000 ≤ (i 0).val ∧ (i 0).val < (i 0).val / 5000 * 5000 + 5000; omega
  | ⟨1, _⟩ => show win3_4.index _ (1 : Fin 2) * 11 ≤ (i 1).val ∧ (i 1).val < win3_4.index _ (1 : Fin 2) * 11 + 11; rw [e1]; omega

/-- What point t writes back is block t of the log-softmax of the closing pass of the four arrays as the region finds them:
    a block holds whole rows, so a row's maximum and sum over the block are the row's over the array. -/
theorem flushed3_eq (c : Dev nD) (t : Fin cfg3.N) :
    (dat3 (F := Ideal) V c).flushed 4 t = ((cfg3.win 4).blk t).view.read (Elt Ideal)
      (logSoftmax (epiPre (V c main_v40 : S100000x11.Idx → EReal) (V c main_v27 : S100000x11.Idx → EReal)
        (V c main_v28 : S100000x1.Idx → EReal) (V c main_v41 : S1x11.Idx → EReal))) := by
  show (cfg3.win 4).cut (grid3.coords t) ((dat3 (F := Ideal) V c).after 4 t) = _
  rw [after3_4]
  unfold out3_4
  rw [View.canon_unit_zero hz]
  simp only [View.ld_unit_zero (S := S5000x11) hz, View.ld_unit_zero (S := S5000x1) hz, View.ld_unit_zero (S := S1x11) hz]
  have hN : cfg3.N = 20 := N_3
  have ht : t.val < 20 := hN ▸ t.isLt
  obtain ⟨-, -, -, -, -, -, -, -, e0, e1⟩ := idx_facts3 t
  funext j
  obtain ⟨p, q, rfl⟩ : ∃ (p : Fin 5000) (q : Fin 11), j = ix2 p q := ⟨j 0, j 1, eq_ix2 j⟩
  have hp : p.val < 5000 := p.isLt
  have hemb : ((cfg3.win 4).blk t).view.emb (ix2 p q) = ix2 (⟨t.val * 5000 + p.val, by omega⟩ : Fin 100000) q := by
    funext a; apply Fin.ext
    match a with
    | ⟨0, _⟩ => show win3_4.index t (0 : Fin 2) * 5000 + 1 * p.val = t.val * 5000 + p.val; omega
    | ⟨1, _⟩ => show win3_4.index t (1 : Fin 2) * 11 + 1 * q.val = q.val; omega
  show k3_pay1 (iblk3 (F := Ideal) V c 2 t) (iblk3 (F := Ideal) V c 0 t) (iblk3 (F := Ideal) V c 1 t) (iblk3 (F := Ideal) V c 3 t) (ix2 p q)
    = logSoftmax (epiPre (V c main_v40 : S100000x11.Idx → EReal) (V c main_v27 : S100000x11.Idx → EReal)
        (V c main_v28 : S100000x1.Idx → EReal) (V c main_v41 : S1x11.Idx → EReal)) (((cfg3.win 4).blk t).view.emb (ix2 p q))
  rw [hemb, pay3_apply]
  refine logSoftmax_row_congr _ _ p ⟨t.val * 5000 + p.val, by omega⟩ (fun k => ?_) q
  rw [epiPre_ix2, epiPre_ix2,
    iblk3_0_apply V c t p k ⟨t.val * 5000 + p.val, by omega⟩ rfl,
    iblk3_1_apply V c t p k ⟨t.val * 5000 + p.val, by omega⟩ rfl,
    iblk3_2_apply V c t p ⟨t.val * 5000 + p.val, by omega⟩ rfl,
    iblk3_3_apply V c t k]

/-- THE SECOND CLOSING PASS: the output array ends holding the row-wise log-softmax of d·agg + d²·xw + b. -/
theorem final3 (c : Dev nD) : (dat3 (F := Ideal) V c).arrAt 4 cfg3.N
    = logSoftmax (epiPre (V c main_v40 : S100000x11.Idx → EReal) (V c main_v27 : S100000x11.Idx → EReal)
        (V c main_v28 : S100000x1.Idx → EReal) (V c main_v41 : S1x11.Idx → EReal)) :=
  (dat3 (F := Ideal) V c).arrAt_eq_of_cover 4 _ (fun t _ => flushed3_eq V c t) cover3

end Region3

end Cert.KernelIdeal.Epi

end
-- ==== Proof.KernelNet.lean ====
/-
  The idealized kernel's result array is the network in its scaled arrangement (continued): the aggregations, the two
  closing passes, the second projection, and the result array.
-/
import proofs.«122546_j2207613190837_2_alg».proof.Proof.KernelHost
import proofs.«122546_j2207613190837_2_alg».proof.Proof.KernelEpilogue

set_option maxRecDepth 16384

noncomputable section

namespace Cert.KernelIdeal.Net

open Cert.KernelIdeal Cert.KernelIdeal.Gen
open Idealize.ShloMosaic Idealize.ShloMosaic.TcCoe Idealize.ShloMosaic.ValueIdx Idealize.SL.Sem Idealize.ShloMosaic.StableHlo
open Cert.GcnSpec Cert.GcnHost Cert.SegmentRows Cert.GcnAggregate Cert.EdgeOrderLib
open scoped BigOperators

variable (m : (ℓ : Loc nD τ sig) → Buf (Elt Ideal) ℓ) (ρ : Dev nD → PrngReg) (c : Dev nD)

/-! ## The first aggregation -/

set_option maxHeartbeats 4000000 in
theorem W3_v24_apply (r : Fin 100000) (q : Fin 16) :
    (W3 m ρ c (Proc.devRef .tc main_v24) : S100000x16.Idx → EReal) (ix2 r q)
      = ∑ e ∈ inEdges (dstCol (edges m c)) r,
          xw1 m c (ix2 (srcRow hN (srcCol 100000#32 (edges m c)) e) q) * dinv m c (ix1 (srcRow hN (srcCol 100000#32 (edges m c)) e)) := by
  have key : (W3 m ρ c (Proc.devRef .tc main_v24) : S100000x16.Idx → EReal)
      = Host.scatterAdd (F := Ideal) (φ := .f32) (scatterRows 100000 3200000 16 scatter_S100000x16_S3200000x1_S3200000x16_1_0_0_1_wf)
          (broadcastInDim S100000x16 ![] bcast_S_S100000x16 (constant (F := Ideal) S_ .f32 0x00000000#32))
          (broadcastInDim S3200000x1 ![0] bcast_S3200000_S3200000x1_0 (W2 m ρ c (Proc.devRef .tc main_v3) : S3200000.Idx → BitVec 32))
          (Host.gather (gatherRows 100000 3200000 16 gather_S100000x16_S3200000x1_S3200000x16_1_0_n_n_0_1_116_wf)
            (mulf (F := Ideal) (φ := .f32) (W2 m ρ c (Proc.devRef .tc main_v11) : S100000x16.Idx → EReal)
              (broadcastInDim S100000x16 ![0, 1] bcast_S100000x1_S100000x16_0_1
                (shapeCast S100000x1 (W2 m ρ c (Proc.devRef .tc main_v10) : S100000.Idx → EReal) shapeCasts_S100000_S100000x1)))
            (broadcastInDim S3200000x1 ![0] bcast_S3200000_S3200000x1_0
              (select (cmpi .slt (W2 m ρ c (Proc.devRef .tc main_v1) : S3200000.Idx → BitVec 32) (broadcastInDim S3200000 ![] bcast_S_S3200000 (constantI S_ 32 0#32)))
                (addi (W2 m ρ c (Proc.devRef .tc main_v1) : S3200000.Idx → BitVec 32) (broadcastInDim S3200000 ![] bcast_S_S3200000 (constantI S_ 32 100000#32)))
                (W2 m ρ c (Proc.devRef .tc main_v1) : S3200000.Idx → BitVec 32)))) := by
    show StableHlo.after hostOps1 (W2 m ρ c) (Proc.devRef .tc main_v24) = _
    after_results
    rfl
  refine (congrFun key _).trans ?_
  rw [W2_v3, W2_v11, W2_v10, W2_v1]
  refine (agg_apply hN gather_S100000x16_S3200000x1_S3200000x16_1_0_n_n_0_1_116_wf scatter_S100000x16_S3200000x1_S3200000x16_1_0_0_1_wf bcast_S_S100000x16 bcast_S100000x1_S100000x16_0_1 shapeCasts_S100000_S100000x1 (xw1 m c) (dinv m c)
    (srcColK (edges m c)) (dstColK (edges m c)) r q).trans ?_
  rw [dstColP, srcColP]

/-! ## After the second region: the first layer's output -/

/-- relu of the first layer. -/
abbrev hid : S100000x16.Idx → EReal :=
  relu (layerScaled hN (dinv m c) (srcCol 100000#32 (edges m c)) (dstCol (edges m c)) (xw1 m c) (m ((c : Thread nD τ).loc main_arg3) : S16.Idx → EReal))

theorem W4_v26 : (W4 m ρ c (Proc.devRef .tc main_v26) : S100000x16.Idx → EReal) = hid m c := by
  refine (W4_arr m ρ c 4).trans ((Cert.KernelIdeal.Epi.final1 (V3 m ρ) c).trans ?_)
  show relu (epiPre (W3 m ρ c (Proc.devRef .tc main_v24)) (W3 m ρ c (Proc.devRef .tc main_v11)) (W3 m ρ c (Proc.devRef .tc main_v12)) (W3 m ρ c (Proc.devRef .tc main_v25))) = _
  rw [W3_v11]
  exact congrArg relu (epiPre_eq_layerScaled hN (dinv m c) _ _ (xw1 m c) _ _ _ _ (W3_v24_apply m ρ c) (W3_v12_apply m ρ c) (W3_v25_apply m ρ c))

theorem W4_arg4 : W4 m ρ c (Proc.devRef .tc main_arg4) = m ((c : Thread nD τ).loc main_arg4) :=
  (W4_of_ne m ρ c main_arg4 (by decide)).trans (W3_arg4 m ρ c)

/-- relu(layer 1) · W2. -/
abbrev xw2 : S100000x11.Idx → EReal := mm (hid m c) (m ((c : Thread nD τ).loc main_arg4) : S16x11.Idx → EReal)

theorem W5_v27 : (W5 m ρ c (Proc.devRef .tc main_v27) : S100000x11.Idx → EReal) = xw2 m c := by
  refine (W5_arr m ρ c 2).trans ((Cert.KernelIdeal.Proj.final2 (V4 m ρ) c).trans ?_)
  show mm (W4 m ρ c (Proc.devRef .tc main_v26)) (W4 m ρ c (Proc.devRef .tc main_arg4)) = _
  rw [W4_v26, W4_arg4]

theorem W5_v1 : (W5 m ρ c (Proc.devRef .tc main_v1) : S3200000.Idx → BitVec 32) = fun i => srcWord (edges m c) (i 0) :=
  (W5_of_ne m ρ c main_v1 (by decide)).trans ((W4_of_ne m ρ c main_v1 (by decide)).trans (W3_v1 m ρ c))
theorem W5_v3 : (W5 m ρ c (Proc.devRef .tc main_v3) : S3200000.Idx → BitVec 32) = fun i => dstWord (edges m c) (i 0) :=
  (W5_of_ne m ρ c main_v3 (by decide)).trans ((W4_of_ne m ρ c main_v3 (by decide)).trans (W3_v3 m ρ c))
theorem W5_v10 : (W5 m ρ c (Proc.devRef .tc main_v10) : S100000.Idx → EReal) = dinv m c :=
  (W5_of_ne m ρ c main_v10 (by decide)).trans ((W4_of_ne m ρ c main_v10 (by decide)).trans (W3_v10 m ρ c))
theorem W5_arg5 : W5 m ρ c (Proc.devRef .tc main_arg5) = m ((c : Thread nD τ).loc main_arg5) :=
  (W5_of_ne m ρ c main_arg5 (by decide)).trans ((W4_of_ne m ρ c main_arg5 (by decide)).trans (W3_arg5 m ρ c))

/-! ## After the third stretch: what the second closing pass reads -/

theorem W6_v27 : (W6 m ρ c (Proc.devRef .tc main_v27) : S100000x11.Idx → EReal) = xw2 m c := by
  refine Eq.trans ?_ (W5_v27 m ρ c)
  show StableHlo.after hostOps3 (W5 m ρ c) (Proc.devRef .tc main_v27) = _
  host_keeps hostOps3

theorem W6_v28_apply (r : Fin 100000) :
    (W6 m ρ c (Proc.devRef .tc main_v28) : S100000x1.Idx → EReal) (ix2 r (0 : Fin 1)) = dinv m c (ix1 r) := by
  show StableHlo.after hostOps3 (W5 m ρ c) (Proc.devRef .tc main_v28) (ix2 r (0 : Fin 1)) = _
  after_results
  exact (col_reshape_apply shapeCasts_S100000_S100000x1 (W5 m ρ c (Proc.devRef .tc main_v10)) r).trans (congrFun (W5_v10 m ρ c) _)

theorem W6_v41_apply (q : Fin 11) :
    (W6 m ρ c (Proc.devRef .tc main_v41) : S1x11.Idx → EReal) (ix2 (0 : Fin 1) q) = (m ((c : Thread nD τ).loc main_arg5) : S11.Idx → EReal) (ix1 q) := by
  show StableHlo.after hostOps3 (W5 m ρ c) (Proc.devRef .tc main_v41) (ix2 (0 : Fin 1) q) = _
  after_results
  exact (row_reshape_apply shapeCasts_S11_S1x11 (W5 m ρ c (Proc.devRef .tc main_arg5)) q).trans (congrFun (W5_arg5 m ρ c) _)

set_option maxHeartbeats 4000000 in
theorem W6_v40_apply (r : Fin 100000) (q : Fin 11) :
    (W6 m ρ c (Proc.devRef .tc main_v40) : S100000x11.Idx → EReal) (ix2 r q)
      = ∑ e ∈ inEdges (dstCol (edges m c)) r,
          xw2 m c (ix2 (srcRow hN (srcCol 100000#32 (edges m c)) e) q) * dinv m c (ix1 (srcRow hN (srcCol 100000#32 (edges m c)) e)) := by
  have key : (W6 m ρ c (Proc.devRef .tc main_v40) : S100000x11.Idx → EReal)
      = Host.scatterAdd (F := Ideal) (φ := .f32) (scatterRows 100000 3200000 11 scatter_S100000x11_S3200000x1_S3200000x11_1_0_0_1_wf)
          (broadcastInDim S100000x11 ![] bcast_S_S100000x11 (constant (F := Ideal) S_ .f32 0x00000000#32))
          (broadcastInDim S3200000x1 ![0] bcast_S3200000_S3200000x1_0 (W5 m ρ c (Proc.devRef .tc main_v3) : S3200000.Idx → BitVec 32))
          (Host.gather (gatherRows 100000 3200000 11 gather_S100000x11_S3200000x1_S3200000x11_1_0_n_n_0_1_111_wf)
            (mulf (F := Ideal) (φ := .f32) (W5 m ρ c (Proc.devRef .tc main_v27) : S100000x11.Idx → EReal)
              (broadcastInDim S100000x11 ![0, 1] bcast_S100000x1_S100000x11_0_1
                (shapeCast S100000x1 (W5 m ρ c (Proc.devRef .tc main_v10) : S100000.Idx → EReal) shapeCasts_S100000_S100000x1)))
            (broadcastInDim S3200000x1 ![0] bcast_S3200000_S3200000x1_0
              (select (cmpi .slt (W5 m ρ c (Proc.devRef .tc main_v1) : S3200000.Idx → BitVec 32) (broadcastInDim S3200000 ![] bcast_S_S3200000 (constantI S_ 32 0#32)))
                (addi (W5 m ρ c (Proc.devRef .tc main_v1) : S3200000.Idx → BitVec 32) (broadcastInDim S3200000 ![] bcast_S_S3200000 (constantI S_ 32 100000#32)))
                (W5 m ρ c (Proc.devRef .tc main_v1) : S3200000.Idx → BitVec 32)))) := by
    show StableHlo.after hostOps3 (W5 m ρ c) (Proc.devRef .tc main_v40) = _
    after_results
    rfl
  refine (congrFun key _).trans ?_
  rw [W5_v3, W5_v27, W5_v10, W5_v1]
  refine (agg_apply hN gather_S100000x11_S3200000x1_S3200000x11_1_0_n_n_0_1_111_wf scatter_S100000x11_S3200000x1_S3200000x11_1_0_0_1_wf bcast_S_S100000x11 bcast_S100000x1_S100000x11_0_1 shapeCasts_S100000_S100000x1 (xw2 m c) (dinv m c)
    (srcColK (edges m c)) (dstColK (edges m c)) r q).trans ?_
  rw [dstColP, srcColP]

/-! ## The result array -/

/-- THE RESULT ARRAY after the run is the network in its scaled arrangement, of the launch contents. -/
theorem W7_v42 : (W7 m ρ c (Proc.devRef .tc main_v42) : S100000x11.Idx → EReal)
    = netScaled hN 100000#32 (m ((c : Thread nD τ).loc main_arg0) : S100000x128.Idx → EReal) (edges m c)
        (m ((c : Thread nD τ).loc main_arg2) : S128x16.Idx → EReal) (m ((c : Thread nD τ).loc main_arg3) : S16.Idx → EReal)
        (m ((c : Thread nD τ).loc main_arg4) : S16x11.Idx → EReal) (m ((c : Thread nD τ).loc main_arg5) : S11.Idx → EReal) := by
  refine (W7_arr m ρ c 4).trans ((Cert.KernelIdeal.Epi.final3 (V6 m ρ) c).trans ?_)
  show logSoftmax (epiPre (W6 m ρ c (Proc.devRef .tc main_v40)) (W6 m ρ c (Proc.devRef .tc main_v27)) (W6 m ρ c (Proc.devRef .tc main_v28)) (W6 m ρ c (Proc.devRef .tc main_v41))) = _
  rw [W6_v27]
  exact congrArg logSoftmax (epiPre_eq_layerScaled hN (dinv m c) _ _ (xw2 m c) _ _ _ _ (W6_v40_apply m ρ c) (W6_v28_apply m ρ c) (W6_v41_apply m ρ c))

end Cert.KernelIdeal.Net

end
-- ==== Proof.RefRunValue.lean ====
/-
  The reference's result buffer after its 144 host operations, read as the last operation's value.

  The run of the reference states the result buffer at the fold of the operations over the launch contents. The reading
  module names every operation's value, each as one operation applied to the values before it. This module identifies the
  two: the fold at the result buffer is the value of the last operation at the six arguments' launch contents.

  The fold is evaluated in three consecutive pieces of the list, each small enough to be compared with the named values by
  unfolding both sides: the first layer (up to the rectified hidden array, with the two index rows of the edge table
  and the second layer's weight and bias carried through), the second layer before its activation, and the row-wise
  log-softmax. A piece is stated for ANY contents before it that hold the named values at the buffers it reads, so the
  pieces compose by the fold of a concatenation being the composition of the folds. In the last piece every operation
  transports its operands and result along an equality of buffer types; a transport followed by its inverse is removed
  before the comparison.
-/
import proofs.«122546_j2207613190837_2_alg».proof.Proof.RefRunP
import proofs.«122546_j2207613190837_2_alg».proof.Proof.RefReadP

noncomputable section

namespace Cert.ReferenceIdeal.RunValue

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A transport along an equality of types followed by the transport back is the identity. -/
theorem cast_cast_self {α β : Sort _} (h' : α = β) (h : β = α) (v : α) : cast h (cast h' v) = v := by
  subst h'; rfl

/-! ## The first layer: operations 0 to 67 -/

set_option maxRecDepth 16384 in
set_option maxHeartbeats 4000000 in
/-- After the first 68 operations the hidden array's buffer holds its named value. -/
theorem first_v53 (V : Valuation τ sig (Elt F)) :
    after ((ops (F := F)).take 68) V (Proc.devRef .tc main_v53)
      = val_main_v53 (F := F) (V (Proc.devRef .tc main_arg0)) (V (Proc.devRef .tc main_arg1)) (V (Proc.devRef .tc main_arg2)) (V (Proc.devRef .tc main_arg3)) := by
  simp only [ops, List.take_succ_cons, List.take_zero]
  after_results_simp
  rfl

set_option maxRecDepth 16384 in
set_option maxHeartbeats 4000000 in
/-- The sources' row of the edge table, flattened. -/
theorem first_v1 (V : Valuation τ sig (Elt F)) :
    after ((ops (F := F)).take 68) V (Proc.devRef .tc main_v1) = val_main_v1 (F := F) (V (Proc.devRef .tc main_arg1)) := by
  simp only [ops, List.take_succ_cons, List.take_zero]
  after_results_simp
  rfl

set_option maxRecDepth 16384 in
set_option maxHeartbeats 4000000 in
/-- The destinations' row of the edge table, flattened. -/
theorem first_v3 (V : Valuation τ sig (Elt F)) :
    after ((ops (F := F)).take 68) V (Proc.devRef .tc main_v3) = val_main_v3 (F := F) (V (Proc.devRef .tc main_arg1)) := by
  simp only [ops, List.take_succ_cons, List.take_zero]
  after_results_simp
  rfl

set_option maxRecDepth 16384 in
set_option maxHeartbeats 4000000 in
/-- The second layer's weight is not written. -/
theorem first_arg4 (V : Valuation τ sig (Elt F)) :
    after ((ops (F := F)).take 68) V (Proc.devRef .tc main_arg4) = V (Proc.devRef .tc main_arg4) := by
  simp only [ops, List.take_succ_cons, List.take_zero]
  after_results_simp <;> rfl

set_option maxRecDepth 16384 in
set_option maxHeartbeats 4000000 in
/-- The second layer's bias is not written. -/
theorem first_arg5 (V : Valuation τ sig (Elt F)) :
    after ((ops (F := F)).take 68) V (Proc.devRef .tc main_arg5) = V (Proc.devRef .tc main_arg5) := by
  simp only [ops, List.take_succ_cons, List.take_zero]
  after_results_simp <;> rfl

/-! ## The second layer before its activation: operations 68 to 128 -/

set_option maxRecDepth 16384 in
set_option maxHeartbeats 8000000 in
/-- From any contents holding the hidden array, the two index rows and the second layer's weight and bias, the next
    61 operations leave the second layer's pre-activation at its named value. -/
theorem mid_v102 (W : Valuation τ sig (Elt F))
    (x0 : (⟨S100000x128, .f32⟩ : BufTy).Contents (Elt F)) (x1 : (⟨S2x3200000, .i32⟩ : BufTy).Contents (Elt F))
    (x2 : (⟨S128x16, .f32⟩ : BufTy).Contents (Elt F)) (x3 : (⟨S16, .f32⟩ : BufTy).Contents (Elt F))
    (x4 : (⟨S16x11, .f32⟩ : BufTy).Contents (Elt F)) (x5 : (⟨S11, .f32⟩ : BufTy).Contents (Elt F))
    (h53 : W (Proc.devRef .tc main_v53) = val_main_v53 (F := F) x0 x1 x2 x3)
    (h1 : W (Proc.devRef .tc main_v1) = val_main_v1 (F := F) x1)
    (h3 : W (Proc.devRef .tc main_v3) = val_main_v3 (F := F) x1)
    (h4 : W (Proc.devRef .tc main_arg4) = x4) (h5 : W (Proc.devRef .tc main_arg5) = x5) :
    after (((ops (F := F)).drop 68).take 61) W (Proc.devRef .tc main_v102) = val_main_v102 (F := F) x0 x1 x2 x3 x4 x5 := by
  simp only [ops, List.drop_succ_cons, List.drop_zero, List.take_succ_cons, List.take_zero]
  after_results_simp
  rw [h53, h1, h3, h4, h5]
  rfl

/-! ## The row-wise log-softmax: operations 129 to 143 -/

set_option maxRecDepth 16384 in
set_option maxHeartbeats 4000000 in
/-- From any contents holding the pre-activation, the last 15 operations leave the result at its named value. -/
theorem tail_v103 (W : Valuation τ sig (Elt F))
    (x0 : (⟨S100000x128, .f32⟩ : BufTy).Contents (Elt F)) (x1 : (⟨S2x3200000, .i32⟩ : BufTy).Contents (Elt F))
    (x2 : (⟨S128x16, .f32⟩ : BufTy).Contents (Elt F)) (x3 : (⟨S16, .f32⟩ : BufTy).Contents (Elt F))
    (x4 : (⟨S16x11, .f32⟩ : BufTy).Contents (Elt F)) (x5 : (⟨S11, .f32⟩ : BufTy).Contents (Elt F))
    (h102 : W (Proc.devRef .tc main_v102) = val_main_v102 (F := F) x0 x1 x2 x3 x4 x5) :
    after (((ops (F := F)).drop 68).drop 61) W (Proc.devRef .tc main_v103) = val_main_v103 (F := F) x0 x1 x2 x3 x4 x5 := by
  simp only [ops, List.drop_succ_cons, List.drop_zero]
  after_results_simp
  simp only [TRef.ofBuf, TRef.toBuf, cast_cast_self]
  rw [h102]
  rfl

/-! ## The whole list -/

/-- THE RESULT BUFFER after the reference's operations is the last operation's named value at the arguments' launch
    contents. -/
theorem after_eq_val (m : (ℓ : Loc nD τ sig) → Buf (Elt F) ℓ) (c : Dev nD) :
    after (ops (F := F)) (launchContents m c) (Proc.devRef .tc main_v103)
      = val_main_v103 (F := F) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  calc after (ops (F := F)) (launchContents m c) (Proc.devRef .tc main_v103)
      = after ((ops (F := F)).take 68 ++ (((ops (F := F)).drop 68).take 61 ++ ((ops (F := F)).drop 68).drop 61))
          (launchContents m c) (Proc.devRef .tc main_v103) := by
        rw [List.take_append_drop, List.take_append_drop]
    _ = after (((ops (F := F)).drop 68).drop 61) (after (((ops (F := F)).drop 68).take 61)
          (after ((ops (F := F)).take 68) (launchContents m c))) (Proc.devRef .tc main_v103) := by
        rw [after_append, after_append]
    _ = _ := tail_v103 _ _ _ _ _ _ _ (mid_v102 _ _ _ _ _ _ _ (first_v53 _) (first_v1 _) (first_v3 _) (first_arg4 _) (first_arg5 _))

end Cert.ReferenceIdeal.RunValue

end
-- ==== Proof.RefNet.lean ====
/-
  The reference program is the two-layer graph convolution of the specification, stage by stage.

  Every stage of the reference, as a function of the six arguments, is read at an index and identified with a piece of
  the specification:

  * the index columns: rows 0 and 1 of the edge table, flattened, then normalised (a word that reads negative has the
    node count added) and laid out as columns [E, 1] are `srcCol`, `dstNormCol`; row 1 as given is `dstCol`;
  * the degrees: the scatter-add of ones into zeros at the normalised destinations, plus one, under the reciprocal
    square root, is `invSqrtDeg`;
  * a layer: the two rank-1 gathers give the per-edge coefficient d(src e) · d(dst e); the row gather times that
    coefficient, scatter-added into zeros at the destinations as given, plus the node array times d(r) · d(r), plus the
    bias, is `layerEdgewise`;
  * the matrix products are `mm`, the maximum with the zero splat is `relu`;
  * the row maximum folded from minus infinity (and maximised once more with minus infinity), the shift, the
    exponentials' row sum from zero and its logarithm are `logSoftmax`.

  `ref_eq` chains them: the reference's result is `netEdgewise` of its arguments.
-/
import proofs.«122546_j2207613190837_2_alg».proof.Proof.RefReadP
import proofs.«122546_j2207613190837_2_alg».proof.Proof.GcnSpec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ReferenceIdeal.Net

open Idealize.ShloMosaic Idealize.ShloMosaic.ValueIdx
open Cert.ReferenceIdeal Cert.ReferenceIdeal.ReadP Cert.GcnSpec Cert.SegmentRows Cert.GcnAggregate Cert.EdgeOrderLib
open scoped BigOperators

/-- Row 1 of the edge table, flattened: element e is the destination word of edge e. -/
theorem v3_ix1 (x1 : (⟨S2x3200000, .i32⟩ : BufTy).Contents (Elt Ideal)) (e : Fin 3200000) :
    val_main_v3 (F := Ideal) x1 (ix1 e) = dstWord x1 e := by
  rw [val_main_v3_apply, val_main_v2_apply]
  unfold dstWord
  congr 1
  funext a
  match a with
  | ⟨0, _⟩ => exact Fin.ext (by show 1 + 0 = 1; rfl)
  | ⟨1, _⟩ => exact Fin.ext (by show e.val % 3200000 = e.val; exact Nat.mod_eq_of_lt e.isLt)

/-- Row 0 of the edge table, flattened: element e is the source word of edge e. -/
theorem v1_ix1 (x1 : (⟨S2x3200000, .i32⟩ : BufTy).Contents (Elt Ideal)) (e : Fin 3200000) :
    val_main_v1 (F := Ideal) x1 (ix1 e) = srcWord x1 e := by
  rw [val_main_v1_apply, val_main_v0_apply]
  unfold srcWord
  congr 1
  funext a
  match a with
  | ⟨0, _⟩ => exact Fin.ext (by show 0 = 0; rfl)
  | ⟨1, _⟩ => exact Fin.ext (by show e.val % 3200000 = e.val; exact Nat.mod_eq_of_lt e.isLt)

/-- A vector [E] laid out as a column [E, 1], given element by element. -/
theorem bcol_eq {α : Type} {E : ℕ} (hb : (⟨1, ![E]⟩ : Shape).BroadcastsInDim ⟨2, ![E, 1]⟩ (![0] : Fin 1 → Fin 2))
    (v : (⟨1, ![E]⟩ : Shape).Idx → α) (f : Fin E → α) (h : ∀ e, v (ix1 e) = f e) :
    broadcastInDim ⟨2, ![E, 1]⟩ (![0] : Fin 1 → Fin 2) hb v = fun j => f (j 0) := by
  funext i
  obtain ⟨e, z, rfl⟩ : ∃ (e : Fin E) (z : Fin 1), i = ix2 e z := ⟨i 0, i 1, eq_ix2 i⟩
  obtain rfl : z = 0 := Subsingleton.elim _ _
  rw [bcast_col_apply, h]
  rfl

/-- The destinations as given, as a column. -/
theorem v43_eq (x1 : (⟨S2x3200000, .i32⟩ : BufTy).Contents (Elt Ideal)) : val_main_v43 (F := Ideal) x1 = dstCol x1 := by
  unfold val_main_v43
  exact bcol_eq _ _ _ (v3_ix1 x1)

theorem v93_eq (x1 : (⟨S2x3200000, .i32⟩ : BufTy).Contents (Elt Ideal)) : val_main_v93 (F := Ideal) x1 = dstCol x1 := by
  unfold val_main_v93
  exact bcol_eq _ _ _ (v3_ix1 x1)

theorem v10_ix1 (x1 : (⟨S2x3200000, .i32⟩ : BufTy).Contents (Elt Ideal)) (e : Fin 3200000) :
    val_main_v10 (F := Ideal) x1 (ix1 e) = normWord 100000#32 (dstWord x1 e) := by
  rw [val_main_v10_apply, val_main_v7_apply, val_main_v9_apply, val_main_v6_apply, val_main_c_apply,
    val_main_v8_apply, val_main_c_0_apply, v3_ix1]
  rfl

theorem v11_eq (x1 : (⟨S2x3200000, .i32⟩ : BufTy).Contents (Elt Ideal)) : val_main_v11 (F := Ideal) x1 = dstNormCol 100000#32 x1 := by
  unfold val_main_v11
  exact bcol_eq _ _ _ (v10_ix1 x1)

theorem v21_ix1 (x1 : (⟨S2x3200000, .i32⟩ : BufTy).Contents (Elt Ideal)) (e : Fin 3200000) :
    val_main_v21 (F := Ideal) x1 (ix1 e) = normWord 100000#32 (srcWord x1 e) := by
  rw [val_main_v21_apply, val_main_v18_apply, val_main_v20_apply, val_main_v17_apply, val_main_c_3_apply,
    val_main_v19_apply, val_main_c_4_apply, v1_ix1]
  rfl

theorem v22_eq (x1 : (⟨S2x3200000, .i32⟩ : BufTy).Contents (Elt Ideal)) : val_main_v22 (F := Ideal) x1 = srcCol 100000#32 x1 := by
  unfold val_main_v22
  exact bcol_eq _ _ _ (v21_ix1 x1)

theorem v28_ix1 (x1 : (⟨S2x3200000, .i32⟩ : BufTy).Contents (Elt Ideal)) (e : Fin 3200000) :
    val_main_v28 (F := Ideal) x1 (ix1 e) = normWord 100000#32 (dstWord x1 e) := by
  rw [val_main_v28_apply, val_main_v25_apply, val_main_v27_apply, val_main_v24_apply, val_main_c_5_apply,
    val_main_v26_apply, val_main_c_6_apply, v3_ix1]
  rfl

theorem v29_eq (x1 : (⟨S2x3200000, .i32⟩ : BufTy).Contents (Elt Ideal)) : val_main_v29 (F := Ideal) x1 = dstNormCol 100000#32 x1 := by
  unfold val_main_v29
  exact bcol_eq _ _ _ (v28_ix1 x1)

theorem v36_ix1 (x1 : (⟨S2x3200000, .i32⟩ : BufTy).Contents (Elt Ideal)) (e : Fin 3200000) :
    val_main_v36 (F := Ideal) x1 (ix1 e) = normWord 100000#32 (srcWord x1 e) := by
  rw [val_main_v36_apply, val_main_v33_apply, val_main_v35_apply, val_main_v32_apply, val_main_c_7_apply,
    val_main_v34_apply, val_main_c_8_apply, v1_ix1]
  rfl

theorem v37_eq (x1 : (⟨S2x3200000, .i32⟩ : BufTy).Contents (Elt Ideal)) : val_main_v37 (F := Ideal) x1 = srcCol 100000#32 x1 := by
  unfold val_main_v37
  exact bcol_eq _ _ _ (v36_ix1 x1)

theorem v60_ix1 (x1 : (⟨S2x3200000, .i32⟩ : BufTy).Contents (Elt Ideal)) (e : Fin 3200000) :
    val_main_v60 (F := Ideal) x1 (ix1 e) = normWord 100000#32 (dstWord x1 e) := by
  rw [val_main_v60_apply, val_main_v57_apply, val_main_v59_apply, val_main_v56_apply, val_main_c_11_apply,
    val_main_v58_apply, val_main_c_12_apply, v3_ix1]
  rfl

theorem v61_eq (x1 : (⟨S2x3200000, .i32⟩ : BufTy).Contents (Elt Ideal)) : val_main_v61 (F := Ideal) x1 = dstNormCol 100000#32 x1 := by
  unfold val_main_v61
  exact bcol_eq _ _ _ (v60_ix1 x1)

theorem v71_ix1 (x1 : (⟨S2x3200000, .i32⟩ : BufTy).Contents (Elt Ideal)) (e : Fin 3200000) :
    val_main_v71 (F := Ideal) x1 (ix1 e) = normWord 100000#32 (srcWord x1 e) := by
  rw [val_main_v71_apply, val_main_v68_apply, val_main_v70_apply, val_main_v67_apply, val_main_c_15_apply,
    val_main_v69_apply, val_main_c_16_apply, v1_ix1]
  rfl

theorem v72_eq (x1 : (⟨S2x3200000, .i32⟩ : BufTy).Contents (Elt Ideal)) : val_main_v72 (F := Ideal) x1 = srcCol 100000#32 x1 := by
  unfold val_main_v72
  exact bcol_eq _ _ _ (v71_ix1 x1)

theorem v78_ix1 (x1 : (⟨S2x3200000, .i32⟩ : BufTy).Contents (Elt Ideal)) (e : Fin 3200000) :
    val_main_v78 (F := Ideal) x1 (ix1 e) = normWord 100000#32 (dstWord x1 e) := by
  rw [val_main_v78_apply, val_main_v75_apply, val_main_v77_apply, val_main_v74_apply, val_main_c_17_apply,
    val_main_v76_apply, val_main_c_18_apply, v3_ix1]
  rfl

theorem v79_eq (x1 : (⟨S2x3200000, .i32⟩ : BufTy).Contents (Elt Ideal)) : val_main_v79 (F := Ideal) x1 = dstNormCol 100000#32 x1 := by
  unfold val_main_v79
  exact bcol_eq _ _ _ (v78_ix1 x1)

theorem v86_ix1 (x1 : (⟨S2x3200000, .i32⟩ : BufTy).Contents (Elt Ideal)) (e : Fin 3200000) :
    val_main_v86 (F := Ideal) x1 (ix1 e) = normWord 100000#32 (srcWord x1 e) := by
  rw [val_main_v86_apply, val_main_v83_apply, val_main_v85_apply, val_main_v82_apply, val_main_c_19_apply,
    val_main_v84_apply, val_main_c_20_apply, v1_ix1]
  rfl

theorem v87_eq (x1 : (⟨S2x3200000, .i32⟩ : BufTy).Contents (Elt Ideal)) : val_main_v87 (F := Ideal) x1 = srcCol 100000#32 x1 := by
  unfold val_main_v87
  exact bcol_eq _ _ _ (v86_ix1 x1)

/-! ## The degrees -/

theorem scatVec_eq : scatter_S100000_S3200000x1_S3200000_n_0_0_1
    = scatterVec 100000 3200000 Gen.scatter_S100000_S3200000x1_S3200000_n_0_0_1_wf := rfl

theorem gathVec_eq : gather_S100000_S3200000x1_S3200000_n_0_n_n_0_1_1
    = gatherVec 100000 3200000 Gen.gather_S100000_S3200000x1_S3200000_n_0_n_n_0_1_1_wf := rfl

/-- The count of the edges landing on a row, as the scatter-add of ones into zeros accumulates it. -/
theorem deg_apply {N E : ℕ} (wf : ScatterDims.WF ⟨1, ![N]⟩ ⟨2, ![E, 1]⟩ ⟨1, ![E]⟩ [] [0] [0] 1)
    (z : (⟨1, ![N]⟩ : Shape).Idx → EReal) (hz : ∀ i, z i = 0)
    (ones : (⟨1, ![E]⟩ : Shape).Idx → EReal) (h1 : ∀ i, ones i = Ideal.ofBits .f32 oneWord)
    (ci : IVec ⟨2, ![E, 1]⟩ 32) (r : Fin N) :
    Host.scatterAdd (F := Ideal) (φ := .f32) (scatterVec N E wf) z ci ones (ix1 r)
      = (0 : EReal) + ∑ _e ∈ inEdges ci r, Ideal.ofBits .f32 oneWord := by
  rw [scatterAdd_vec_apply, hz]
  exact congrArg (_ + ·) (Finset.sum_congr rfl fun e _ => h1 _)

theorem v5_zero (i : S100000.Idx) : val_main_v5 (F := Ideal) i = 0 := (val_main_v5_apply i).trans Ideal.ofBits_zero_f32
theorem v55_zero (i : S100000.Idx) : val_main_v55 (F := Ideal) i = 0 := (val_main_v55_apply i).trans Ideal.ofBits_zero_f32
theorem v12_one (i : S3200000.Idx) : val_main_v12 (F := Ideal) i = Ideal.ofBits .f32 oneWord := val_main_v12_apply i
theorem v62_one (i : S3200000.Idx) : val_main_v62 (F := Ideal) i = Ideal.ofBits .f32 oneWord := val_main_v62_apply i
theorem v14_one (i : S100000.Idx) : val_main_v14 (F := Ideal) i = Ideal.ofBits .f32 oneWord := val_main_v14_apply i
theorem v64_one (i : S100000.Idx) : val_main_v64 (F := Ideal) i = Ideal.ofBits .f32 oneWord := val_main_v64_apply i

theorem v16_eq (x1 : (⟨S2x3200000, .i32⟩ : BufTy).Contents (Elt Ideal)) :
    val_main_v16 (F := Ideal) x1 = invSqrtDeg (N := 100000) (dstNormCol 100000#32 x1) := by
  funext i
  obtain ⟨r, rfl⟩ : ∃ r : Fin 100000, i = ix1 r := ⟨i 0, eq_ix1 i⟩
  rw [val_main_v16_apply, val_main_v15_apply, invSqrtDeg_ix1]
  have h13 : val_main_v13 (F := Ideal) x1 (ix1 r)
      = (0 : EReal) + ∑ _e ∈ inEdges (dstNormCol 100000#32 x1) r, Ideal.ofBits .f32 oneWord := by
    unfold val_main_v13
    rw [scatVec_eq, v11_eq]
    exact deg_apply _ _ v5_zero _ v12_one _ r
  rw [h13, v14_one, Ideal.hostUnary_rsqrt_def, Ideal.addf_def]

theorem v66_eq (x1 : (⟨S2x3200000, .i32⟩ : BufTy).Contents (Elt Ideal)) :
    val_main_v66 (F := Ideal) x1 = invSqrtDeg (N := 100000) (dstNormCol 100000#32 x1) := by
  funext i
  obtain ⟨r, rfl⟩ : ∃ r : Fin 100000, i = ix1 r := ⟨i 0, eq_ix1 i⟩
  rw [val_main_v66_apply, val_main_v65_apply, invSqrtDeg_ix1]
  have h13 : val_main_v63 (F := Ideal) x1 (ix1 r)
      = (0 : EReal) + ∑ _e ∈ inEdges (dstNormCol 100000#32 x1) r, Ideal.ofBits .f32 oneWord := by
    unfold val_main_v63
    rw [scatVec_eq, v61_eq]
    exact deg_apply _ _ v55_zero _ v62_one _ r
  rw [h13, v64_one, Ideal.hostUnary_rsqrt_def, Ideal.addf_def]

theorem hN : 0 < 100000 := by decide

/-- The rank-1 gather read at e, through the clamped row index. -/
theorem gather_vec_srcRow {α : Type} {N E w : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gatherVec N E wf) x idx (ix1 e) = x (ix1 (srcRow hN idx e)) := gather_vec_apply hN wf x idx e

/-! ## A layer over 16 columns -/

theorem gathRows16_eq : gather_S100000x16_S3200000x1_S3200000x16_1_0_n_n_0_1_116
    = gatherRows 100000 3200000 16 Gen.gather_S100000x16_S3200000x1_S3200000x16_1_0_n_n_0_1_116_wf := rfl

theorem scatRows16_eq : scatter_S100000x16_S3200000x1_S3200000x16_1_0_0_1
    = scatterRows 100000 3200000 16 Gen.scatter_S100000x16_S3200000x1_S3200000x16_1_0_0_1_wf := rfl

/-- The per-edge coefficient d(src e) · d(dst e). -/
theorem v31_ix1 (x1 : (⟨S2x3200000, .i32⟩ : BufTy).Contents (Elt Ideal)) (e : Fin 3200000) :
    val_main_v31 (F := Ideal) x1 (ix1 e) = (invSqrtDeg (N := 100000) (dstNormCol 100000#32 x1) (ix1 (srcRow hN (srcCol 100000#32 x1) e)) * invSqrtDeg (N := 100000) (dstNormCol 100000#32 x1) (ix1 (srcRow hN (dstNormCol 100000#32 x1) e))) := by
  rw [val_main_v31_apply]
  unfold val_main_v23 val_main_v30
  rw [gathVec_eq, v16_eq, v22_eq, v29_eq, gather_vec_srcRow hN, gather_vec_srcRow hN, Ideal.mulf_def]

theorem v40_ix2 (x1 : (⟨S2x3200000, .i32⟩ : BufTy).Contents (Elt Ideal)) (e : Fin 3200000) (c : Fin 16) :
    val_main_v40 (F := Ideal) x1 (ix2 e c) = val_main_v31 (F := Ideal) x1 (ix1 e) := by
  rw [val_main_v40_apply, val_main_v39_apply]
  exact congrArg (val_main_v31 (F := Ideal) x1) (funext fun a => match a with | ⟨0, _⟩ => rfl)

theorem v41_ix2 (x0 : (⟨S100000x128, .f32⟩ : BufTy).Contents (Elt Ideal)) (x1 : (⟨S2x3200000, .i32⟩ : BufTy).Contents (Elt Ideal)) (x2 : (⟨S128x16, .f32⟩ : BufTy).Contents (Elt Ideal)) (e : Fin 3200000) (c : Fin 16) :
    val_main_v41 (F := Ideal) x0 x1 x2 (ix2 e c)
      = val_main_v4 (F := Ideal) x0 x2 (ix2 (srcRow hN (srcCol 100000#32 x1) e) c) * (invSqrtDeg (N := 100000) (dstNormCol 100000#32 x1) (ix1 (srcRow hN (srcCol 100000#32 x1) e)) * invSqrtDeg (N := 100000) (dstNormCol 100000#32 x1) (ix1 (srcRow hN (dstNormCol 100000#32 x1) e))) := by
  rw [val_main_v41_apply, v40_ix2, v31_ix1]
  unfold val_main_v38
  rw [gathRows16_eq, v37_eq, gather_rows_apply hN, Ideal.mulf_def]

theorem v42_zero (i : S100000x16.Idx) : val_main_v42 (F := Ideal) i = 0 :=
  (val_main_v42_apply i).trans Ideal.ofBits_zero_f32

theorem v44_ix2 (x0 : (⟨S100000x128, .f32⟩ : BufTy).Contents (Elt Ideal)) (x1 : (⟨S2x3200000, .i32⟩ : BufTy).Contents (Elt Ideal)) (x2 : (⟨S128x16, .f32⟩ : BufTy).Contents (Elt Ideal)) (r : Fin 100000) (c : Fin 16) :
    val_main_v44 (F := Ideal) x0 x1 x2 (ix2 r c)
      = ∑ e ∈ inEdges (dstCol x1) r, val_main_v4 (F := Ideal) x0 x2 (ix2 (srcRow hN (srcCol 100000#32 x1) e) c) * (invSqrtDeg (N := 100000) (dstNormCol 100000#32 x1) (ix1 (srcRow hN (srcCol 100000#32 x1) e)) * invSqrtDeg (N := 100000) (dstNormCol 100000#32 x1) (ix1 (srcRow hN (dstNormCol 100000#32 x1) e))) := by
  unfold val_main_v44
  rw [scatRows16_eq, v43_eq]
  refine (scatterAdd_rows_apply _ _ _ _ r c).trans ?_
  rw [v42_zero, zero_add]
  exact Finset.sum_congr rfl fun e _ => v41_ix2 x0 x1 x2 e c

theorem v48_ix2 (x0 : (⟨S100000x128, .f32⟩ : BufTy).Contents (Elt Ideal)) (x1 : (⟨S2x3200000, .i32⟩ : BufTy).Contents (Elt Ideal)) (x2 : (⟨S128x16, .f32⟩ : BufTy).Contents (Elt Ideal)) (r : Fin 100000) (c : Fin 16) :
    val_main_v48 (F := Ideal) x0 x1 x2 (ix2 r c)
      = val_main_v4 (F := Ideal) x0 x2 (ix2 r c) * (invSqrtDeg (N := 100000) (dstNormCol 100000#32 x1) (ix1 r) * invSqrtDeg (N := 100000) (dstNormCol 100000#32 x1) (ix1 r)) := by
  rw [val_main_v48_apply, val_main_v47_apply, val_main_v46_apply, val_main_v45_apply]
  have hi : idx_main_v46 (idx_main_v47 (ix2 r c)) = ix1 r := funext fun a => match a with | ⟨0, _⟩ => rfl
  rw [hi, v16_eq, Ideal.mulf_def, Ideal.mulf_def]

theorem v51_ix2 (x3 : (⟨S16, .f32⟩ : BufTy).Contents (Elt Ideal)) (r : Fin 100000) (c : Fin 16) :
    val_main_v51 (F := Ideal) x3 (ix2 r c) = x3 (ix1 c) := by
  rw [val_main_v51_apply, val_main_v50_apply]
  exact congrArg x3 (funext fun a => match a with | ⟨0, _⟩ => rfl)

theorem v52_eq (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) :
    val_main_v52 (F := Ideal) x0 x1 x2 x3
      = layerEdgewise hN (invSqrtDeg (N := 100000) (dstNormCol 100000#32 x1)) (srcCol 100000#32 x1) (dstNormCol 100000#32 x1) (dstCol x1) (val_main_v4 (F := Ideal) x0 x2) x3 := by
  funext i
  obtain ⟨r, c, rfl⟩ : ∃ (r : Fin 100000) (c : Fin 16), i = ix2 r c := ⟨i 0, i 1, eq_ix2 i⟩
  rw [val_main_v52_apply, val_main_v49_apply, v44_ix2, v48_ix2, v51_ix2, layerEdgewise_ix2,
    Ideal.addf_def, Ideal.addf_def]

/-! ## The matrix products and the rectifier -/

theorem v4_eq (x0 : (⟨S100000x128, .f32⟩ : BufTy).Contents (Elt Ideal)) (x2 : (⟨S128x16, .f32⟩ : BufTy).Contents (Elt Ideal)) : val_main_v4 (F := Ideal) x0 x2 = mm (R := 100000) (K := 128) (C := 16) x0 x2 := by
  funext i
  obtain ⟨r, c, rfl⟩ : ∃ (r : Fin 100000) (c : Fin 16), i = ix2 r c := ⟨i 0, i 1, eq_ix2 i⟩
  rw [val_main_v4_apply, mm_ix2]
  refine Finset.sum_congr rfl fun k _ => ?_
  have hl : lidx_main_v4 (ix2 r c) k = ix2 r k := funext fun a => match a with | ⟨0, _⟩ => rfl | ⟨1, _⟩ => rfl
  have hr : ridx_main_v4 (ix2 r c) k = ix2 k c := funext fun a => match a with | ⟨0, _⟩ => rfl | ⟨1, _⟩ => rfl
  rw [hl, hr]

theorem v53_eq (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) : val_main_v53 (F := Ideal) x0 x1 x2 x3 = relu (val_main_v52 (F := Ideal) x0 x1 x2 x3) := by
  funext i
  rw [val_main_v53_apply, val_main_call0_v0_apply, val_main_call0_cst_apply, relu_apply, Ideal.maximumf_def, Ideal.ofBits_def]

theorem v54_eq (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) (x4 : (⟨S16x11, .f32⟩ : BufTy).Contents (Elt Ideal)) :
    val_main_v54 (F := Ideal) x0 x1 x2 x3 x4 = mm (R := 100000) (K := 16) (C := 11) (val_main_v53 (F := Ideal) x0 x1 x2 x3) x4 := by
  funext i
  obtain ⟨r, c, rfl⟩ : ∃ (r : Fin 100000) (c : Fin 11), i = ix2 r c := ⟨i 0, i 1, eq_ix2 i⟩
  rw [val_main_v54_apply, mm_ix2]
  refine Finset.sum_congr rfl fun k _ => ?_
  have hl : lidx_main_v54 (ix2 r c) k = ix2 r k := funext fun a => match a with | ⟨0, _⟩ => rfl | ⟨1, _⟩ => rfl
  have hr : ridx_main_v54 (ix2 r c) k = ix2 k c := funext fun a => match a with | ⟨0, _⟩ => rfl | ⟨1, _⟩ => rfl
  rw [hl, hr]

/-! ## A layer over 11 columns -/

theorem gathRows11_eq : gather_S100000x11_S3200000x1_S3200000x11_1_0_n_n_0_1_111
    = gatherRows 100000 3200000 11 Gen.gather_S100000x11_S3200000x1_S3200000x11_1_0_n_n_0_1_111_wf := rfl

theorem scatRows11_eq : scatter_S100000x11_S3200000x1_S3200000x11_1_0_0_1
    = scatterRows 100000 3200000 11 Gen.scatter_S100000x11_S3200000x1_S3200000x11_1_0_0_1_wf := rfl

/-- The per-edge coefficient d(src e) · d(dst e). -/
theorem v81_ix1 (x1 : (⟨S2x3200000, .i32⟩ : BufTy).Contents (Elt Ideal)) (e : Fin 3200000) :
    val_main_v81 (F := Ideal) x1 (ix1 e) = (invSqrtDeg (N := 100000) (dstNormCol 100000#32 x1) (ix1 (srcRow hN (srcCol 100000#32 x1) e)) * invSqrtDeg (N := 100000) (dstNormCol 100000#32 x1) (ix1 (srcRow hN (dstNormCol 100000#32 x1) e))) := by
  rw [val_main_v81_apply]
  unfold val_main_v73 val_main_v80
  rw [gathVec_eq, v66_eq, v72_eq, v79_eq, gather_vec_srcRow hN, gather_vec_srcRow hN, Ideal.mulf_def]

theorem v90_ix2 (x1 : (⟨S2x3200000, .i32⟩ : BufTy).Contents (Elt Ideal)) (e : Fin 3200000) (c : Fin 11) :
    val_main_v90 (F := Ideal) x1 (ix2 e c) = val_main_v81 (F := Ideal) x1 (ix1 e) := by
  rw [val_main_v90_apply, val_main_v89_apply]
  exact congrArg (val_main_v81 (F := Ideal) x1) (funext fun a => match a with | ⟨0, _⟩ => rfl)

theorem v91_ix2 (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) (x4 : (⟨S16x11, .f32⟩ : BufTy).Contents (Elt Ideal)) (e : Fin 3200000) (c : Fin 11) :
    val_main_v91 (F := Ideal) x0 x1 x2 x3 x4 (ix2 e c)
      = val_main_v54 (F := Ideal) x0 x1 x2 x3 x4 (ix2 (srcRow hN (srcCol 100000#32 x1) e) c) * (invSqrtDeg (N := 100000) (dstNormCol 100000#32 x1) (ix1 (srcRow hN (srcCol 100000#32 x1) e)) * invSqrtDeg (N := 100000) (dstNormCol 100000#32 x1) (ix1 (srcRow hN (dstNormCol 100000#32 x1) e))) := by
  rw [val_main_v91_apply, v90_ix2, v81_ix1]
  unfold val_main_v88
  rw [gathRows11_eq, v87_eq, gather_rows_apply hN, Ideal.mulf_def]

theorem v92_zero (i : S100000x11.Idx) : val_main_v92 (F := Ideal) i = 0 :=
  (val_main_v92_apply i).trans Ideal.ofBits_zero_f32

theorem v94_ix2 (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) (x4 : (⟨S16x11, .f32⟩ : BufTy).Contents (Elt Ideal)) (r : Fin 100000) (c : Fin 11) :
    val_main_v94 (F := Ideal) x0 x1 x2 x3 x4 (ix2 r c)
      = ∑ e ∈ inEdges (dstCol x1) r, val_main_v54 (F := Ideal) x0 x1 x2 x3 x4 (ix2 (srcRow hN (srcCol 100000#32 x1) e) c) * (invSqrtDeg (N := 100000) (dstNormCol 100000#32 x1) (ix1 (srcRow hN (srcCol 100000#32 x1) e)) * invSqrtDeg (N := 100000) (dstNormCol 100000#32 x1) (ix1 (srcRow hN (dstNormCol 100000#32 x1) e))) := by
  unfold val_main_v94
  rw [scatRows11_eq, v93_eq]
  refine (scatterAdd_rows_apply _ _ _ _ r c).trans ?_
  rw [v92_zero, zero_add]
  exact Finset.sum_congr rfl fun e _ => v91_ix2 x0 x1 x2 x3 x4 e c

theorem v98_ix2 (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) (x4 : (⟨S16x11, .f32⟩ : BufTy).Contents (Elt Ideal)) (r : Fin 100000) (c : Fin 11) :
    val_main_v98 (F := Ideal) x0 x1 x2 x3 x4 (ix2 r c)
      = val_main_v54 (F := Ideal) x0 x1 x2 x3 x4 (ix2 r c) * (invSqrtDeg (N := 100000) (dstNormCol 100000#32 x1) (ix1 r) * invSqrtDeg (N := 100000) (dstNormCol 100000#32 x1) (ix1 r)) := by
  rw [val_main_v98_apply, val_main_v97_apply, val_main_v96_apply, val_main_v95_apply]
  have hi : idx_main_v96 (idx_main_v97 (ix2 r c)) = ix1 r := funext fun a => match a with | ⟨0, _⟩ => rfl
  rw [hi, v66_eq, Ideal.mulf_def, Ideal.mulf_def]

theorem v101_ix2 (x5 : (⟨S11, .f32⟩ : BufTy).Contents (Elt Ideal)) (r : Fin 100000) (c : Fin 11) :
    val_main_v101 (F := Ideal) x5 (ix2 r c) = x5 (ix1 c) := by
  rw [val_main_v101_apply, val_main_v100_apply]
  exact congrArg x5 (funext fun a => match a with | ⟨0, _⟩ => rfl)

theorem v102_eq (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) (x4 : (⟨S16x11, .f32⟩ : BufTy).Contents (Elt Ideal)) (x5 : (⟨S11, .f32⟩ : BufTy).Contents (Elt Ideal)) :
    val_main_v102 (F := Ideal) x0 x1 x2 x3 x4 x5
      = layerEdgewise hN (invSqrtDeg (N := 100000) (dstNormCol 100000#32 x1)) (srcCol 100000#32 x1) (dstNormCol 100000#32 x1) (dstCol x1) (val_main_v54 (F := Ideal) x0 x1 x2 x3 x4) x5 := by
  funext i
  obtain ⟨r, c, rfl⟩ : ∃ (r : Fin 100000) (c : Fin 11), i = ix2 r c := ⟨i 0, i 1, eq_ix2 i⟩
  rw [val_main_v102_apply, val_main_v99_apply, v94_ix2, v98_ix2, v101_ix2, layerEdgewise_ix2,
    Ideal.addf_def, Ideal.addf_def]

/-! ## The log-softmax -/

/-- The maximum with minus infinity is the other operand. -/
theorem max_neg_inf (y : EReal) : max (Ideal.ofBits .f32 0xFF800000#32) y = y := by
  simp [Ideal.ofBits, Ideal.ieee]

/-- A row index with column k put back is (r, k). -/
theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

theorem hRed : S100000x11.Reduces [1] S100000 := by decide

/-- From minus infinity the reduce with a maximum body along a row is the row's maximum. -/
theorem hostReduce_max_row {m n : ℕ} (x : FVec Ideal ⟨2, ![m, n]⟩ .f32) (init : FVec Ideal ⟨0, ![]⟩ .f32)
    (hinit : ∀ i, init i = Ideal.ofBits .f32 0xFF800000#32)
    (h' : (⟨2, ![m, n]⟩ : Shape).ReducesTo [1] (⟨1, ![m]⟩ : Shape))
    (h : (⟨2, ![m, n]⟩ : Shape).Reduces [1] (⟨1, ![m]⟩ : Shape)) (hu : 0 < (⟨0, ![]⟩ : Shape).numel) (r : Fin m) :
    Host.reduce FloatOps.maximumf x init h' hu (ix1 r) = rowMax x r := by
  rw [Host.reduce_eq_fold_single FloatOps.maximumf x _ h' h hu, hinit]
  unfold rowMax
  have hf : (x ∘ h.lift (ix1 r)) = fun q : Fin n => x (ix2 r q) := funext fun k => congrArg x (lift_row h r k)
  exact congrArg (fun f => Finset.fold max (Ideal.ofBits .f32 0xFF800000#32) f (Finset.univ : Finset (Fin n))) hf

theorem call1_v0_ix1 (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) (x4 : (⟨S16x11, .f32⟩ : BufTy).Contents (Elt Ideal)) (x5 : (⟨S11, .f32⟩ : BufTy).Contents (Elt Ideal)) (r : Fin 100000) :
    val_main_call1_v0 (F := Ideal) x0 x1 x2 x3 x4 x5 (ix1 r) = rowMax (val_main_v102 (F := Ideal) x0 x1 x2 x3 x4 x5) r := by
  unfold val_main_call1_v0
  generalize val_main_v102 (F := Ideal) x0 x1 x2 x3 x4 x5 = y
  exact hostReduce_max_row y _ (fun _ => rfl) _ hRed _ r

theorem call1_v2_ix1 (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) (x4 : (⟨S16x11, .f32⟩ : BufTy).Contents (Elt Ideal)) (x5 : (⟨S11, .f32⟩ : BufTy).Contents (Elt Ideal)) (r : Fin 100000) :
    val_main_call1_v2 (F := Ideal) x0 x1 x2 x3 x4 x5 (ix1 r) = rowMax (val_main_v102 (F := Ideal) x0 x1 x2 x3 x4 x5) r := by
  rw [val_main_call1_v2_apply, val_main_call1_v1_apply, val_main_call1_cst_0_apply, call1_v0_ix1, Ideal.maximumf_def,
    Ideal.ofBits_def, max_neg_inf]

theorem call1_v5_ix2 (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) (x4 : (⟨S16x11, .f32⟩ : BufTy).Contents (Elt Ideal)) (x5 : (⟨S11, .f32⟩ : BufTy).Contents (Elt Ideal)) (r : Fin 100000) (c : Fin 11) :
    val_main_call1_v5 (F := Ideal) x0 x1 x2 x3 x4 x5 (ix2 r c) = val_main_v102 (F := Ideal) x0 x1 x2 x3 x4 x5 (ix2 r c) - rowMax (val_main_v102 (F := Ideal) x0 x1 x2 x3 x4 x5) r := by
  rw [val_main_call1_v5_apply, val_main_call1_v4_apply, val_main_call1_v3_apply]
  have hi : idx_main_call1_v3 (idx_main_call1_v4 (ix2 r c)) = ix1 r := funext fun a => match a with | ⟨0, _⟩ => rfl
  rw [hi, call1_v2_ix1, Ideal.subf_def]

theorem call1_v7_ix1 (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) (x4 : (⟨S16x11, .f32⟩ : BufTy).Contents (Elt Ideal)) (x5 : (⟨S11, .f32⟩ : BufTy).Contents (Elt Ideal)) (r : Fin 100000) :
    val_main_call1_v7 (F := Ideal) x0 x1 x2 x3 x4 x5 (ix1 r)
      = ∑ q : Fin 11, Ideal.exp (val_main_v102 (F := Ideal) x0 x1 x2 x3 x4 x5 (ix2 r q) - rowMax (val_main_v102 (F := Ideal) x0 x1 x2 x3 x4 x5) r) := by
  rw [val_main_call1_v7_apply, val_main_call1_cst_1_apply, Ideal.ofBits_def, Ideal.ofBits_zero_f32, zero_add]
  refine Finset.sum_congr rfl fun q _ => ?_
  have hi : idx_main_call1_v7 (ix1 r) q = ix2 r q := funext fun a => match a with | ⟨0, _⟩ => rfl | ⟨1, _⟩ => rfl
  rw [val_main_call1_v6_apply, hi, call1_v5_ix2, Ideal.hostUnary_exp_def]

theorem v103_eq (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) (x4 : (⟨S16x11, .f32⟩ : BufTy).Contents (Elt Ideal)) (x5 : (⟨S11, .f32⟩ : BufTy).Contents (Elt Ideal)) : val_main_v103 (F := Ideal) x0 x1 x2 x3 x4 x5 = logSoftmax (val_main_v102 (F := Ideal) x0 x1 x2 x3 x4 x5) := by
  funext i
  obtain ⟨r, c, rfl⟩ : ∃ (r : Fin 100000) (c : Fin 11), i = ix2 r c := ⟨i 0, i 1, eq_ix2 i⟩
  rw [val_main_v103_apply, call1_v5_ix2, val_main_call1_v10_apply, val_main_call1_v9_apply, val_main_call1_v8_apply]
  have hi : idx_main_call1_v8 (idx_main_call1_v10 (ix2 r c)) = ix1 r := funext fun a => match a with | ⟨0, _⟩ => rfl
  rw [hi, call1_v7_ix1, logSoftmax_ix2, Ideal.hostUnary_log_def, Ideal.subf_def]

/-! ## The whole reference -/

theorem ref_eq (x0 : (⟨S100000x128, .f32⟩ : BufTy).Contents (Elt Ideal)) (x1 : (⟨S2x3200000, .i32⟩ : BufTy).Contents (Elt Ideal)) (x2 : (⟨S128x16, .f32⟩ : BufTy).Contents (Elt Ideal)) (x3 : (⟨S16, .f32⟩ : BufTy).Contents (Elt Ideal)) (x4 : (⟨S16x11, .f32⟩ : BufTy).Contents (Elt Ideal)) (x5 : (⟨S11, .f32⟩ : BufTy).Contents (Elt Ideal)) :
    val_main_v103 (F := Ideal) x0 x1 x2 x3 x4 x5 = netEdgewise (by decide : 0 < 100000) 100000#32 x0 x1 x2 x3 x4 x5 := by
  rw [v103_eq, v102_eq, v54_eq, v53_eq, v52_eq, v4_eq]
  rfl

end Cert.ReferenceIdeal.Net

end
-- ==== Proof.GcnBridge.lean ====
/-
  The two arrangements of the two-layer graph convolution agree when no destination index reads negative.

  * With every destination word non-negative, the index normalisation (a word that reads negative has the node count
    added) leaves the destination column unchanged: `dstNormCol K ei = dstCol ei`.
  * An edge that lands on row r reads, through its own clamped destination index, the row r: `srcRow_of_mem`.
  * d(r) = ((0 + Σ_{e lands on r} 1) + 1)^(-1/2) is the reciprocal square root of a real that is at least one, hence a
    non-negative real: `invSqrtDeg_real`.
  * So `layer_eq` applies to both layers: `net_eq`.
-/
import proofs.«122546_j2207613190837_2_alg».proof.Proof.GcnSpec
import Idealize.ShloMosaic.PureOps.Ideal.Laws

noncomputable section

namespace Cert.GcnBridge

open Idealize.ShloMosaic Idealize.ShloMosaic.ValueIdx Cert.GcnSpec Cert.SegmentRows Cert.GcnAggregate Cert.EdgeOrderLib
open scoped BigOperators

/-- The binary32 word of one denotes the real number one. -/
theorem ofBits_one : Ideal.ofBits .f32 oneWord = ((1 : ℝ) : EReal) := by
  show Ideal.ofBits .f32 0x3F800000#32 = ((1 : ℝ) : EReal)
  simp [Ideal.ofBits, Ideal.ieee, -EReal.coe_mul]; norm_num

/-- With no destination word reading negative, the normalised destination column is the destination column. -/
theorem dstNormCol_eq {E : ℕ} (K : BitVec 32) (ei : IVec ⟨2, ![2, E]⟩ 32)
    (hdst : ∀ e : Fin E, 0 ≤ (dstWord ei e).toInt) : dstNormCol K ei = dstCol ei := by
  unfold dstNormCol dstCol
  exact congrArg colOf (funext fun e => norm_of_nonneg K _ (hdst e))

/-- An edge landing on row r reads, through its own clamped index, the row r. -/
theorem srcRow_of_mem {N E : ℕ} (hN : 0 < N) (ci : IVec ⟨2, ![E, 1]⟩ 32) (r : Fin N) (e : Fin E)
    (he : e ∈ inEdges ci r) : srcRow hN ci e = r := by
  unfold inEdges at he
  have h : (ci (ix2 e (0 : Fin 1))).toInt = (r.val : Int) := (Finset.mem_filter.1 he).2
  unfold srcRow
  apply Fin.ext
  show min (ci (ix2 e (0 : Fin 1))).toInt.toNat (N - 1) = r.val
  rw [h, Int.toNat_natCast]
  have := r.isLt
  omega

/-- d(r) is a non-negative real number. -/
theorem invSqrtDeg_real {N E : ℕ} (ci : IVec ⟨2, ![E, 1]⟩ 32) (i : (⟨1, ![N]⟩ : Shape).Idx) :
    ∃ x : ℝ, 0 ≤ x ∧ invSqrtDeg ci i = (x : EReal) := by
  have hpos : (0 : ℝ) < (∑ _e ∈ inEdges ci (i 0), (1 : ℝ)) + 1 := by
    have : (0 : ℝ) ≤ ∑ _e ∈ inEdges ci (i 0), (1 : ℝ) := Finset.sum_nonneg fun _ _ => zero_le_one
    linarith
  have hs : ∑ _e ∈ inEdges ci (i 0), ((1 : ℝ) : EReal) = ((∑ _e ∈ inEdges ci (i 0), (1 : ℝ) : ℝ) : EReal) :=
    (coe_sum (inEdges ci (i 0)) (fun _ => (1 : ℝ))).symm
  have hval : invSqrtDeg ci i = Ideal.rsqrt (((∑ _e ∈ inEdges ci (i 0), (1 : ℝ)) + 1 : ℝ) : EReal) := by
    unfold invSqrtDeg
    rw [ofBits_one, zero_add, hs, ← EReal.coe_add]
  refine ⟨(Real.sqrt ((∑ _e ∈ inEdges ci (i 0), (1 : ℝ)) + 1))⁻¹, inv_nonneg.2 (Real.sqrt_nonneg _), ?_⟩
  rw [hval, Ideal.rsqrt_coe, if_neg (not_lt.mpr hpos.le), if_neg hpos.ne']

theorem invSqrtDeg_nonneg {N E : ℕ} (ci : IVec ⟨2, ![E, 1]⟩ 32) (i : (⟨1, ![N]⟩ : Shape).Idx) :
    0 ≤ invSqrtDeg ci i := by
  obtain ⟨x, hx, h⟩ := invSqrtDeg_real ci i
  rw [h]
  exact EReal.coe_nonneg.2 hx

theorem invSqrtDeg_ne_top {N E : ℕ} (ci : IVec ⟨2, ![E, 1]⟩ 32) (i : (⟨1, ![N]⟩ : Shape).Idx) :
    invSqrtDeg ci i ≠ ⊤ := by
  obtain ⟨x, _, h⟩ := invSqrtDeg_real ci i
  rw [h]
  exact EReal.coe_ne_top x

/-- THE TWO ARRANGEMENTS OF THE NETWORK AGREE when no destination word reads negative. -/
theorem net_eq {N E I H O : ℕ} (hN : 0 < N) (K : BitVec 32) (x : (⟨2, ![N, I]⟩ : Shape).Idx → EReal) (ei : IVec ⟨2, ![2, E]⟩ 32)
    (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal)
    (hdst : ∀ e : Fin E, 0 ≤ (dstWord ei e).toInt) :
    netEdgewise hN K x ei w1 b1 w2 b2 = netScaled hN K x ei w1 b1 w2 b2 := by
  unfold netEdgewise netScaled
  rw [dstNormCol_eq K ei hdst]
  have hl : ∀ {C : ℕ} (a : (⟨2, ![N, C]⟩ : Shape).Idx → EReal) (b : (⟨1, ![C]⟩ : Shape).Idx → EReal),
      layerEdgewise hN (invSqrtDeg (dstCol ei)) (srcCol K ei) (dstCol ei) (dstCol ei) a b
        = layerScaled hN (invSqrtDeg (dstCol ei)) (srcCol K ei) (dstCol ei) a b := fun a b =>
    layer_eq hN _ (invSqrtDeg_nonneg _) (invSqrtDeg_ne_top _) _ _ _ (fun r e he => srcRow_of_mem hN _ r e he) a b
  rw [hl, hl]

end Cert.GcnBridge

end
-- ==== Proof.PreEdges.lean ====
/-
  What the precondition says of the edge table.

  The precondition is one bit: the conjunction, over every float argument, of "every entry has absolute value below +∞",
  and, over the edge table, of "every entry is at least 0" and "every entry is below the number of nodes". Read back at
  an entry of the edge table, its second-to-last conjunct says the entry, read signed, is non-negative.
-/
import proofs.«122546_j2207613190837_2_alg».proof.Pre_finite_inputs
import Idealize.ShloMosaic.Lib.ReduceAll
import Idealize.ShloMosaic.Lib.ValueIdx
import Idealize.ShloMosaic.PureOps.Ideal

noncomputable section

namespace Cert.PreEdges

open Idealize.ShloMosaic Idealize.ShloMosaic.ValueIdx Cert.Pre_finite_inputs

instance : Subsingleton S_.Idx := ⟨fun a b => funext fun d => d.elim0⟩

/-- A signed "at least" that came out true. -/
theorem nonneg_of_sge (w : BitVec 32) (h : IntOp.cmpi .sge w 0#32 = 1#1) : 0 ≤ w.toInt := by
  unfold IntOp.cmpi at h
  have h' : (0#32).sle w = true := by
    revert h; cases (0#32).sle w <;> simp
  rw [BitVec.sle_eq_decide] at h'
  simpa using h'

/-- Under the precondition every entry of the edge table reads signed as a non-negative integer. -/
theorem edge_nonneg [Cert.Pre_finite_inputs.Facts] {F : FTy → Type} [FloatOps F]
    (x0 : FVec F S100000x128 .f32) (x1 : IVec S2x3200000 32) (x2 : FVec F S128x16 .f32) (x3 : FVec F S16 .f32)
    (x4 : FVec F S16x11 .f32) (x5 : FVec F S11 .f32)
    (h : Cert.Pre_finite_inputs.fn (F := F) x0 x1 x2 x3 x4 x5 = fun _ => 1#1) (i : S2x3200000.Idx) :
    0 ≤ (x1 i).toInt := by
  have e := congrFun h ix0
  unfold Cert.Pre_finite_inputs.fn Cert.Pre_finite_inputs.fn_part1 at e
  dsimp only at e
  obtain ⟨e1, -⟩ := IntOp.andi_eq_one.1 e
  obtain ⟨-, e2⟩ := IntOp.andi_eq_one.1 e1
  have e3 := Host.reduce_andi_all _ _ _ _ _ e2 i
  exact nonneg_of_sge _ e3

end Cert.PreEdges

end
-- ==== Proof.lean ====
/-
  The certificate of a two-layer graph convolution: a kernel of four pipelined regions (two dense projections on the
  matrix unit, two closing passes on the vector unit) among host gathers and segment sums, against a reference that runs
  on the host alone.

  Both programs compute, for N nodes and E edges, two layers of
      out(r, c) = Σ_{e lands on r} d(src e) · d(r) · a(src e, c) + d(r)² · a(r, c) + b(c),
  with d(r) the reciprocal square root of one plus the number of edges landing on r, a rectifier between the layers and a
  row-wise log-softmax at the end. The kernel scales the node array by d before gathering and pulls d(r) out of the sum
  (`GcnSpec.netScaled`); the reference forms d(src e) · d(dst e) per edge and counts the degrees over the NORMALISED
  destinations (`GcnSpec.netEdgewise`). The two arrangements agree when every destination index is non-negative — then
  normalising changes nothing, an edge landing on r has destination r, and d(r) is a non-negative real, over which a
  product distributes over any finite sum of extended reals (`GcnBridge.net_eq`); the precondition says so of every entry
  of the edge table (`PreEdges.edge_nonneg`). No finiteness of a float input is used.

  * the kernel's run with its result array named (`Net.run_value`) and that array as `netScaled` of the launch contents
    (`Net.W7_v42`: the regions by their whole-array functions, the host stretches read at the buffers the regions take);
  * the reference's run, its result term as the composed stages (`RunValue.after_eq_val`) and those as `netEdgewise`
    (`Net.ref_eq`);
  * the three frames, `preserves` (the idealization rewrote nothing) and `algebraic`.
-/
import proofs.«122546_j2207613190837_2_alg».proof.Defs
import proofs.«122546_j2207613190837_2_alg».proof.Proof.Gen.Kernel
import proofs.«122546_j2207613190837_2_alg».proof.Proof.Gen.Kernel.Skeleton
import proofs.«122546_j2207613190837_2_alg».proof.Proof.Gen.Kernel.Launch
import proofs.«122546_j2207613190837_2_alg».proof.Proof.Gen.Kernel.Points
import proofs.«122546_j2207613190837_2_alg».proof.Proof.Gen.Kernel.Frame
import proofs.«122546_j2207613190837_2_alg».proof.Proof.Gen.KernelIdeal
import proofs.«122546_j2207613190837_2_alg».proof.Proof.Gen.KernelIdeal.Skeleton
import proofs.«122546_j2207613190837_2_alg».proof.Proof.Gen.KernelIdeal.Launch
import proofs.«122546_j2207613190837_2_alg».proof.Proof.Gen.KernelIdeal.Points
import proofs.«122546_j2207613190837_2_alg».proof.Proof.Gen.KernelIdeal.Frame
import proofs.«122546_j2207613190837_2_alg».proof.Proof.Gen.ReferenceIdeal
import proofs.«122546_j2207613190837_2_alg».proof.Proof.Gen.Pre_finite_inputs
import proofs.«122546_j2207613190837_2_alg».proof.Proof.KernelRun
import proofs.«122546_j2207613190837_2_alg».proof.Proof.KernelNet
import proofs.«122546_j2207613190837_2_alg».proof.Proof.RefRunP
import proofs.«122546_j2207613190837_2_alg».proof.Proof.RefRunValue
import proofs.«122546_j2207613190837_2_alg».proof.Proof.RefNet
import proofs.«122546_j2207613190837_2_alg».proof.Proof.GcnBridge
import proofs.«122546_j2207613190837_2_alg».proof.Proof.PreEdges
import Idealize.ShloMosaic.Adequacy
import Idealize.ShloMosaic.Init

noncomputable section

namespace Cert.Proof

open Idealize.ShloMosaic Idealize.ShloMosaic.ValueIdx Idealize.SL.Sem Cert.GcnSpec

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run_after (F := Ideal) m ρ)

/-- Under the precondition every destination index of the edge table is non-negative. -/
theorem dst_nonneg (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 3200000) :
    0 ≤ (dstWord (m ((c.tc : Thread Cert.KernelIdeal.nD Cert.KernelIdeal.τ).loc Cert.KernelIdeal.main_arg1) : IVec ⟨2, ![2, 3200000]⟩ 32) e).toInt :=
  Cert.PreEdges.edge_nonneg _ _ _ _ _ _ (hpre c) (ix2 (1 : Fin 2) e)

/-- Run from memories agreeing on the arguments, both programs end with the result array at the same network of the
    launch contents: the kernel's in the scaled arrangement, the reference's in the edgewise one, equal under the
    precondition. -/
theorem algebraic : Cert.algebraic_KernelIdeal_ReferenceIdeal := by
  intro m ρ m' ρ' hpre hagree
  refine ⟨fun c => netScaled Cert.KernelIdeal.Net.hN 100000#32
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono (fun _ h c => ⟨(h c).1.trans (Cert.KernelIdeal.Net.W7_v42 m ρ c), (h c).2⟩)
      (Cert.KernelIdeal.Net.run_value (F := Ideal) m ρ)
  · refine (θ_run Cert.ReferenceIdeal.defs _ _).mono (fun _ h c => ⟨(h c).1.trans ?_, (h c).2⟩)
      (Cert.ReferenceIdeal.ValueP.run_after (F := Ideal) m' ρ')
    rw [Cert.ReferenceIdeal.RunValue.after_eq_val m' c, (hagree c).1, (hagree c).2.1, (hagree c).2.2.1, (hagree c).2.2.2.1,
      (hagree c).2.2.2.2.1, (hagree c).2.2.2.2.2, Cert.ReferenceIdeal.Net.ref_eq]
    exact Cert.GcnBridge.net_eq _ _ _ _ _ _ _ _ (dst_nonneg m hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
